-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4000000 : Shape := ⟨2, ![2, 4000000]⟩
abbrev S100000 : Shape := ⟨1, ![100000]⟩
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S32x1 .f32) (main_arg11 : FVec F S1 .f32) (main_v33 : IVec S_ 1) : IVec S_ 1 :=
  let main_v34 : FVec F S32x1 .f32 := Host.absf main_arg10
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S3x64x64 .f32) (main_arg8 : FVec F S128x32 .f32) (main_arg9 : FVec F S32 .f32) (main_arg10 : FVec F S32x1 .f32) (main_arg11 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg7
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S128x32 .f32 := Host.absf main_arg8
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg9
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg10 main_arg11 main_v33

def fn {F : FTy → Type} [FloatOps F] (main_arg0 : IVec S2x4000000 32) (main_arg1 : IVec S100000 32) (main_arg2 : IVec S100000 32) (main_arg3 : FVec F S100000x64 .f32) (main_arg4 : FVec F S50000x64 .f32) (main_arg5 : FVec F S3x64x64 .f32) (main_arg6 : FVec F S3x64 .f32) (main_arg7 : FVec F S3x64x64 .f32) (main_arg8 : FVec F S128x32 .f32) (main_arg9 : FVec F S32 .f32) (main_arg10 : FVec F S32x1 .f32) (main_arg11 : FVec F S1 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg4
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3x64x64 .f32 := Host.absf main_arg5
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg6
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg7 main_arg8 main_arg9 main_arg10 main_arg11 main_v13 main_v16
-- ==== Kernel.lean ====
abbrev S2x4000000 : Shape := ⟨2, ![2, 4000000]⟩
abbrev S100000 : Shape := ⟨1, ![100000]⟩
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x4000000 : Shape := ⟨2, ![1, 4000000]⟩
abbrev S4000000 : Shape := ⟨1, ![4000000]⟩
abbrev S150000x64 : Shape := ⟨2, ![150000, 64]⟩
abbrev S_ : Shape := ⟨0, ![]⟩
abbrev S150000 : Shape := ⟨1, ![150000]⟩
abbrev S4000000x1 : Shape := ⟨2, ![4000000, 1]⟩
abbrev S150000x1 : Shape := ⟨2, ![150000, 1]⟩
abbrev S4000000x64 : Shape := ⟨2, ![4000000, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S128x64 : Shape := ⟨2, ![128, 64]⟩
abbrev S6000x64 : Shape := ⟨2, ![6000, 64]⟩
abbrev S6000x1 : Shape := ⟨2, ![6000, 1]⟩
abbrev S6000x128 : Shape := ⟨2, ![6000, 128]⟩
abbrev S100000x1 : Shape := ⟨2, ![100000, 1]⟩
abbrev S64x32 : Shape := ⟨2, ![64, 32]⟩
abbrev S1x32 : Shape := ⟨2, ![1, 32]⟩
abbrev S1x1 : Shape := ⟨2, ![1, 1]⟩
abbrev S10000x64 : Shape := ⟨2, ![10000, 64]⟩
abbrev S10000x1 : Shape := ⟨2, ![10000, 1]⟩
abbrev S10000x32 : Shape := ⟨2, ![10000, 32]⟩

abbrev nBuf : Space → Nat
  | .hbm => 125
  | .vmem => 41
  | .smem => 0
  | _ => 0

abbrev bufTy : (tb : Table) → Fin (tcTables nBuf tb) → BufTy
  | .hbm, ⟨0, _⟩ => ⟨S2x4000000, .i32⟩
  | .hbm, ⟨1, _⟩ => ⟨S100000, .i32⟩
  | .hbm, ⟨2, _⟩ => ⟨S100000, .i32⟩
  | .hbm, ⟨3, _⟩ => ⟨S100000x64, .f32⟩
  | .hbm, ⟨4, _⟩ => ⟨S50000x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S128x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x4000000, .i32⟩
  | .hbm, ⟨13, _⟩ => ⟨S4000000, .i32⟩
  | .hbm, ⟨14, _⟩ => ⟨S1x4000000, .i32⟩
  | .hbm, ⟨15, _⟩ => ⟨S4000000, .i32⟩
  | .hbm, ⟨16, _⟩ => ⟨S150000x64, .f32⟩
  | .hbm, ⟨17, _⟩ => ⟨S_, .f32⟩
  | .hbm, ⟨18, _⟩ => ⟨S4000000, .f32⟩
  | .hbm, ⟨19, _⟩ => ⟨S_, .f32⟩
  | .hbm, ⟨20, _⟩ => ⟨S150000, .f32⟩
  | .hbm, ⟨21, _⟩ => ⟨S4000000x1, .i32⟩
  | .hbm, ⟨22, _⟩ => ⟨S150000, .f32⟩
  | .hbm, ⟨23, _⟩ => ⟨S_, .f32⟩
  | .hbm, ⟨24, _⟩ => ⟨S150000, .f32⟩
  | .hbm, ⟨25, _⟩ => ⟨S150000, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S150000x1, .f32⟩
  | .hbm, ⟨30, _⟩ => ⟨S_, .i32⟩
  | .hbm, ⟨31, _⟩ => ⟨S4000000, .i32⟩
  | .hbm, ⟨32, _⟩ => ⟨S4000000, .i1⟩
  | .hbm, ⟨33, _⟩ => ⟨S_, .i32⟩
  | .hbm, ⟨34, _⟩ => ⟨S4000000, .i32⟩
  | .hbm, ⟨35, _⟩ => ⟨S4000000, .i32⟩
  | .hbm, ⟨36, _⟩ => ⟨S4000000, .i32⟩
  | .hbm, ⟨37, _⟩ => ⟨S4000000x1, .i32⟩
  | .hbm, ⟨38, _⟩ => ⟨S4000000x64, .f32⟩
  | .hbm, ⟨39, _⟩ => ⟨S_, .f32⟩
  | .hbm, ⟨40, _⟩ => ⟨S150000x64, .f32⟩
  | .hbm, ⟨41, _⟩ => ⟨S4000000x1, .i32⟩
  | .hbm, ⟨42, _⟩ => ⟨S150000x64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S1x64x64, .f32⟩
  | .hbm, ⟨47, _⟩ => ⟨S64x64, .f32⟩
  | .hbm, ⟨48, _⟩ => ⟨S1x64x64, .f32⟩
  | .hbm, ⟨49, _⟩ => ⟨S64x64, .f32⟩
  | .hbm, ⟨50, _⟩ => ⟨S128x64, .f32⟩
  | .hbm, ⟨51, _⟩ => ⟨S150000x64, .bf16⟩
  | .hbm, ⟨52, _⟩ => ⟨S_, .i32⟩
  | .hbm, ⟨53, _⟩ => ⟨S4000000, .i32⟩
  | .hbm, ⟨54, _⟩ => ⟨S4000000, .i1⟩
  | .hbm, ⟨55, _⟩ => ⟨S_, .i32⟩
  | .hbm, ⟨56, _⟩ => ⟨S4000000, .i32⟩
  | .hbm, ⟨57, _⟩ => ⟨S4000000, .i32⟩
  | .hbm, ⟨58, _⟩ => ⟨S4000000, .i32⟩
  | .hbm, ⟨59, _⟩ => ⟨S4000000x1, .i32⟩
  | .hbm, ⟨60, _⟩ => ⟨S4000000x64, .bf16⟩
  | .hbm, ⟨61, _⟩ => ⟨S4000000x64, .f32⟩
  | .hbm, ⟨62, _⟩ => ⟨S_, .f32⟩
  | .hbm, ⟨63, _⟩ => ⟨S150000x64, .f32⟩
  | .hbm, ⟨64, _⟩ => ⟨S4000000x1, .i32⟩
  | .hbm, ⟨65, _⟩ => ⟨S150000x64, .f32⟩
  | .hbm, ⟨66, _⟩ => ⟨S1x64, .f32⟩
  | .hbm, ⟨67, _⟩ => ⟨S64, .f32⟩
  | .hbm, ⟨68, _⟩ => ⟨S1x64, .f32⟩
  | .hbm, ⟨69, _⟩ => ⟨S1x64x64, .f32⟩
  | .hbm, ⟨70, _⟩ => ⟨S64x64, .f32⟩
  | .hbm, ⟨71, _⟩ => ⟨S1x64x64, .f32⟩
  | .hbm, ⟨72, _⟩ => ⟨S64x64, .f32⟩
  | .hbm, ⟨73, _⟩ => ⟨S128x64, .f32⟩
  | .hbm, ⟨74, _⟩ => ⟨S150000x64, .bf16⟩
  | .hbm, ⟨75, _⟩ => ⟨S_, .i32⟩
  | .hbm, ⟨76, _⟩ => ⟨S4000000, .i32⟩
  | .hbm, ⟨77, _⟩ => ⟨S4000000, .i1⟩
  | .hbm, ⟨78, _⟩ => ⟨S_, .i32⟩
  | .hbm, ⟨79, _⟩ => ⟨S4000000, .i32⟩
  | .hbm, ⟨80, _⟩ => ⟨S4000000, .i32⟩
  | .hbm, ⟨81, _⟩ => ⟨S4000000, .i32⟩
  | .hbm, ⟨82, _⟩ => ⟨S4000000x1, .i32⟩
  | .hbm, ⟨83, _⟩ => ⟨S4000000x64, .bf16⟩
  | .hbm, ⟨84, _⟩ => ⟨S4000000x64, .f32⟩
  | .hbm, ⟨85, _⟩ => ⟨S_, .f32⟩
  | .hbm, ⟨86, _⟩ => ⟨S150000x64, .f32⟩
  | .hbm, ⟨87, _⟩ => ⟨S4000000x1, .i32⟩
  | .hbm, ⟨88, _⟩ => ⟨S150000x64, .f32⟩
  | .hbm, ⟨89, _⟩ => ⟨S1x64, .f32⟩
  | .hbm, ⟨90, _⟩ => ⟨S64, .f32⟩
  | .hbm, ⟨91, _⟩ => ⟨S1x64, .f32⟩
  | .hbm, ⟨92, _⟩ => ⟨S1x64x64, .f32⟩
  | .hbm, ⟨93, _⟩ => ⟨S64x64, .f32⟩
  | .hbm, ⟨94, _⟩ => ⟨S1x64x64, .f32⟩
  | .hbm, ⟨95, _⟩ => ⟨S64x64, .f32⟩
  | .hbm, ⟨96, _⟩ => ⟨S128x64, .f32⟩
  | .hbm, ⟨97, _⟩ => ⟨S150000x64, .bf16⟩
  | .hbm, ⟨98, _⟩ => ⟨S_, .i32⟩
  | .hbm, ⟨99, _⟩ => ⟨S100000, .i32⟩
  | .hbm, ⟨100, _⟩ => ⟨S100000, .i1⟩
  | .hbm, ⟨101, _⟩ => ⟨S_, .i32⟩
  | .hbm, ⟨102, _⟩ => ⟨S100000, .i32⟩
  | .hbm, ⟨103, _⟩ => ⟨S100000, .i32⟩
  | .hbm, ⟨104, _⟩ => ⟨S100000, .i32⟩
  | .hbm, ⟨105, _⟩ => ⟨S100000x1, .i32⟩
  | .hbm, ⟨106, _⟩ => ⟨S100000x64, .bf16⟩
  | .hbm, ⟨107, _⟩ => ⟨S_, .i32⟩
  | .hbm, ⟨108, _⟩ => ⟨S100000, .i32⟩
  | .hbm, ⟨109, _⟩ => ⟨S100000, .i32⟩
  | .hbm, ⟨110, _⟩ => ⟨S_, .i32⟩
  | .hbm, ⟨111, _⟩ => ⟨S100000, .i32⟩
  | .hbm, ⟨112, _⟩ => ⟨S100000, .i1⟩
  | .hbm, ⟨113, _⟩ => ⟨S_, .i32⟩
  | .hbm, ⟨114, _⟩ => ⟨S100000, .i32⟩
  | .hbm, ⟨115, _⟩ => ⟨S100000, .i32⟩
  | .hbm, ⟨116, _⟩ => ⟨S100000, .i32⟩
  | .hbm, ⟨117, _⟩ => ⟨S100000x1, .i32⟩
  | .hbm, ⟨118, _⟩ => ⟨S100000x64, .bf16⟩
  | .hbm, ⟨119, _⟩ => ⟨S64x32, .f32⟩
  | .hbm, ⟨120, _⟩ => ⟨S64x32, .f32⟩
  | .hbm, ⟨121, _⟩ => ⟨S1x32, .f32⟩
  | .hbm, ⟨122, _⟩ => ⟨S1x1, .f32⟩
  | .hbm, ⟨123, _⟩ => ⟨S100000x1, .f32⟩
  | .hbm, ⟨124, _⟩ => ⟨S100000, .f32⟩
  | .local _ .vmem, ⟨0, _⟩ => ⟨S6000x64, .f32⟩
  | .local _ .vmem, ⟨1, _⟩ => ⟨S6000x64, .f32⟩
  | .local _ .vmem, ⟨2, _⟩ => ⟨S6000x1, .f32⟩
  | .local _ .vmem, ⟨3, _⟩ => ⟨S6000x1, .f32⟩
  | .local _ .vmem, ⟨4, _⟩ => ⟨S6000x64, .f32⟩
  | .local _ .vmem, ⟨5, _⟩ => ⟨S6000x64, .f32⟩
  | .local _ .vmem, ⟨6, _⟩ => ⟨S128x64, .f32⟩
  | .local _ .vmem, ⟨7, _⟩ => ⟨S1x64, .f32⟩
  | .local _ .vmem, ⟨8, _⟩ => ⟨S6000x64, .bf16⟩
  | .local _ .vmem, ⟨9, _⟩ => ⟨S6000x64, .bf16⟩
  | .local _ .vmem, ⟨10, _⟩ => ⟨S6000x64, .f32⟩
  | .local _ .vmem, ⟨11, _⟩ => ⟨S6000x64, .f32⟩
  | .local _ .vmem, ⟨12, _⟩ => ⟨S6000x1, .f32⟩
  | .local _ .vmem, ⟨13, _⟩ => ⟨S6000x1, .f32⟩
  | .local _ .vmem, ⟨14, _⟩ => ⟨S6000x64, .bf16⟩
  | .local _ .vmem, ⟨15, _⟩ => ⟨S6000x64, .bf16⟩
  | .local _ .vmem, ⟨16, _⟩ => ⟨S128x64, .f32⟩
  | .local _ .vmem, ⟨17, _⟩ => ⟨S1x64, .f32⟩
  | .local _ .vmem, ⟨18, _⟩ => ⟨S6000x64, .bf16⟩
  | .local _ .vmem, ⟨19, _⟩ => ⟨S6000x64, .bf16⟩
  | .local _ .vmem, ⟨20, _⟩ => ⟨S6000x64, .f32⟩
  | .local _ .vmem, ⟨21, _⟩ => ⟨S6000x64, .f32⟩
  | .local _ .vmem, ⟨22, _⟩ => ⟨S6000x1, .f32⟩
  | .local _ .vmem, ⟨23, _⟩ => ⟨S6000x1, .f32⟩
  | .local _ .vmem, ⟨24, _⟩ => ⟨S6000x64, .bf16⟩
  | .local _ .vmem, ⟨25, _⟩ => ⟨S6000x64, .bf16⟩
  | .local _ .vmem, ⟨26, _⟩ => ⟨S128x64, .f32⟩
  | .local _ .vmem, ⟨27, _⟩ => ⟨S1x64, .f32⟩
  | .local _ .vmem, ⟨28, _⟩ => ⟨S6000x64, .bf16⟩
  | .local _ .vmem, ⟨29, _⟩ => ⟨S6000x64, .bf16⟩
  | .local _ .vmem, ⟨30, _⟩ => ⟨S10000x64, .bf16⟩
  | .local _ .vmem, ⟨31, _⟩ => ⟨S10000x64, .bf16⟩
  | .local _ .vmem, ⟨32, _⟩ => ⟨S10000x64, .bf16⟩
  | .local _ .vmem, ⟨33, _⟩ => ⟨S10000x64, .bf16⟩
  | .local _ .vmem, ⟨34, _⟩ => ⟨S64x32, .f32⟩
  | .local _ .vmem, ⟨35, _⟩ => ⟨S64x32, .f32⟩
  | .local _ .vmem, ⟨36, _⟩ => ⟨S1x32, .f32⟩
  | .local _ .vmem, ⟨37, _⟩ => ⟨S32x1, .f32⟩
  | .local _ .vmem, ⟨38, _⟩ => ⟨S1x1, .f32⟩
  | .local _ .vmem, ⟨39, _⟩ => ⟨S10000x1, .f32⟩
  | .local _ .vmem, ⟨40, _⟩ => ⟨S10000x1, .f32⟩
  | _, _ => ⟨S2x4000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_11 : Ref sig .tc := ⟨.hbm, 98, rfl⟩
abbrev main_v73 : Ref sig .tc := ⟨.hbm, 99, rfl⟩
abbrev main_v74 : Ref sig .tc := ⟨.hbm, 100, rfl⟩
abbrev main_c_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_13 : Ref sig .tc := ⟨.hbm, 107, rfl⟩
abbrev main_v80 : Ref sig .tc := ⟨.hbm, 108, rfl⟩
abbrev main_v81 : Ref sig .tc := ⟨.hbm, 109, rfl⟩
abbrev main_c_14 : Ref sig .tc := ⟨.hbm, 110, rfl⟩
abbrev main_v82 : Ref sig .tc := ⟨.hbm, 111, rfl⟩
abbrev main_v83 : Ref sig .tc := ⟨.hbm, 112, rfl⟩
abbrev main_c_15 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg7_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem7_1 : DmaSem sig := 40

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  concatenates_S100000x64_S50000x64_S150000x64_d0 : Shape.Concatenates [S100000x64, S50000x64] S150000x64 0
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  shapeCasts_S150000_S150000x1 : S150000.ShapeCasts S150000x1
  bcast_S_S150000x64 : S_.BroadcastsInDim S150000x64 (![] : Fin 0 → Fin S150000x64.rank)
  slices_S3x64_S1x64_0_0 : S3x64.Slices ![0, 0] S1x64
  shapeCasts_S1x64_S64 : S1x64.ShapeCasts S64
  shapeCasts_S64_S1x64 : S64.ShapeCasts S1x64
  slices_S3x64x64_S1x64x64_0_0_0 : S3x64x64.Slices ![0, 0, 0] S1x64x64
  shapeCasts_S1x64x64_S64x64 : S1x64x64.ShapeCasts S64x64
  concatenates_S64x64_S64x64_S128x64_d0 : Shape.Concatenates [S64x64, S64x64] S128x64 0
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x64 : S6000x1.Broadcasts S6000x64
  bitsLt_bf16_f32 : FTy.bits .bf16 < FTy.bits .f32
  concatenates_S6000x64_S6000x64_S6000x128_d1 : Shape.Concatenates [S6000x64, S6000x64] S6000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  packedbf16_S6000x64_S6000x64_0_0 : (Rect.unit (s := S6000x64) ![0, 0] S6000x64.size inb_S6000x64_S6000x64_0_0).PackedRows (EltTy.packing .bf16)
  slices_S3x64_S1x64_1_0 : S3x64.Slices ![1, 0] S1x64
  slices_S3x64x64_S1x64x64_1_0_0 : S3x64x64.Slices ![1, 0, 0] S1x64x64
  slices_S3x64_S1x64_2_0 : S3x64.Slices ![2, 0] S1x64
  slices_S3x64x64_S1x64x64_2_0_0 : S3x64x64.Slices ![2, 0, 0] S1x64x64
  bcast_S_S100000 : S_.BroadcastsInDim S100000 (![] : Fin 0 → Fin S100000.rank)
  bcast_S100000_S100000x1_0 : S100000.BroadcastsInDim S100000x1 (![0] : Fin 1 → Fin S100000x1.rank)
  slices_S128x32_S64x32_0_0 : S128x32.Slices ![0, 0] S64x32
  slices_S128x32_S64x32_64_0 : S128x32.Slices ![64, 0] S64x32
  shapeCasts_S32_S1x32 : S32.ShapeCasts S1x32
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S150000_S4000000x1_S4000000_n_0_0_1_wf : ScatterDims.WF S150000 S4000000x1 S4000000 [] [0] [0] 1
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  dot_S6000x128_S128x64_S6000x64_1_0_0_1_n_n_wf : DotDims.WF S6000x128 S128x64 S6000x64 [1] [0] [0] [1] [] []
  gather_S150000x64_S100000x1_S100000x64_1_0_n_n_0_1_164_wf : GatherDims.WF S150000x64 S100000x1 S100000x64 [1] [0] [] [0] [] 1 ![1, 64]
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x1.size a ≤ S150000x1.size a
  hwx0_1 : ∀ i : grid0.Coords, EltTy.bits .f32 = 32 ∨ (Rect.block (s := S150000x1) S6000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S150000x64.size a
  hwx0_2 : ∀ i : grid0.Coords, EltTy.bits .f32 = 32 ∨ (Rect.block (s := S150000x64) S6000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6000x64.size a ≤ S150000x64.size a
  hwx0_5 : ∀ i : grid0.Coords, EltTy.bits .bf16 = 32 ∨ (Rect.block (s := S150000x64) S6000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x1.size a ≤ S150000x1.size a
  hwx1_1 : ∀ i : grid1.Coords, EltTy.bits .f32 = 32 ∨ (Rect.block (s := S150000x1) S6000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x64.size a ≤ S150000x64.size a
  hwx1_2 : ∀ i : grid1.Coords, EltTy.bits .bf16 = 32 ∨ (Rect.block (s := S150000x64) S6000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x64.size a ≤ S150000x64.size a
  hwx1_5 : ∀ i : grid1.Coords, EltTy.bits .bf16 = 32 ∨ (Rect.block (s := S150000x64) S6000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x1.size a ≤ S150000x1.size a
  hwx2_1 : ∀ i : grid2.Coords, EltTy.bits .f32 = 32 ∨ (Rect.block (s := S150000x1) S6000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x64.size a ≤ S150000x64.size a
  hwx2_2 : ∀ i : grid2.Coords, EltTy.bits .bf16 = 32 ∨ (Rect.block (s := S150000x64) S6000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6000x64.size a ≤ S150000x64.size a
  hwx2_5 : ∀ i : grid2.Coords, EltTy.bits .bf16 = 32 ∨ (Rect.block (s := S150000x64) S6000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .bf16 = 32 ∨ (Rect.block (s := S100000x64) S10000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .bf16 = 32 ∨ (Rect.block (s := S100000x64) S10000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x1.size a ≤ S32x1.size a
  hwx3_5 : ∀ i : grid3.Coords, EltTy.bits .f32 = 32 ∨ (Rect.block (s := S32x1) S32x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x1.size a ≤ S100000x1.size a
  hwx3_7 : ∀ i : grid3.Coords, EltTy.bits .f32 = 32 ∨ (Rect.block (s := S100000x1) S10000x1.size (cc3_transform_7 i) (hinb3_7 i)).WholeWords (EltTy.packing .f32)

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def dot_S6000x128_S128x64_S6000x64_1_0_0_1_n_n : DotDims S6000x128 S128x64 S6000x64 where
  lhsContracting := [1]
  rhsContracting := [0]
  lhsNonContracting := [0]
  rhsNonContracting := [1]
  lhsBatch := []
  rhsBatch := []
  wf := dot_S6000x128_S128x64_S6000x64_1_0_0_1_n_n_wf
def gather_S150000x64_S100000x1_S100000x64_1_0_n_n_0_1_164 : GatherDims S150000x64 S100000x1 S100000x64 where
  offsetDims := [1]
  collapsedSliceDims := [0]
  operandBatchingDims := []
  startIndicesBatchingDims := []
  startIndexMap := [0]
  indexVectorDim := 1
  sliceSizes := ![1, 64]
  wf := gather_S150000x64_S100000x1_S100000x64_1_0_n_n_0_1_164_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_v23) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S6000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S6000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S6000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S6000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S6000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S6000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S6000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v71) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S6000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v79) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S32x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v92) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v93) S10000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S2x4000000 : Shape := ⟨2, ![2, 4000000]⟩
abbrev S100000 : Shape := ⟨1, ![100000]⟩
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x4000000 : Shape := ⟨2, ![1, 4000000]⟩
abbrev S4000000 : Shape := ⟨1, ![4000000]⟩
abbrev S150000x64 : Shape := ⟨2, ![150000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S4000000x1 : Shape := ⟨2, ![4000000, 1]⟩
abbrev S4000000x64 : Shape := ⟨2, ![4000000, 64]⟩
abbrev S150000 : Shape := ⟨1, ![150000]⟩
abbrev S150000x1 : Shape := ⟨2, ![150000, 1]⟩
abbrev S100000x1 : Shape := ⟨2, ![100000, 1]⟩
abbrev S100000x128 : Shape := ⟨2, ![100000, 128]⟩
abbrev S100000x32 : Shape := ⟨2, ![100000, 32]⟩
abbrev S1x32 : Shape := ⟨2, ![1, 32]⟩
abbrev S1x1 : Shape := ⟨2, ![1, 1]⟩

abbrev nBuf : Space → Nat
  | .hbm => 179
  | .vmem => 0
  | .smem => 0
  | _ => 0

abbrev hbmTy0_0 (i : Nat) : BufTy := match i % 128 with
  | 0 => ⟨S2x4000000, .i32⟩
  | 1 => ⟨S100000, .i32⟩
  | 2 => ⟨S100000, .i32⟩
  | 3 => ⟨S100000x64, .f32⟩
  | 4 => ⟨S50000x64, .f32⟩
  | 5 => ⟨S3x64x64, .f32⟩
  | 6 => ⟨S3x64, .f32⟩
  | 7 => ⟨S3x64x64, .f32⟩
  | 8 => ⟨S128x32, .f32⟩
  | 9 => ⟨S32, .f32⟩
  | 10 => ⟨S32x1, .f32⟩
  | 11 => ⟨S1, .f32⟩
  | 12 => ⟨S1x4000000, .i32⟩
  | 13 => ⟨S4000000, .i32⟩
  | 14 => ⟨S1x4000000, .i32⟩
  | 15 => ⟨S4000000, .i32⟩
  | 16 => ⟨S150000x64, .f32⟩
  | 17 => ⟨S1x64x64, .f32⟩
  | 18 => ⟨S64x64, .f32⟩
  | 19 => ⟨S1x64, .f32⟩
  | 20 => ⟨S64, .f32⟩
  | 21 => ⟨S1x64x64, .f32⟩
  | 22 => ⟨S64x64, .f32⟩
  | 23 => ⟨S_, .i32⟩
  | 24 => ⟨S4000000, .i32⟩
  | 25 => ⟨S4000000, .i1⟩
  | 26 => ⟨S_, .i32⟩
  | 27 => ⟨S4000000, .i32⟩
  | 28 => ⟨S4000000, .i32⟩
  | 29 => ⟨S4000000, .i32⟩
  | 30 => ⟨S4000000x1, .i32⟩
  | 31 => ⟨S4000000x64, .f32⟩
  | 32 => ⟨S_, .f32⟩
  | 33 => ⟨S150000x64, .f32⟩
  | 34 => ⟨S4000000x1, .i32⟩
  | 35 => ⟨S150000x64, .f32⟩
  | 36 => ⟨S_, .f32⟩
  | 37 => ⟨S4000000, .f32⟩
  | 38 => ⟨S_, .f32⟩
  | 39 => ⟨S150000, .f32⟩
  | 40 => ⟨S4000000x1, .i32⟩
  | 41 => ⟨S150000, .f32⟩
  | 42 => ⟨S_, .f32⟩
  | 43 => ⟨S150000, .f32⟩
  | 44 => ⟨S150000, .f32⟩
  | 45 => ⟨S150000x1, .f32⟩
  | 46 => ⟨S150000x64, .f32⟩
  | 47 => ⟨S150000x64, .f32⟩
  | 48 => ⟨S150000x64, .f32⟩
  | 49 => ⟨S1x64, .f32⟩
  | 50 => ⟨S150000x64, .f32⟩
  | 51 => ⟨S150000x64, .f32⟩
  | 52 => ⟨S150000x64, .f32⟩
  | 53 => ⟨S150000x64, .f32⟩
  | 54 => ⟨S_, .f32⟩
  | 55 => ⟨S150000x64, .f32⟩
  | 56 => ⟨S150000x64, .f32⟩
  | 57 => ⟨S1x64x64, .f32⟩
  | 58 => ⟨S64x64, .f32⟩
  | 59 => ⟨S1x64, .f32⟩
  | 60 => ⟨S64, .f32⟩
  | 61 => ⟨S1x64x64, .f32⟩
  | 62 => ⟨S64x64, .f32⟩
  | 63 => ⟨S_, .i32⟩
  | 64 => ⟨S4000000, .i32⟩
  | 65 => ⟨S4000000, .i1⟩
  | 66 => ⟨S_, .i32⟩
  | 67 => ⟨S4000000, .i32⟩
  | 68 => ⟨S4000000, .i32⟩
  | 69 => ⟨S4000000, .i32⟩
  | 70 => ⟨S4000000x1, .i32⟩
  | 71 => ⟨S4000000x64, .f32⟩
  | 72 => ⟨S_, .f32⟩
  | 73 => ⟨S150000x64, .f32⟩
  | 74 => ⟨S4000000x1, .i32⟩
  | 75 => ⟨S150000x64, .f32⟩
  | 76 => ⟨S_, .f32⟩
  | 77 => ⟨S4000000, .f32⟩
  | 78 => ⟨S_, .f32⟩
  | 79 => ⟨S150000, .f32⟩
  | 80 => ⟨S4000000x1, .i32⟩
  | 81 => ⟨S150000, .f32⟩
  | 82 => ⟨S_, .f32⟩
  | 83 => ⟨S150000, .f32⟩
  | 84 => ⟨S150000, .f32⟩
  | 85 => ⟨S150000x1, .f32⟩
  | 86 => ⟨S150000x64, .f32⟩
  | 87 => ⟨S150000x64, .f32⟩
  | 88 => ⟨S150000x64, .f32⟩
  | 89 => ⟨S1x64, .f32⟩
  | 90 => ⟨S150000x64, .f32⟩
  | 91 => ⟨S150000x64, .f32⟩
  | 92 => ⟨S150000x64, .f32⟩
  | 93 => ⟨S150000x64, .f32⟩
  | 94 => ⟨S_, .f32⟩
  | 95 => ⟨S150000x64, .f32⟩
  | 96 => ⟨S150000x64, .f32⟩
  | 97 => ⟨S1x64x64, .f32⟩
  | 98 => ⟨S64x64, .f32⟩
  | 99 => ⟨S1x64, .f32⟩
  | 100 => ⟨S64, .f32⟩
  | 101 => ⟨S1x64x64, .f32⟩
  | 102 => ⟨S64x64, .f32⟩
  | 103 => ⟨S_, .i32⟩
  | 104 => ⟨S4000000, .i32⟩
  | 105 => ⟨S4000000, .i1⟩
  | 106 => ⟨S_, .i32⟩
  | 107 => ⟨S4000000, .i32⟩
  | 108 => ⟨S4000000, .i32⟩
  | 109 => ⟨S4000000, .i32⟩
  | 110 => ⟨S4000000x1, .i32⟩
  | 111 => ⟨S4000000x64, .f32⟩
  | 112 => ⟨S_, .f32⟩
  | 113 => ⟨S150000x64, .f32⟩
  | 114 => ⟨S4000000x1, .i32⟩
  | 115 => ⟨S150000x64, .f32⟩
  | 116 => ⟨S_, .f32⟩
  | 117 => ⟨S4000000, .f32⟩
  | 118 => ⟨S_, .f32⟩
  | 119 => ⟨S150000, .f32⟩
  | 120 => ⟨S4000000x1, .i32⟩
  | 121 => ⟨S150000, .f32⟩
  | 122 => ⟨S_, .f32⟩
  | 123 => ⟨S150000, .f32⟩
  | 124 => ⟨S150000, .f32⟩
  | 125 => ⟨S150000x1, .f32⟩
  | 126 => ⟨S150000x64, .f32⟩
  | 127 => ⟨S150000x64, .f32⟩
  | _ => ⟨S2x4000000, .i32⟩

abbrev hbmTy0_1 (i : Nat) : BufTy := match i % 128 with
  | 0 => ⟨S150000x64, .f32⟩
  | 1 => ⟨S1x64, .f32⟩
  | 2 => ⟨S150000x64, .f32⟩
  | 3 => ⟨S150000x64, .f32⟩
  | 4 => ⟨S150000x64, .f32⟩
  | 5 => ⟨S150000x64, .f32⟩
  | 6 => ⟨S_, .f32⟩
  | 7 => ⟨S150000x64, .f32⟩
  | 8 => ⟨S150000x64, .f32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x64, .f32⟩
  | 18 => ⟨S_, .i32⟩
  | 19 => ⟨S100000, .i32⟩
  | 20 => ⟨S100000, .i32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S100000x64, .f32⟩
  | 30 => ⟨S100000x128, .f32⟩
  | 31 => ⟨S100000x32, .f32⟩
  | 32 => ⟨S1x32, .f32⟩
  | 33 => ⟨S100000x32, .f32⟩
  | 34 => ⟨S100000x32, .f32⟩
  | 35 => ⟨S_, .f32⟩
  | 36 => ⟨S100000x32, .f32⟩
  | 37 => ⟨S100000x32, .f32⟩
  | 38 => ⟨S100000x1, .f32⟩
  | 39 => ⟨S1x1, .f32⟩
  | 40 => ⟨S100000x1, .f32⟩
  | 41 => ⟨S100000x1, .f32⟩
  | 42 => ⟨S100000, .f32⟩
  | 43 => ⟨S_, .f32⟩
  | 44 => ⟨S_, .f32⟩
  | 45 => ⟨S_, .f32⟩
  | 46 => ⟨S100000, .f32⟩
  | 47 => ⟨S100000, .f32⟩
  | 48 => ⟨S_, .f32⟩
  | 49 => ⟨S100000, .f32⟩
  | 50 => ⟨S100000, .f32⟩
  | _ => ⟨S2x4000000, .i32⟩

abbrev hbmTy (i : Nat) : BufTy := match i / 128 with
  | 0 => hbmTy0_0 i
  | 1 => hbmTy0_1 i
  | _ => ⟨S2x4000000, .i32⟩

abbrev bufTy : (tb : Table) → Fin (tcTables nBuf tb) → BufTy
  | .hbm, ⟨i, _⟩ => hbmTy i
  | _, _ => ⟨S2x4000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_4 : Ref sig .tc := ⟨.hbm, 63, rfl⟩
abbrev main_v43 : Ref sig .tc := ⟨.hbm, 64, rfl⟩
abbrev main_v44 : Ref sig .tc := ⟨.hbm, 65, rfl⟩
abbrev main_c_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_10 : Ref sig .tc := ⟨.hbm, 103, rfl⟩
abbrev main_v75 : Ref sig .tc := ⟨.hbm, 104, rfl⟩
abbrev main_v76 : Ref sig .tc := ⟨.hbm, 105, rfl⟩
abbrev main_c_11 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_12 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_13 : Ref sig .tc := ⟨.hbm, 116, rfl⟩
abbrev main_v85 : Ref sig .tc := ⟨.hbm, 117, rfl⟩
abbrev main_cst_14 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_call2_cst : Ref sig .tc := ⟨.hbm, 134, rfl⟩
abbrev main_call2_v0 : Ref sig .tc := ⟨.hbm, 135, rfl⟩
abbrev main_v100 : Ref sig .tc := ⟨.hbm, 136, rfl⟩
abbrev main_c_16 : Ref sig .tc := ⟨.hbm, 137, rfl⟩
abbrev main_v101 : Ref sig .tc := ⟨.hbm, 138, rfl⟩
abbrev main_v102 : Ref sig .tc := ⟨.hbm, 139, rfl⟩
abbrev main_c_17 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_18 : Ref sig .tc := ⟨.hbm, 146, rfl⟩
abbrev main_v108 : Ref sig .tc := ⟨.hbm, 147, rfl⟩
abbrev main_v109 : Ref sig .tc := ⟨.hbm, 148, rfl⟩
abbrev main_c_19 : Ref sig .tc := ⟨.hbm, 149, rfl⟩
abbrev main_v110 : Ref sig .tc := ⟨.hbm, 150, rfl⟩
abbrev main_v111 : Ref sig .tc := ⟨.hbm, 151, rfl⟩
abbrev main_c_20 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_call3_cst : Ref sig .tc := ⟨.hbm, 163, rfl⟩
abbrev main_call3_v0 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_21 : Ref sig .tc := ⟨.hbm, 171, rfl⟩
abbrev main_cst_22 : Ref sig .tc := ⟨.hbm, 172, rfl⟩
abbrev main_call4_v0 : Ref sig .tc := ⟨.hbm, 173, rfl⟩
abbrev main_call4_v1 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_v128 : Ref sig .tc := ⟨.hbm, 178, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  concatenates_S100000x64_S50000x64_S150000x64_d0 : Shape.Concatenates [S100000x64, S50000x64] S150000x64 0
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S150000x64 : S_.BroadcastsInDim S150000x64 (![] : Fin 0 → Fin S150000x64.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x64_S100000x128_d1 : Shape.Concatenates [S100000x64, S100000x64] S100000x128 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  scatter_S150000_S4000000x1_S4000000_n_0_0_1_wf : ScatterDims.WF S150000 S4000000x1 S4000000 [] [0] [0] 1
  dot_S150000x64_S64x64_S150000x64_1_0_0_1_n_n_wf : DotDims.WF S150000x64 S64x64 S150000x64 [1] [0] [0] [1] [] []
  gather_S150000x64_S100000x1_S100000x64_1_0_n_n_0_1_164_wf : GatherDims.WF S150000x64 S100000x1 S100000x64 [1] [0] [] [0] [] 1 ![1, 64]
  dot_S100000x128_S128x32_S100000x32_1_0_0_1_n_n_wf : DotDims.WF S100000x128 S128x32 S100000x32 [1] [0] [0] [1] [] []
  dot_S100000x32_S32x1_S100000x1_1_0_0_1_n_n_wf : DotDims.WF S100000x32 S32x1 S100000x1 [1] [0] [0] [1] [] []

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x64_S100000x1_S100000x64_1_0_n_n_0_1_164 : GatherDims S150000x64 S100000x1 S100000x64 where
  offsetDims := [1]
  collapsedSliceDims := [0]
  operandBatchingDims := []
  startIndicesBatchingDims := []
  startIndexMap := [0]
  indexVectorDim := 1
  sliceSizes := ![1, 64]
  wf := gather_S150000x64_S100000x1_S100000x64_1_0_n_n_0_1_164_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run with its result named.  @main is nine segments: five stretches of host operations and
  four pipelined regions between them.  Folding the buffer contents through the segments from the launch memory gives,
  at the return, every unscoped buffer at the last boundary's contents; the result buffer is one of them, so every weakly
  fair execution ends with the result at that boundary's value and the twelve argument arrays as launched.
-/
import proofs.«151319_j35064113004962_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the value the last
    segment boundary gives it and every argument array unchanged. -/
theorem run_result : θ_run defs (onTc (τ := τ) (main (F := F))) ⟨m, fun _ => 0, ρ⟩ (fun r => ∀ c : Dev nD,
      r.2.mem ((c.tc : Thread nD τ).loc main_v94) = W9 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v94 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Result

end
-- ==== Proof.BodyOps.lean ====
/-
  The non-pointwise operations of the two kernel bodies read at a row and a column: the three matrix products as plain
  sums over the contracted axis, the spreading of a column or a row over a block, and the joining of two 64-column
  blocks into one of 128 columns.
-/
import proofs.«151319_j35064113004962_2_alg».proof.Proof.Gen.KernelIdeal
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.BodyOps

open Cert.KernelIdeal Cert.KernelIdeal.Gen Idealize.ShloMosaic Idealize.ShloMosaic.ValueIdx

/-- The body's `6000×128` by `128×64` product into a zero accumulator, read at row `r` and column `q`: the sum over
    the 128 contracted positions of the products of the two operands' entries. -/
theorem mm_sage {φ₁ φ₂ : FTy} (L : FVec Ideal S6000x128 φ₁) (R : FVec Ideal S128x64 φ₂) (r : Fin 6000) (q : Fin 64) :
    matmul dot_S6000x128_S128x64_S6000x64_1_0_0_1_n_n none L R (constant S6000x64 .f32 0x00000000#32) (ix2 r q)
      = ∑ k : Fin 128, L (ix2 r k) * R (ix2 k q) := by
  simp only [matmul]
  rw [Ideal.matmul_constant_zero_apply, ← Equiv.sum_comp (contrEquiv1 dot_S6000x128_S128x64_S6000x64_1_0_0_1_n_n 128 rfl rfl).symm]
  refine Finset.sum_congr rfl fun k _ => ?_
  have hk := contrEquiv1_symm_val dot_S6000x128_S128x64_S6000x64_1_0_0_1_n_n 128 rfl rfl k
  have el : dot_S6000x128_S128x64_S6000x64_1_0_0_1_n_n.lhsIdx (ix2 r q) ((contrEquiv1 dot_S6000x128_S128x64_S6000x64_1_0_0_1_n_n 128 rfl rfl).symm k) = ix2 r k := funext fun a => Fin.ext (by
    match a with
    | ⟨0, _⟩ =>
      show (dot_S6000x128_S128x64_S6000x64_1_0_0_1_n_n.lhsIdx (ix2 r q) _ 0).val = r.val
      unfold DotDims.lhsIdx
      rw [dif_neg (show ¬(0 : Fin S6000x128.rank) ∈ dot_S6000x128_S128x64_S6000x64_1_0_0_1_n_n.lhsBatch by decide), dif_pos (show (0 : Fin S6000x128.rank) ∈ dot_S6000x128_S128x64_S6000x64_1_0_0_1_n_n.lhsNonContracting by decide)]
      rfl
    | ⟨1, _⟩ => exact (dot_S6000x128_S128x64_S6000x64_1_0_0_1_n_n.lhsIdx_val_of_single rfl (ix2 r q) _).trans hk)
  have er : dot_S6000x128_S128x64_S6000x64_1_0_0_1_n_n.rhsIdx (ix2 r q) ((contrEquiv1 dot_S6000x128_S128x64_S6000x64_1_0_0_1_n_n 128 rfl rfl).symm k) = ix2 k q := funext fun a => Fin.ext (by
    match a with
    | ⟨0, _⟩ => exact (dot_S6000x128_S128x64_S6000x64_1_0_0_1_n_n.rhsIdx_val_of_single rfl (ix2 r q) _).trans hk
    | ⟨1, _⟩ =>
      show (dot_S6000x128_S128x64_S6000x64_1_0_0_1_n_n.rhsIdx (ix2 r q) _ 1).val = q.val
      unfold DotDims.rhsIdx
      rw [dif_neg (show ¬(1 : Fin S128x64.rank) ∈ dot_S6000x128_S128x64_S6000x64_1_0_0_1_n_n.rhsBatch by decide), dif_pos (show (1 : Fin S128x64.rank) ∈ dot_S6000x128_S128x64_S6000x64_1_0_0_1_n_n.rhsNonContracting by decide)]
      rfl)
  rw [el, er]

/-- The body's `10000×64` by `64×32` product into a zero accumulator, read at row `r` and column `q`: the sum over
    the 64 contracted positions of the products of the two operands' entries. -/
theorem mm_hidden {φ₁ φ₂ : FTy} (L : FVec Ideal S10000x64 φ₁) (R : FVec Ideal S64x32 φ₂) (r : Fin 10000) (q : Fin 32) :
    matmul dot_S10000x64_S64x32_S10000x32_1_0_0_1_n_n none L R (constant S10000x32 .f32 0x00000000#32) (ix2 r q)
      = ∑ k : Fin 64, L (ix2 r k) * R (ix2 k q) := by
  simp only [matmul]
  rw [Ideal.matmul_constant_zero_apply, ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 r q) ((contrEquiv1 dot_S10000x64_S64x32_S10000x32_1_0_0_1_n_n 64 rfl rfl).symm k) = ix2 r k := funext fun a => Fin.ext (by
    match a with
    | ⟨0, _⟩ =>
      show (dot_S10000x64_S64x32_S10000x32_1_0_0_1_n_n.lhsIdx (ix2 r q) _ 0).val = r.val
      unfold DotDims.lhsIdx
      rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
      rfl
    | ⟨1, _⟩ => exact (dot_S10000x64_S64x32_S10000x32_1_0_0_1_n_n.lhsIdx_val_of_single rfl (ix2 r q) _).trans hk)
  have er : dot_S10000x64_S64x32_S10000x32_1_0_0_1_n_n.rhsIdx (ix2 r q) ((contrEquiv1 dot_S10000x64_S64x32_S10000x32_1_0_0_1_n_n 64 rfl rfl).symm k) = ix2 k q := funext fun a => Fin.ext (by
    match a with
    | ⟨0, _⟩ => exact (dot_S10000x64_S64x32_S10000x32_1_0_0_1_n_n.rhsIdx_val_of_single rfl (ix2 r q) _).trans hk
    | ⟨1, _⟩ =>
      show (dot_S10000x64_S64x32_S10000x32_1_0_0_1_n_n.rhsIdx (ix2 r q) _ 1).val = q.val
      unfold DotDims.rhsIdx
      rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
      rfl)
  rw [el, er]

/-- The body's `10000×32` by `32×1` product into a zero accumulator, read at row `r` and column `q`: the sum over
    the 32 contracted positions of the products of the two operands' entries. -/
theorem mm_score {φ₁ φ₂ : FTy} (L : FVec Ideal S10000x32 φ₁) (R : FVec Ideal S32x1 φ₂) (r : Fin 10000) (q : Fin 1) :
    matmul dot_S10000x32_S32x1_S10000x1_1_0_0_1_n_n none L R (constant S10000x1 .f32 0x00000000#32) (ix2 r q)
      = ∑ k : Fin 32, L (ix2 r k) * R (ix2 k q) := by
  simp only [matmul]
  rw [Ideal.matmul_constant_zero_apply, ← Equiv.sum_comp (contrEquiv1 dot_S10000x32_S32x1_S10000x1_1_0_0_1_n_n 32 rfl rfl).symm]
  refine Finset.sum_congr rfl fun k _ => ?_
  have hk := contrEquiv1_symm_val dot_S10000x32_S32x1_S10000x1_1_0_0_1_n_n 32 rfl rfl k
  have el : dot_S10000x32_S32x1_S10000x1_1_0_0_1_n_n.lhsIdx (ix2 r q) ((contrEquiv1 dot_S10000x32_S32x1_S10000x1_1_0_0_1_n_n 32 rfl rfl).symm k) = ix2 r k := funext fun a => Fin.ext (by
    match a with
    | ⟨0, _⟩ =>
      show (dot_S10000x32_S32x1_S10000x1_1_0_0_1_n_n.lhsIdx (ix2 r q) _ 0).val = r.val
      unfold DotDims.lhsIdx
      rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
      rfl
    | ⟨1, _⟩ => exact (dot_S10000x32_S32x1_S10000x1_1_0_0_1_n_n.lhsIdx_val_of_single rfl (ix2 r q) _).trans hk)
  have er : dot_S10000x32_S32x1_S10000x1_1_0_0_1_n_n.rhsIdx (ix2 r q) ((contrEquiv1 dot_S10000x32_S32x1_S10000x1_1_0_0_1_n_n 32 rfl rfl).symm k) = ix2 k q := funext fun a => Fin.ext (by
    match a with
    | ⟨0, _⟩ => exact (dot_S10000x32_S32x1_S10000x1_1_0_0_1_n_n.rhsIdx_val_of_single rfl (ix2 r q) _).trans hk
    | ⟨1, _⟩ =>
      show (dot_S10000x32_S32x1_S10000x1_1_0_0_1_n_n.rhsIdx (ix2 r q) _ 1).val = q.val
      unfold DotDims.rhsIdx
      rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
      rfl)
  rw [el, er]

/-- A column of 6000 entries spread along 64 columns reads, at row `r`, the column's entry of that row. -/
theorem col_sage {α : Type} (v : S6000x1.Idx → α) (r : Fin 6000) (q : Fin 64) :
    broadcastTo S6000x64 v broadcasts_S6000x1_S6000x64 (ix2 r q) = v (ix2 r 0) :=
  broadcastTo_apply v broadcasts_S6000x1_S6000x64 (ix2 r q) (ix2 r 0) (fun a => by
    match a with
    | ⟨0, _⟩ => rfl
    | ⟨1, _⟩ => rfl)

/-- A row of 64 entries spread along 6000 rows reads, at column `q`, the row's entry of that column. -/
theorem row_sage {α : Type} (v : S1x64.Idx → α) (r : Fin 6000) (q : Fin 64) :
    broadcastTo S6000x64 v broadcasts_S1x64_S6000x64 (ix2 r q) = v (ix2 0 q) :=
  broadcastTo_apply v broadcasts_S1x64_S6000x64 (ix2 r q) (ix2 0 q) (fun a => by
    match a with
    | ⟨0, _⟩ => rfl
    | ⟨1, _⟩ => rfl)

/-- A row of 32 entries spread along 10000 rows reads, at column `q`, the row's entry of that column. -/
theorem row_hidden {α : Type} (v : S1x32.Idx → α) (r : Fin 10000) (q : Fin 32) :
    broadcastTo S10000x32 v broadcasts_S1x32_S10000x32 (ix2 r q) = v (ix2 0 q) :=
  broadcastTo_apply v broadcasts_S1x32_S10000x32 (ix2 r q) (ix2 0 q) (fun a => by
    match a with
    | ⟨0, _⟩ => rfl
    | ⟨1, _⟩ => rfl)

/-- A row of 1 entries spread along 10000 rows reads, at column `q`, the row's entry of that column. -/
theorem row_score {α : Type} (v : S1x1.Idx → α) (r : Fin 10000) (q : Fin 1) :
    broadcastTo S10000x1 v broadcasts_S1x1_S10000x1 (ix2 r q) = v (ix2 0 q) :=
  broadcastTo_apply v broadcasts_S1x1_S10000x1 (ix2 r q) (ix2 0 q) (fun a => by
    match a with
    | ⟨0, _⟩ => rfl
    | ⟨1, _⟩ => exact (Nat.lt_one_iff.mp q.isLt).trans (if_pos rfl).symm)

/-- Two blocks of 64 columns joined side by side: a column below 64 reads the first block. -/
theorem join_left {α : Type} (a b : S6000x64.Idx → α) (r : Fin 6000) (k : Fin 64) :
    concatenate S6000x128 1 [⟨S6000x64, a⟩, ⟨S6000x64, b⟩] concatenates_S6000x64_S6000x64_S6000x128_d1 (ix2 r (⟨k.val, by omega⟩ : Fin 128)) = a (ix2 r k) :=
  concatenate_pair_apply_left 1 a b concatenates_S6000x64_S6000x64_S6000x128_d1 (ix2 r (⟨k.val, by omega⟩ : Fin 128)) rfl (ix2 r k) (fun c => by
    match c with
    | ⟨0, _⟩ => rfl
    | ⟨1, _⟩ => rfl)

/-- Two blocks of 64 columns joined side by side: column `64 + k` reads the second block at column `k`. -/
theorem join_right {α : Type} (a b : S6000x64.Idx → α) (r : Fin 6000) (k : Fin 64) :
    concatenate S6000x128 1 [⟨S6000x64, a⟩, ⟨S6000x64, b⟩] concatenates_S6000x64_S6000x64_S6000x128_d1 (ix2 r (⟨64 + k.val, by omega⟩ : Fin 128)) = b (ix2 r k) :=
  concatenate_pair_apply_right 1 a b concatenates_S6000x64_S6000x64_S6000x128_d1 (ix2 r (⟨64 + k.val, by omega⟩ : Fin 128)) rfl rfl (ix2 r k) (fun c hc => by
    match c with
    | ⟨0, _⟩ => rfl
    | ⟨1, _⟩ => exact absurd rfl hc) (by show k.val + 64 = 64 + k.val; omega)

end Cert.KernelIdeal.BodyOps

end
-- ==== Proof.LibSplitSum.lean ====
/-
  Extended-real facts the layer and head identities rest on.  None needs finiteness: they use only that addition on the
  extended reals is commutative and associative, that a sum over 128 indices is the sum over the first 64 plus the sum
  over the last 64, and that dividing by a number that is at least one is multiplying by its reciprocal.
-/
import Idealize.ShloMosaic.PureOps.Ideal
import Idealize.ShloMosaic.PureOps.Ideal.Laws
import Idealize.ShloMosaic.Lib.IdealHost

noncomputable section

open scoped BigOperators

namespace Cert.LibSplitSum

open Idealize.ShloMosaic

/-- For a divisor `M ≥ 1` (so `M ≠ 0`), multiplying by `1 / M` is dividing by `M`, at every extended real. -/
theorem mul_recip_eq_div (s M : EReal) (hM : (1 : EReal) ≤ M) : s * Ideal.div 1 M = Ideal.div s M := by
  have h01 : (0 : EReal) < 1 := by exact_mod_cast (zero_lt_one : (0 : ℝ) < 1)
  have h0 : M ≠ 0 := (lt_of_lt_of_le h01 hM).ne'
  unfold Ideal.div
  rw [if_neg h0, if_neg h0, one_mul]

/-- A sum over 128 indices splits into the sums over the first and the last 64. -/
theorem sum_fin128 (f : Fin 128 → EReal) :
    ∑ k : Fin 128, f k = ∑ k : Fin 64, f ⟨k.val, by omega⟩ + ∑ k : Fin 64, f ⟨64 + k.val, by omega⟩ :=
  Fin.sum_univ_add (a := 64) (b := 64) f

/-- The clamp to an interval does not depend on which bound is applied first. -/
theorem clamp_comm (x lo hi : EReal) (h : lo ≤ hi) : min hi (max lo x) = max lo (min hi x) := by
  rcases le_total x lo with hx | hx
  · rw [max_eq_left hx, min_eq_right h, min_eq_right (hx.trans h), max_eq_left hx]
  · rw [max_eq_right hx]
    rcases le_total x hi with hy | hy
    · rw [min_eq_right hy, max_eq_right hx]
    · rw [min_eq_left hy, max_eq_right h]

end Cert.LibSplitSum

end
-- ==== Proof.BodyValue.lean ====
/-
  What each kernel body computes, entry by entry.  The layer body multiplies every row of the neighbour sums by that row's
  reciprocal degree, joins the result with the node's own features into 128 columns, multiplies by the stacked 128×64 weights,
  adds the bias row and floors at zero; the sum over the 128 joined columns is the sum over the 64 mean columns plus the sum
  over the 64 feature columns.  The head body multiplies the user block and the item block by their halves of the first
  weights, adds the two products and the bias, floors at zero, multiplies by the second weights, adds its bias and clamps
  between one and five.  The changes of float format are the identity on the extended reals.
-/
import proofs.«151319_j35064113004962_2_alg».proof.Proof.Gen.KernelIdeal.Skeleton
import proofs.«151319_j35064113004962_2_alg».proof.Proof.BodyOps
import proofs.«151319_j35064113004962_2_alg».proof.Proof.LibSplitSum

set_option maxRecDepth 16384

noncomputable section

open scoped BigOperators

namespace Cert.KernelIdeal.BodyValue

open Cert.KernelIdeal Cert.KernelIdeal.Gen Cert.KernelIdeal.BodyOps Idealize.ShloMosaic Idealize.ShloMosaic.ValueIdx

/-- The layer as the kernel arranges it, on whole arrays: entry `(r, q)` from row `r` of the neighbour sums `S`, of the
    reciprocal column `inv` and of the features `x`, the stacked weights `w` and the bias row `b`. -/
def layerOut (S : S150000x64.Idx → EReal) (inv : S150000x1.Idx → EReal) (x : S150000x64.Idx → EReal)
    (w : S128x64.Idx → EReal) (b : S1x64.Idx → EReal) : S150000x64.Idx → EReal :=
  fun i => max (((∑ k : Fin 64, (S (ix2 (i 0) k) * inv (ix2 (i 0) 0)) * w (ix2 (⟨k.val, by omega⟩ : Fin 128) (i 1)))
    + ∑ k : Fin 64, x (ix2 (i 0) k) * w (ix2 (⟨64 + k.val, by omega⟩ : Fin 128) (i 1))) + b (ix2 0 (i 1))) 0

/-- The head as the kernel arranges it, on whole arrays: entry `(r, 0)` from row `r` of the user block `U` and of the item
    block `I`, the two halves `A`, `B` of the first weights, its bias row, the second weights and its bias. -/
def headOut (U I : S100000x64.Idx → EReal) (A B : S64x32.Idx → EReal) (b1 : S1x32.Idx → EReal)
    (W2 : S32x1.Idx → EReal) (b2 : S1x1.Idx → EReal) : S100000x1.Idx → EReal :=
  fun i => min (Ideal.ofBits .f32 0x40A00000#32) (max (Ideal.ofBits .f32 0x3F800000#32)
    ((∑ j : Fin 32, max (((∑ k : Fin 64, U (ix2 (i 0) k) * A (ix2 k j)) + ∑ k : Fin 64, I (ix2 (i 0) k) * B (ix2 k j)) + b1 (ix2 0 j)) 0
        * W2 (ix2 j 0)) + b2 (ix2 0 0)))

/-- Layer body 0 at row `r`, column `q`. -/
theorem sage0_apply (x0 : Vec Ideal S6000x64 .f32) (x1 : Vec Ideal S6000x1 .f32) (x2 : Vec Ideal S6000x64 .f32)
    (x3 : Vec Ideal S128x64 .f32) (x4 : Vec Ideal S1x64 .f32) (r : Fin 6000) (q : Fin 64) :
    k0_pay1 (F := Ideal) x0 x1 x2 x3 x4 (ix2 r q)
      = max (((∑ k : Fin 64, (x0 (ix2 r k) * x1 (ix2 r 0)) * x3 (ix2 (⟨k.val, by omega⟩ : Fin 128) q))
          + ∑ k : Fin 64, x2 (ix2 r k) * x3 (ix2 (⟨64 + k.val, by omega⟩ : Fin 128) q)) + x4 (ix2 0 q)) 0 := by
  unfold k0_pay1
  simp only [shapeCast_self]
  rw [truncf_apply, maximumf_apply, addf_apply, mm_sage, row_sage, broadcast_apply, Cert.LibSplitSum.sum_fin128]
  simp only [join_left, join_right, truncf_apply, mulf_apply, col_sage, shapeCast_self]
  show max _ (Ideal.ofBits .f32 0x00000000#32) = _
  rw [Ideal.ofBits_zero_f32]

/-- Layer body 1 at row `r`, column `q`. -/
theorem sage1_apply (x0 : Vec Ideal S6000x64 .f32) (x1 : Vec Ideal S6000x1 .f32) (x2 : Vec Ideal S6000x64 .bf16)
    (x3 : Vec Ideal S128x64 .f32) (x4 : Vec Ideal S1x64 .f32) (r : Fin 6000) (q : Fin 64) :
    k1_pay1 (F := Ideal) x0 x1 x2 x3 x4 (ix2 r q)
      = max (((∑ k : Fin 64, (x0 (ix2 r k) * x1 (ix2 r 0)) * x3 (ix2 (⟨k.val, by omega⟩ : Fin 128) q))
          + ∑ k : Fin 64, x2 (ix2 r k) * x3 (ix2 (⟨64 + k.val, by omega⟩ : Fin 128) q)) + x4 (ix2 0 q)) 0 := by
  unfold k1_pay1
  simp only [shapeCast_self]
  rw [truncf_apply, maximumf_apply, addf_apply, mm_sage, row_sage, broadcast_apply, Cert.LibSplitSum.sum_fin128]
  simp only [join_left, join_right, truncf_apply, mulf_apply, col_sage, shapeCast_self]
  show max _ (Ideal.ofBits .f32 0x00000000#32) = _
  rw [Ideal.ofBits_zero_f32]

/-- Layer body 2 at row `r`, column `q`. -/
theorem sage2_apply (x0 : Vec Ideal S6000x64 .f32) (x1 : Vec Ideal S6000x1 .f32) (x2 : Vec Ideal S6000x64 .bf16)
    (x3 : Vec Ideal S128x64 .f32) (x4 : Vec Ideal S1x64 .f32) (r : Fin 6000) (q : Fin 64) :
    k2_pay1 (F := Ideal) x0 x1 x2 x3 x4 (ix2 r q)
      = max (((∑ k : Fin 64, (x0 (ix2 r k) * x1 (ix2 r 0)) * x3 (ix2 (⟨k.val, by omega⟩ : Fin 128) q))
          + ∑ k : Fin 64, x2 (ix2 r k) * x3 (ix2 (⟨64 + k.val, by omega⟩ : Fin 128) q)) + x4 (ix2 0 q)) 0 := by
  unfold k2_pay1
  simp only [shapeCast_self]
  rw [truncf_apply, maximumf_apply, addf_apply, mm_sage, row_sage, broadcast_apply, Cert.LibSplitSum.sum_fin128]
  simp only [join_left, join_right, truncf_apply, mulf_apply, col_sage, shapeCast_self]
  show max _ (Ideal.ofBits .f32 0x00000000#32) = _
  rw [Ideal.ofBits_zero_f32]

/-- Block `tv` of layer body 0: when the loaded blocks are rows `6000·tv …` of the whole arrays (and the whole weights and
    bias), the body's entry at `y` is the whole-array layer's entry at row `6000·tv + y₀`, column `y₁`. -/
theorem sage0_block (S : S150000x64.Idx → EReal) (inv : S150000x1.Idx → EReal) (X : S150000x64.Idx → EReal)
    (w : S128x64.Idx → EReal) (b : S1x64.Idx → EReal)
    (x0 : Vec Ideal S6000x64 .f32) (x1 : Vec Ideal S6000x1 .f32) (x2 : Vec Ideal S6000x64 .f32)
    (x3 : Vec Ideal S128x64 .f32) (x4 : Vec Ideal S1x64 .f32) (tv : Nat) (y : S6000x64.Idx) (i : S150000x64.Idx)
    (hi0 : (i 0).val = tv * 6000 + (y 0).val) (hi1 : (i 1).val = (y 1).val)
    (h0 : ∀ (p : Fin 6000) (k : Fin 64) (r : Fin 150000), r.val = tv * 6000 + p.val → x0 (ix2 p k) = S (ix2 r k))
    (h1 : ∀ (p : Fin 6000) (r : Fin 150000), r.val = tv * 6000 + p.val → x1 (ix2 p 0) = inv (ix2 r 0))
    (h2 : ∀ (p : Fin 6000) (k : Fin 64) (r : Fin 150000), r.val = tv * 6000 + p.val → x2 (ix2 p k) = X (ix2 r k))
    (h3 : x3 = w) (h4 : x4 = b) :
    k0_pay1 (F := Ideal) x0 x1 x2 x3 x4 y = layerOut S inv X w b i := by
  obtain ⟨p, q, rfl⟩ : ∃ (p : Fin 6000) (q : Fin 64), y = ix2 p q := ⟨y 0, y 1, eq_ix2 y⟩
  have hq : i 1 = q := Fin.ext hi1
  rw [sage0_apply, h3, h4]
  unfold layerOut
  simp only [h0 _ _ (i 0) hi0, h1 _ (i 0) hi0, h2 _ _ (i 0) hi0, hq]

/-- Block `tv` of layer body 1: when the loaded blocks are rows `6000·tv …` of the whole arrays (and the whole weights and
    bias), the body's entry at `y` is the whole-array layer's entry at row `6000·tv + y₀`, column `y₁`. -/
theorem sage1_block (S : S150000x64.Idx → EReal) (inv : S150000x1.Idx → EReal) (X : S150000x64.Idx → EReal)
    (w : S128x64.Idx → EReal) (b : S1x64.Idx → EReal)
    (x0 : Vec Ideal S6000x64 .f32) (x1 : Vec Ideal S6000x1 .f32) (x2 : Vec Ideal S6000x64 .bf16)
    (x3 : Vec Ideal S128x64 .f32) (x4 : Vec Ideal S1x64 .f32) (tv : Nat) (y : S6000x64.Idx) (i : S150000x64.Idx)
    (hi0 : (i 0).val = tv * 6000 + (y 0).val) (hi1 : (i 1).val = (y 1).val)
    (h0 : ∀ (p : Fin 6000) (k : Fin 64) (r : Fin 150000), r.val = tv * 6000 + p.val → x0 (ix2 p k) = S (ix2 r k))
    (h1 : ∀ (p : Fin 6000) (r : Fin 150000), r.val = tv * 6000 + p.val → x1 (ix2 p 0) = inv (ix2 r 0))
    (h2 : ∀ (p : Fin 6000) (k : Fin 64) (r : Fin 150000), r.val = tv * 6000 + p.val → x2 (ix2 p k) = X (ix2 r k))
    (h3 : x3 = w) (h4 : x4 = b) :
    k1_pay1 (F := Ideal) x0 x1 x2 x3 x4 y = layerOut S inv X w b i := by
  obtain ⟨p, q, rfl⟩ : ∃ (p : Fin 6000) (q : Fin 64), y = ix2 p q := ⟨y 0, y 1, eq_ix2 y⟩
  have hq : i 1 = q := Fin.ext hi1
  rw [sage1_apply, h3, h4]
  unfold layerOut
  simp only [h0 _ _ (i 0) hi0, h1 _ (i 0) hi0, h2 _ _ (i 0) hi0, hq]

/-- Block `tv` of layer body 2: when the loaded blocks are rows `6000·tv …` of the whole arrays (and the whole weights and
    bias), the body's entry at `y` is the whole-array layer's entry at row `6000·tv + y₀`, column `y₁`. -/
theorem sage2_block (S : S150000x64.Idx → EReal) (inv : S150000x1.Idx → EReal) (X : S150000x64.Idx → EReal)
    (w : S128x64.Idx → EReal) (b : S1x64.Idx → EReal)
    (x0 : Vec Ideal S6000x64 .f32) (x1 : Vec Ideal S6000x1 .f32) (x2 : Vec Ideal S6000x64 .bf16)
    (x3 : Vec Ideal S128x64 .f32) (x4 : Vec Ideal S1x64 .f32) (tv : Nat) (y : S6000x64.Idx) (i : S150000x64.Idx)
    (hi0 : (i 0).val = tv * 6000 + (y 0).val) (hi1 : (i 1).val = (y 1).val)
    (h0 : ∀ (p : Fin 6000) (k : Fin 64) (r : Fin 150000), r.val = tv * 6000 + p.val → x0 (ix2 p k) = S (ix2 r k))
    (h1 : ∀ (p : Fin 6000) (r : Fin 150000), r.val = tv * 6000 + p.val → x1 (ix2 p 0) = inv (ix2 r 0))
    (h2 : ∀ (p : Fin 6000) (k : Fin 64) (r : Fin 150000), r.val = tv * 6000 + p.val → x2 (ix2 p k) = X (ix2 r k))
    (h3 : x3 = w) (h4 : x4 = b) :
    k2_pay1 (F := Ideal) x0 x1 x2 x3 x4 y = layerOut S inv X w b i := by
  obtain ⟨p, q, rfl⟩ : ∃ (p : Fin 6000) (q : Fin 64), y = ix2 p q := ⟨y 0, y 1, eq_ix2 y⟩
  have hq : i 1 = q := Fin.ext hi1
  rw [sage2_apply, h3, h4]
  unfold layerOut
  simp only [h0 _ _ (i 0) hi0, h1 _ (i 0) hi0, h2 _ _ (i 0) hi0, hq]

/-- The head body at row `r` (its one column). -/
theorem head_apply (x0 x1 : Vec Ideal S10000x64 .bf16) (x2 x3 : Vec Ideal S64x32 .f32) (x4 : Vec Ideal S1x32 .f32)
    (x5 : Vec Ideal S32x1 .f32) (x6 : Vec Ideal S1x1 .f32) (r : Fin 10000) :
    k3_pay1 (F := Ideal) x0 x1 x2 x3 x4 x5 x6 (ix2 r 0)
      = min (Ideal.ofBits .f32 0x40A00000#32) (max (Ideal.ofBits .f32 0x3F800000#32)
          ((∑ j : Fin 32, max (((∑ k : Fin 64, x0 (ix2 r k) * x2 (ix2 k j)) + ∑ k : Fin 64, x1 (ix2 r k) * x3 (ix2 k j)) + x4 (ix2 0 j)) 0
              * x5 (ix2 j 0)) + x6 (ix2 0 0))) := by
  unfold k3_pay1
  simp only [shapeCast_self]
  rw [minimumf_apply, maximumf_apply, addf_apply, mm_score, row_score, broadcast_apply, broadcast_apply]
  simp only [truncf_apply, maximumf_apply, addf_apply, mm_hidden, row_hidden, broadcast_apply, shapeCast_self]
  simp only [Ideal.ofBits_def, Ideal.ofBits_zero_f32]

/-- Block `tv` of the head body: when the two loaded blocks are rows `10000·tv …` of the whole gathered arrays, the body's
    entry at `y` is the whole-array head's entry at row `10000·tv + y₀`. -/
theorem head_block (U I : S100000x64.Idx → EReal) (A B : S64x32.Idx → EReal) (b1 : S1x32.Idx → EReal)
    (W2 : S32x1.Idx → EReal) (b2 : S1x1.Idx → EReal)
    (x0 x1 : Vec Ideal S10000x64 .bf16) (x2 x3 : Vec Ideal S64x32 .f32) (x4 : Vec Ideal S1x32 .f32)
    (x5 : Vec Ideal S32x1 .f32) (x6 : Vec Ideal S1x1 .f32) (tv : Nat) (y : S10000x1.Idx) (i : S100000x1.Idx)
    (hi0 : (i 0).val = tv * 10000 + (y 0).val)
    (h0 : ∀ (p : Fin 10000) (k : Fin 64) (r : Fin 100000), r.val = tv * 10000 + p.val → x0 (ix2 p k) = U (ix2 r k))
    (h1 : ∀ (p : Fin 10000) (k : Fin 64) (r : Fin 100000), r.val = tv * 10000 + p.val → x1 (ix2 p k) = I (ix2 r k))
    (h2 : x2 = A) (h3 : x3 = B) (h4 : x4 = b1) (h5 : x5 = W2) (h6 : x6 = b2) :
    k3_pay1 (F := Ideal) x0 x1 x2 x3 x4 x5 x6 y = headOut U I A B b1 W2 b2 i := by
  obtain ⟨p, q, rfl⟩ : ∃ (p : Fin 10000) (q : Fin 1), y = ix2 p q := ⟨y 0, y 1, eq_ix2 y⟩
  have hq : q = 0 := Fin.ext (by have := q.isLt; omega)
  subst hq
  rw [head_apply, h2, h3, h4, h5, h6]
  unfold headOut
  simp only [h0 _ _ (i 0) hi0, h1 _ _ (i 0) hi0]

end Cert.KernelIdeal.BodyValue

end
-- ==== Proof.Layer0.lean ====
/-
  Region 0 of the kernel: the graph layer, tiled over 25 blocks of 6000 node rows.  Point `t` of the grid reads rows
  `6000·t … 6000·t + 5999` of the neighbour sums, of the reciprocal degrees and of the node features, and the whole weights and
  bias; it writes back rows `6000·t …` of the output.  The 25 blocks cover all 150000 rows, and every written entry `(r, q)`
  is one function of the region's input arrays, so the output array after the region is that function.
-/
import proofs.«151319_j35064113004962_2_alg».proof.Proof.Gen.KernelIdeal.Frame
import proofs.«151319_j35064113004962_2_alg».proof.Proof.BodyValue
import Idealize.ShloMosaic.Lib.Pipeline.Value

set_option maxRecDepth 16384

noncomputable section

open scoped BigOperators

namespace Cert.KernelIdeal.Layer0

open Cert.KernelIdeal Cert.KernelIdeal.Gen Cert.KernelIdeal.BodyValue Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-tiled windows sit at block `(t, 0)`, the weights and the bias at `(0, 0)`. -/
theorem blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer's function of the region's input arrays. -/
theorem flushed_eq (c : Dev nD) (t : Fin cfg0.N) :
    (dat0 V c).flushed 5 t = ((cfg0.win 5).blk t).view.read (Elt Ideal)
      (layerOut (V c main_v23) (V c main_v13) (V c main_v4) (V c main_v31) (V c main_v26)) := by
  show (cfg0.win 5).cut (grid0.coords t) ((dat0 V c).after 5 t) = _
  rw [after0_5]
  unfold out0_5
  rw [View.canon_unit_zero origin]
  simp only [View.ld_unit_zero (S := S6000x64) origin, View.ld_unit_zero (S := S6000x1) origin,
    View.ld_unit_zero (S := S128x64) origin, View.ld_unit_zero (S := S1x64) origin]
  obtain ⟨e00, e01, e10, e11, e20, e21, e30, e31, e40, e41, e50, e51⟩ := blocks t
  have ht : t.val < 25 := t.isLt
  funext j
  show k0_pay1 (F := Ideal) (iblk0 V c 0 t) (iblk0 V c 1 t) (iblk0 V c 2 t) (iblk0 V c 3 t) (iblk0 V c 4 t) j
    = layerOut (V c main_v23) (V c main_v13) (V c main_v4) (V c main_v31) (V c main_v26) (((cfg0.win 5).blk t).view.emb j)
  refine sage0_block _ _ _ _ _ _ _ _ _ _ t.val j _ ?_ ?_ ?_ ?_ ?_ ?_ ?_
  · show win0_5.index t (0 : Fin 2) * 6000 + 1 * (j 0).val = t.val * 6000 + (j 0).val; omega
  · show win0_5.index t (1 : Fin 2) * 64 + 1 * (j 1).val = (j 1).val; omega
  · intro p k r hr
    show V c main_v23 (((cfg0.win 0).blk t).view.emb (ix2 p k)) = V c main_v23 (ix2 r k)
    refine congrArg _ (funext fun a => Fin.ext ?_)
    match a with
    | ⟨0, _⟩ => show win0_0.index t (0 : Fin 2) * 6000 + 1 * p.val = r.val; omega
    | ⟨1, _⟩ => show win0_0.index t (1 : Fin 2) * 64 + 1 * k.val = k.val; omega
  · intro p r hr
    show V c main_v13 (((cfg0.win 1).blk t).view.emb (ix2 p 0)) = V c main_v13 (ix2 r 0)
    refine congrArg _ (funext fun a => Fin.ext ?_)
    match a with
    | ⟨0, _⟩ => show win0_1.index t (0 : Fin 2) * 6000 + 1 * p.val = r.val; omega
    | ⟨1, _⟩ => show win0_1.index t (1 : Fin 2) * 1 + 1 * (0 : Fin 1).val = (0 : Fin 1).val; omega
  · intro p k r hr
    show V c main_v4 (((cfg0.win 2).blk t).view.emb (ix2 p k)) = V c main_v4 (ix2 r k)
    refine congrArg _ (funext fun a => Fin.ext ?_)
    match a with
    | ⟨0, _⟩ => show win0_2.index t (0 : Fin 2) * 6000 + 1 * p.val = r.val; omega
    | ⟨1, _⟩ => show win0_2.index t (1 : Fin 2) * 64 + 1 * k.val = k.val; omega
  · funext y
    show V c main_v31 (((cfg0.win 3).blk t).view.emb y) = V c main_v31 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 64 + 1 * (y 1).val = (y 1).val; omega
  · funext y
    show V c main_v26 (((cfg0.win 4).blk t).view.emb y) = V c main_v26 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega

/-- An index of the output array is in point `t`'s block iff each coordinate is in the block's range on its axis. -/
theorem mem_blk (t : Fin cfg0.N) (i : S150000x64.Idx) :
    i ∈ ((cfg0.win 5).blk t).view.set ↔ ∀ a : Fin 2, win0_5.index t a * S6000x64.size a ≤ (i a).val ∧ (i a).val < win0_5.index t a * S6000x64.size a + S6000x64.size a := by
  show i ∈ ((View.whole main_v32).slice (win0_5.rect t)).set ↔ _
  rw [View.set_slice_whole, Rect.mem_set_unit]
  exact Iff.rfl

/-- Row `r` lies in the block of point `r / 6000`: the 25 blocks cover the array. -/
theorem cover (i : S150000x64.Idx) : ∃ t : Fin cfg0.N, (cfg0.win 5).flush t = true ∧ i ∈ ((cfg0.win 5).blk t).view.set := by
  have hi0 : (i 0).val < 150000 := (i 0).isLt
  have hi1 : (i 1).val < 64 := (i 1).isLt
  have hlt : (i 0).val / 6000 < 25 := by omega
  obtain ⟨-, -, -, -, -, -, -, -, -, -, e50, e51⟩ := blocks ⟨(i 0).val / 6000, hlt⟩
  refine ⟨⟨(i 0).val / 6000, hlt⟩, flush0_5 _, ?_⟩
  rw [mem_blk]
  intro a
  match a with
  | ⟨0, _⟩ =>
    show win0_5.index ⟨(i 0).val / 6000, hlt⟩ (0 : Fin 2) * 6000 ≤ (i 0).val ∧ (i 0).val < win0_5.index ⟨(i 0).val / 6000, hlt⟩ (0 : Fin 2) * 6000 + 6000
    rw [e50]; show (i 0).val / 6000 * 6000 ≤ (i 0).val ∧ (i 0).val < (i 0).val / 6000 * 6000 + 6000; omega
  | ⟨1, _⟩ =>
    show win0_5.index ⟨(i 0).val / 6000, hlt⟩ (1 : Fin 2) * 64 ≤ (i 1).val ∧ (i 1).val < win0_5.index ⟨(i 0).val / 6000, hlt⟩ (1 : Fin 2) * 64 + 64
    rw [e51]; omega

/-- The output array after the region is the layer's function of the region's input arrays. -/
theorem final (c : Dev nD) : (dat0 V c).arrAt 5 cfg0.N
    = layerOut (V c main_v23) (V c main_v13) (V c main_v4) (V c main_v31) (V c main_v26) :=
  (dat0 V c).arrAt_eq_of_cover 5 _ (fun t _ => flushed_eq V c t) (cover)

end Cert.KernelIdeal.Layer0

end
-- ==== Proof.Layer1.lean ====
/-
  Region 1 of the kernel: the graph layer, tiled over 25 blocks of 6000 node rows.  Point `t` of the grid reads rows
  `6000·t … 6000·t + 5999` of the neighbour sums, of the reciprocal degrees and of the node features, and the whole weights and
  bias; it writes back rows `6000·t …` of the output.  The 25 blocks cover all 150000 rows, and every written entry `(r, q)`
  is one function of the region's input arrays, so the output array after the region is that function.
-/
import proofs.«151319_j35064113004962_2_alg».proof.Proof.Gen.KernelIdeal.Frame
import proofs.«151319_j35064113004962_2_alg».proof.Proof.BodyValue
import Idealize.ShloMosaic.Lib.Pipeline.Value

set_option maxRecDepth 16384

noncomputable section

open scoped BigOperators

namespace Cert.KernelIdeal.Layer1

open Cert.KernelIdeal Cert.KernelIdeal.Gen Cert.KernelIdeal.BodyValue Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-tiled windows sit at block `(t, 0)`, the weights and the bias at `(0, 0)`. -/
theorem blocks : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer's function of the region's input arrays. -/
theorem flushed_eq (c : Dev nD) (t : Fin cfg1.N) :
    (dat1 V c).flushed 5 t = ((cfg1.win 5).blk t).view.read (Elt Ideal)
      (layerOut (V c main_v43) (V c main_v13) (V c main_v32) (V c main_v51) (V c main_v46)) := by
  show (cfg1.win 5).cut (grid1.coords t) ((dat1 V c).after 5 t) = _
  rw [after1_5]
  unfold out1_5
  rw [View.canon_unit_zero origin]
  simp only [View.ld_unit_zero (S := S6000x64) origin, View.ld_unit_zero (S := S6000x1) origin,
    View.ld_unit_zero (S := S128x64) origin, View.ld_unit_zero (S := S1x64) origin]
  obtain ⟨e00, e01, e10, e11, e20, e21, e30, e31, e40, e41, e50, e51⟩ := blocks t
  have ht : t.val < 25 := t.isLt
  funext j
  show k1_pay1 (F := Ideal) (iblk1 V c 0 t) (iblk1 V c 1 t) (iblk1 V c 2 t) (iblk1 V c 3 t) (iblk1 V c 4 t) j
    = layerOut (V c main_v43) (V c main_v13) (V c main_v32) (V c main_v51) (V c main_v46) (((cfg1.win 5).blk t).view.emb j)
  refine sage1_block _ _ _ _ _ _ _ _ _ _ t.val j _ ?_ ?_ ?_ ?_ ?_ ?_ ?_
  · show win1_5.index t (0 : Fin 2) * 6000 + 1 * (j 0).val = t.val * 6000 + (j 0).val; omega
  · show win1_5.index t (1 : Fin 2) * 64 + 1 * (j 1).val = (j 1).val; omega
  · intro p k r hr
    show V c main_v43 (((cfg1.win 0).blk t).view.emb (ix2 p k)) = V c main_v43 (ix2 r k)
    refine congrArg _ (funext fun a => Fin.ext ?_)
    match a with
    | ⟨0, _⟩ => show win1_0.index t (0 : Fin 2) * 6000 + 1 * p.val = r.val; omega
    | ⟨1, _⟩ => show win1_0.index t (1 : Fin 2) * 64 + 1 * k.val = k.val; omega
  · intro p r hr
    show V c main_v13 (((cfg1.win 1).blk t).view.emb (ix2 p 0)) = V c main_v13 (ix2 r 0)
    refine congrArg _ (funext fun a => Fin.ext ?_)
    match a with
    | ⟨0, _⟩ => show win1_1.index t (0 : Fin 2) * 6000 + 1 * p.val = r.val; omega
    | ⟨1, _⟩ => show win1_1.index t (1 : Fin 2) * 1 + 1 * (0 : Fin 1).val = (0 : Fin 1).val; omega
  · intro p k r hr
    show V c main_v32 (((cfg1.win 2).blk t).view.emb (ix2 p k)) = V c main_v32 (ix2 r k)
    refine congrArg _ (funext fun a => Fin.ext ?_)
    match a with
    | ⟨0, _⟩ => show win1_2.index t (0 : Fin 2) * 6000 + 1 * p.val = r.val; omega
    | ⟨1, _⟩ => show win1_2.index t (1 : Fin 2) * 64 + 1 * k.val = k.val; omega
  · funext y
    show V c main_v51 (((cfg1.win 3).blk t).view.emb y) = V c main_v51 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  · funext y
    show V c main_v46 (((cfg1.win 4).blk t).view.emb y) = V c main_v46 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega

/-- An index of the output array is in point `t`'s block iff each coordinate is in the block's range on its axis. -/
theorem mem_blk (t : Fin cfg1.N) (i : S150000x64.Idx) :
    i ∈ ((cfg1.win 5).blk t).view.set ↔ ∀ a : Fin 2, win1_5.index t a * S6000x64.size a ≤ (i a).val ∧ (i a).val < win1_5.index t a * S6000x64.size a + S6000x64.size a := by
  show i ∈ ((View.whole main_v52).slice (win1_5.rect t)).set ↔ _
  rw [View.set_slice_whole, Rect.mem_set_unit]
  exact Iff.rfl

/-- Row `r` lies in the block of point `r / 6000`: the 25 blocks cover the array. -/
theorem cover (i : S150000x64.Idx) : ∃ t : Fin cfg1.N, (cfg1.win 5).flush t = true ∧ i ∈ ((cfg1.win 5).blk t).view.set := by
  have hi0 : (i 0).val < 150000 := (i 0).isLt
  have hi1 : (i 1).val < 64 := (i 1).isLt
  have hlt : (i 0).val / 6000 < 25 := by omega
  obtain ⟨-, -, -, -, -, -, -, -, -, -, e50, e51⟩ := blocks ⟨(i 0).val / 6000, hlt⟩
  refine ⟨⟨(i 0).val / 6000, hlt⟩, flush1_5 _, ?_⟩
  rw [mem_blk]
  intro a
  match a with
  | ⟨0, _⟩ =>
    show win1_5.index ⟨(i 0).val / 6000, hlt⟩ (0 : Fin 2) * 6000 ≤ (i 0).val ∧ (i 0).val < win1_5.index ⟨(i 0).val / 6000, hlt⟩ (0 : Fin 2) * 6000 + 6000
    rw [e50]; show (i 0).val / 6000 * 6000 ≤ (i 0).val ∧ (i 0).val < (i 0).val / 6000 * 6000 + 6000; omega
  | ⟨1, _⟩ =>
    show win1_5.index ⟨(i 0).val / 6000, hlt⟩ (1 : Fin 2) * 64 ≤ (i 1).val ∧ (i 1).val < win1_5.index ⟨(i 0).val / 6000, hlt⟩ (1 : Fin 2) * 64 + 64
    rw [e51]; omega

/-- The output array after the region is the layer's function of the region's input arrays. -/
theorem final (c : Dev nD) : (dat1 V c).arrAt 5 cfg1.N
    = layerOut (V c main_v43) (V c main_v13) (V c main_v32) (V c main_v51) (V c main_v46) :=
  (dat1 V c).arrAt_eq_of_cover 5 _ (fun t _ => flushed_eq V c t) (cover)

end Cert.KernelIdeal.Layer1

end
-- ==== Proof.Layer2.lean ====
/-
  Region 2 of the kernel: the graph layer, tiled over 25 blocks of 6000 node rows.  Point `t` of the grid reads rows
  `6000·t … 6000·t + 5999` of the neighbour sums, of the reciprocal degrees and of the node features, and the whole weights and
  bias; it writes back rows `6000·t …` of the output.  The 25 blocks cover all 150000 rows, and every written entry `(r, q)`
  is one function of the region's input arrays, so the output array after the region is that function.
-/
import proofs.«151319_j35064113004962_2_alg».proof.Proof.Gen.KernelIdeal.Frame
import proofs.«151319_j35064113004962_2_alg».proof.Proof.BodyValue
import Idealize.ShloMosaic.Lib.Pipeline.Value

set_option maxRecDepth 16384

noncomputable section

open scoped BigOperators

namespace Cert.KernelIdeal.Layer2

open Cert.KernelIdeal Cert.KernelIdeal.Gen Cert.KernelIdeal.BodyValue Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-tiled windows sit at block `(t, 0)`, the weights and the bias at `(0, 0)`. -/
theorem blocks : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer's function of the region's input arrays. -/
theorem flushed_eq (c : Dev nD) (t : Fin cfg2.N) :
    (dat2 V c).flushed 5 t = ((cfg2.win 5).blk t).view.read (Elt Ideal)
      (layerOut (V c main_v63) (V c main_v13) (V c main_v52) (V c main_v71) (V c main_v66)) := by
  show (cfg2.win 5).cut (grid2.coords t) ((dat2 V c).after 5 t) = _
  rw [after2_5]
  unfold out2_5
  rw [View.canon_unit_zero origin]
  simp only [View.ld_unit_zero (S := S6000x64) origin, View.ld_unit_zero (S := S6000x1) origin,
    View.ld_unit_zero (S := S128x64) origin, View.ld_unit_zero (S := S1x64) origin]
  obtain ⟨e00, e01, e10, e11, e20, e21, e30, e31, e40, e41, e50, e51⟩ := blocks t
  have ht : t.val < 25 := t.isLt
  funext j
  show k2_pay1 (F := Ideal) (iblk2 V c 0 t) (iblk2 V c 1 t) (iblk2 V c 2 t) (iblk2 V c 3 t) (iblk2 V c 4 t) j
    = layerOut (V c main_v63) (V c main_v13) (V c main_v52) (V c main_v71) (V c main_v66) (((cfg2.win 5).blk t).view.emb j)
  refine sage2_block _ _ _ _ _ _ _ _ _ _ t.val j _ ?_ ?_ ?_ ?_ ?_ ?_ ?_
  · show win2_5.index t (0 : Fin 2) * 6000 + 1 * (j 0).val = t.val * 6000 + (j 0).val; omega
  · show win2_5.index t (1 : Fin 2) * 64 + 1 * (j 1).val = (j 1).val; omega
  · intro p k r hr
    show V c main_v63 (((cfg2.win 0).blk t).view.emb (ix2 p k)) = V c main_v63 (ix2 r k)
    refine congrArg _ (funext fun a => Fin.ext ?_)
    match a with
    | ⟨0, _⟩ => show win2_0.index t (0 : Fin 2) * 6000 + 1 * p.val = r.val; omega
    | ⟨1, _⟩ => show win2_0.index t (1 : Fin 2) * 64 + 1 * k.val = k.val; omega
  · intro p r hr
    show V c main_v13 (((cfg2.win 1).blk t).view.emb (ix2 p 0)) = V c main_v13 (ix2 r 0)
    refine congrArg _ (funext fun a => Fin.ext ?_)
    match a with
    | ⟨0, _⟩ => show win2_1.index t (0 : Fin 2) * 6000 + 1 * p.val = r.val; omega
    | ⟨1, _⟩ => show win2_1.index t (1 : Fin 2) * 1 + 1 * (0 : Fin 1).val = (0 : Fin 1).val; omega
  · intro p k r hr
    show V c main_v52 (((cfg2.win 2).blk t).view.emb (ix2 p k)) = V c main_v52 (ix2 r k)
    refine congrArg _ (funext fun a => Fin.ext ?_)
    match a with
    | ⟨0, _⟩ => show win2_2.index t (0 : Fin 2) * 6000 + 1 * p.val = r.val; omega
    | ⟨1, _⟩ => show win2_2.index t (1 : Fin 2) * 64 + 1 * k.val = k.val; omega
  · funext y
    show V c main_v71 (((cfg2.win 3).blk t).view.emb y) = V c main_v71 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 64 + 1 * (y 1).val = (y 1).val; omega
  · funext y
    show V c main_v66 (((cfg2.win 4).blk t).view.emb y) = V c main_v66 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 64 + 1 * (y 1).val = (y 1).val; omega

/-- An index of the output array is in point `t`'s block iff each coordinate is in the block's range on its axis. -/
theorem mem_blk (t : Fin cfg2.N) (i : S150000x64.Idx) :
    i ∈ ((cfg2.win 5).blk t).view.set ↔ ∀ a : Fin 2, win2_5.index t a * S6000x64.size a ≤ (i a).val ∧ (i a).val < win2_5.index t a * S6000x64.size a + S6000x64.size a := by
  show i ∈ ((View.whole main_v72).slice (win2_5.rect t)).set ↔ _
  rw [View.set_slice_whole, Rect.mem_set_unit]
  exact Iff.rfl

/-- Row `r` lies in the block of point `r / 6000`: the 25 blocks cover the array. -/
theorem cover (i : S150000x64.Idx) : ∃ t : Fin cfg2.N, (cfg2.win 5).flush t = true ∧ i ∈ ((cfg2.win 5).blk t).view.set := by
  have hi0 : (i 0).val < 150000 := (i 0).isLt
  have hi1 : (i 1).val < 64 := (i 1).isLt
  have hlt : (i 0).val / 6000 < 25 := by omega
  obtain ⟨-, -, -, -, -, -, -, -, -, -, e50, e51⟩ := blocks ⟨(i 0).val / 6000, hlt⟩
  refine ⟨⟨(i 0).val / 6000, hlt⟩, flush2_5 _, ?_⟩
  rw [mem_blk]
  intro a
  match a with
  | ⟨0, _⟩ =>
    show win2_5.index ⟨(i 0).val / 6000, hlt⟩ (0 : Fin 2) * 6000 ≤ (i 0).val ∧ (i 0).val < win2_5.index ⟨(i 0).val / 6000, hlt⟩ (0 : Fin 2) * 6000 + 6000
    rw [e50]; show (i 0).val / 6000 * 6000 ≤ (i 0).val ∧ (i 0).val < (i 0).val / 6000 * 6000 + 6000; omega
  | ⟨1, _⟩ =>
    show win2_5.index ⟨(i 0).val / 6000, hlt⟩ (1 : Fin 2) * 64 ≤ (i 1).val ∧ (i 1).val < win2_5.index ⟨(i 0).val / 6000, hlt⟩ (1 : Fin 2) * 64 + 64
    rw [e51]; omega

/-- The output array after the region is the layer's function of the region's input arrays. -/
theorem final (c : Dev nD) : (dat2 V c).arrAt 5 cfg2.N
    = layerOut (V c main_v63) (V c main_v13) (V c main_v52) (V c main_v71) (V c main_v66) :=
  (dat2 V c).arrAt_eq_of_cover 5 _ (fun t _ => flushed_eq V c t) (cover)

end Cert.KernelIdeal.Layer2

end
-- ==== Proof.Score.lean ====
/-
  Region 3 of the kernel: the scoring head, tiled over 10 blocks of 10000 batch rows.  Point `t` of the grid reads rows
  `10000·t …` of the gathered user rows and of the gathered item rows, and the whole weights and biases; it writes back rows
  `10000·t …` of the one-column output.  The 10 blocks cover all 100000 rows, and every written entry is one function of the
  region's input arrays, so the output array after the region is that function.
-/
import proofs.«151319_j35064113004962_2_alg».proof.Proof.Gen.KernelIdeal.Frame
import proofs.«151319_j35064113004962_2_alg».proof.Proof.BodyValue
import Idealize.ShloMosaic.Lib.Pipeline.Value

set_option maxRecDepth 16384

noncomputable section

open scoped BigOperators

namespace Cert.KernelIdeal.Score

open Cert.KernelIdeal Cert.KernelIdeal.Gen Cert.KernelIdeal.BodyValue Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-tiled windows sit at block `(t, 0)`, the weights and the biases at `(0, 0)`. -/
theorem blocks : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

set_option maxHeartbeats 4000000 in
/-- What point `t` writes back is block `t` of the head's function of the region's input arrays. -/
theorem flushed_eq (c : Dev nD) (t : Fin cfg3.N) :
    (dat3 V c).flushed 7 t = ((cfg3.win 7).blk t).view.read (Elt Ideal)
      (headOut (V c main_v79) (V c main_v88) (V c main_v89) (V c main_v90) (V c main_v91) (V c main_arg10) (V c main_v92)) := by
  show (cfg3.win 7).cut (grid3.coords t) ((dat3 V c).after 7 t) = _
  rw [after3_7]
  unfold out3_7
  rw [View.canon_unit_zero origin]
  simp only [View.ld_unit_zero (S := S10000x64) origin, View.ld_unit_zero (S := S64x32) origin,
    View.ld_unit_zero (S := S1x32) origin, View.ld_unit_zero (S := S32x1) origin, View.ld_unit_zero (S := S1x1) origin]
  obtain ⟨e00, e01, e10, e11, e20, e21, e30, e31, e40, e41, e50, e51, e60, e61, e70, e71⟩ := blocks t
  have ht : t.val < 10 := t.isLt
  funext j
  show k3_pay1 (F := Ideal) (iblk3 V c 0 t) (iblk3 V c 1 t) (iblk3 V c 2 t) (iblk3 V c 3 t) (iblk3 V c 4 t) (iblk3 V c 5 t) (iblk3 V c 6 t) j
    = headOut (V c main_v79) (V c main_v88) (V c main_v89) (V c main_v90) (V c main_v91) (V c main_arg10) (V c main_v92) (((cfg3.win 7).blk t).view.emb j)
  refine head_block _ _ _ _ _ _ _ _ _ _ _ _ _ _ t.val j _ ?_ ?_ ?_ ?_ ?_ ?_ ?_ ?_
  · show win3_7.index t (0 : Fin 2) * 10000 + 1 * (j 0).val = t.val * 10000 + (j 0).val; omega
  · intro p k r hr
    show V c main_v79 (((cfg3.win 0).blk t).view.emb (ix2 p k)) = V c main_v79 (ix2 r k)
    refine congrArg _ (funext fun a => Fin.ext ?_)
    match a with
    | ⟨0, _⟩ => show win3_0.index t (0 : Fin 2) * 10000 + 1 * p.val = r.val; omega
    | ⟨1, _⟩ => show win3_0.index t (1 : Fin 2) * 64 + 1 * k.val = k.val; omega
  · intro p k r hr
    show V c main_v88 (((cfg3.win 1).blk t).view.emb (ix2 p k)) = V c main_v88 (ix2 r k)
    refine congrArg _ (funext fun a => Fin.ext ?_)
    match a with
    | ⟨0, _⟩ => show win3_1.index t (0 : Fin 2) * 10000 + 1 * p.val = r.val; omega
    | ⟨1, _⟩ => show win3_1.index t (1 : Fin 2) * 64 + 1 * k.val = k.val; omega
  · funext y
    show V c main_v89 (((cfg3.win 2).blk t).view.emb y) = V c main_v89 y
    refine congrArg _ (funext fun a => Fin.ext ?_)
    match a with
    | ⟨0, _⟩ => show win3_2.index t (0 : Fin 2) * 64 + 1 * (y 0).val = (y 0).val; omega
    | ⟨1, _⟩ => show win3_2.index t (1 : Fin 2) * 32 + 1 * (y 1).val = (y 1).val; omega
  · funext y
    show V c main_v90 (((cfg3.win 3).blk t).view.emb y) = V c main_v90 y
    refine congrArg _ (funext fun a => Fin.ext ?_)
    match a with
    | ⟨0, _⟩ => show win3_3.index t (0 : Fin 2) * 64 + 1 * (y 0).val = (y 0).val; omega
    | ⟨1, _⟩ => show win3_3.index t (1 : Fin 2) * 32 + 1 * (y 1).val = (y 1).val; omega
  · funext y
    show V c main_v91 (((cfg3.win 4).blk t).view.emb y) = V c main_v91 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 32 + 1 * (y 1).val = (y 1).val; omega
  · funext y
    show V c main_arg10 (((cfg3.win 5).blk t).view.emb y) = V c main_arg10 y
    refine congrArg _ (funext fun a => Fin.ext ?_)
    match a with
    | ⟨0, _⟩ => show win3_5.index t (0 : Fin 2) * 32 + 1 * (y 0).val = (y 0).val; omega
    | ⟨1, _⟩ => show win3_5.index t (1 : Fin 2) * 1 + 1 * (y 1).val = (y 1).val; omega
  · funext y
    show V c main_v92 (((cfg3.win 6).blk t).view.emb y) = V c main_v92 y
    refine congrArg _ (funext fun a => Fin.ext ?_)
    match a with
    | ⟨0, _⟩ => show win3_6.index t (0 : Fin 2) * 1 + 1 * (y 0).val = (y 0).val; omega
    | ⟨1, _⟩ => show win3_6.index t (1 : Fin 2) * 1 + 1 * (y 1).val = (y 1).val; omega

/-- An index of the output array is in point `t`'s block iff each coordinate is in the block's range on its axis. -/
theorem mem_blk (t : Fin cfg3.N) (i : S100000x1.Idx) :
    i ∈ ((cfg3.win 7).blk t).view.set ↔ ∀ a : Fin 2, win3_7.index t a * S10000x1.size a ≤ (i a).val ∧ (i a).val < win3_7.index t a * S10000x1.size a + S10000x1.size a := by
  show i ∈ ((View.whole main_v93).slice (win3_7.rect t)).set ↔ _
  rw [View.set_slice_whole, Rect.mem_set_unit]
  exact Iff.rfl

/-- Row `r` lies in the block of point `r / 10000`: the 10 blocks cover the array. -/
theorem cover (i : S100000x1.Idx) : ∃ t : Fin cfg3.N, (cfg3.win 7).flush t = true ∧ i ∈ ((cfg3.win 7).blk t).view.set := by
  have hi0 : (i 0).val < 100000 := (i 0).isLt
  have hi1 : (i 1).val < 1 := (i 1).isLt
  have hlt : (i 0).val / 10000 < 10 := by omega
  obtain ⟨-, -, -, -, -, -, -, -, -, -, -, -, -, -, e70, e71⟩ := blocks ⟨(i 0).val / 10000, hlt⟩
  refine ⟨⟨(i 0).val / 10000, hlt⟩, flush3_7 _, ?_⟩
  rw [mem_blk]
  intro a
  match a with
  | ⟨0, _⟩ =>
    show win3_7.index ⟨(i 0).val / 10000, hlt⟩ (0 : Fin 2) * 10000 ≤ (i 0).val ∧ (i 0).val < win3_7.index ⟨(i 0).val / 10000, hlt⟩ (0 : Fin 2) * 10000 + 10000
    rw [e70]; show (i 0).val / 10000 * 10000 ≤ (i 0).val ∧ (i 0).val < (i 0).val / 10000 * 10000 + 10000; omega
  | ⟨1, _⟩ =>
    show win3_7.index ⟨(i 0).val / 10000, hlt⟩ (1 : Fin 2) * 1 ≤ (i 1).val ∧ (i 1).val < win3_7.index ⟨(i 0).val / 10000, hlt⟩ (1 : Fin 2) * 1 + 1
    rw [e71]; omega

/-- The output array after the region is the head's function of the region's input arrays. -/
theorem final (c : Dev nD) : (dat3 V c).arrAt 7 cfg3.N
    = headOut (V c main_v79) (V c main_v88) (V c main_v89) (V c main_v90) (V c main_v91) (V c main_arg10) (V c main_v92) :=
  (dat3 V c).arrAt_eq_of_cover 7 _ (fun t _ => flushed_eq V c t) (cover)

end Cert.KernelIdeal.Score

end
-- ==== Proof.Spec.lean ====
/-
  The network's two stages as functions of whole arrays over the extended reals, index by index.

  A graph layer takes, per node `r`, the sums `S r ·` of its in-neighbours' feature rows, the floor-at-one in-degree
  `M r`, the node's own row `X r ·`, two 64×64 weight matrices and a bias, and returns
  `max (((Σₖ (S r k / M r) · Wl k q) + bl q) + Σₖ X r k · Wr k q) 0`.
  The scoring head takes two gathered 64-column blocks `U`, `I`, a 128×32 matrix, a bias of 32, a 32×1 matrix and a bias
  of one, and returns the score `Σⱼ max (((Σₖ U r k · W1 k j + Σₖ I r k · W1 (64 + k) j) + b1 j)) 0 · W2 j 0 + b2 0`
  clamped between the two given bounds.
-/
import Idealize.ShloMosaic.PureOps.Ideal
import Idealize.ShloMosaic.Lib.ValueIdx

noncomputable section

open scoped BigOperators

namespace Cert.Spec

open Idealize.ShloMosaic Idealize.ShloMosaic.ValueIdx

abbrev Nodes64 : Shape := ⟨2, ![150000, 64]⟩
abbrev Nodes : Shape := ⟨1, ![150000]⟩
abbrev Sq64 : Shape := ⟨2, ![64, 64]⟩
abbrev Row64 : Shape := ⟨1, ![64]⟩
abbrev Batch64 : Shape := ⟨2, ![100000, 64]⟩
abbrev Batch : Shape := ⟨1, ![100000]⟩
abbrev In128x32 : Shape := ⟨2, ![128, 32]⟩
abbrev Row32 : Shape := ⟨1, ![32]⟩
abbrev Col32 : Shape := ⟨2, ![32, 1]⟩
abbrev One : Shape := ⟨1, ![1]⟩

/-- One graph layer, entry `(r, q)`: the mean of the in-neighbours' rows through `Wl`, plus the bias, plus the node's own
    row through `Wr`, floored at zero. -/
def layer (S : Nodes64.Idx → EReal) (M : Nodes.Idx → EReal) (X : Nodes64.Idx → EReal)
    (Wl : Sq64.Idx → EReal) (bl : Row64.Idx → EReal) (Wr : Sq64.Idx → EReal) : Nodes64.Idx → EReal :=
  fun i => max (((∑ k : Fin 64, Ideal.div (S (ix2 (i 0) k)) (M (ix1 (i 0))) * Wl (ix2 k (i 1))) + bl (ix1 (i 1)))
    + ∑ k : Fin 64, X (ix2 (i 0) k) * Wr (ix2 k (i 1))) 0

/-- The hidden activations of the scoring head, entry `(r, j)`. -/
def hidden (U I : Batch64.Idx → EReal) (W1 : In128x32.Idx → EReal) (b1 : Row32.Idx → EReal) (r : Fin 100000) (j : Fin 32) : EReal :=
  max (((∑ k : Fin 64, U (ix2 r k) * W1 (ix2 ⟨k.val, by omega⟩ j)) + ∑ k : Fin 64, I (ix2 r k) * W1 (ix2 ⟨64 + k.val, by omega⟩ j))
    + b1 (ix1 j)) 0

/-- The scoring head, entry `r`: the hidden activations through `W2`, plus the bias, clamped to `[lo, hi]`. -/
def head (lo hi : EReal) (U I : Batch64.Idx → EReal) (W1 : In128x32.Idx → EReal) (b1 : Row32.Idx → EReal)
    (W2 : Col32.Idx → EReal) (b2 : One.Idx → EReal) : Batch.Idx → EReal :=
  fun i => min hi (max lo ((∑ j : Fin 32, hidden U I W1 b1 (i 0) j * W2 (ix2 j 0)) + b2 (ix1 0)))

end Cert.Spec

end
-- ==== Proof.Arrange.lean ====
/-
  The layer and the head as the kernel arranges them are the network's layer and head.

  The kernel hands the layer a column of reciprocals `1 / M r`, the two weight matrices stacked into 128 rows, and the bias
  as a 1×64 row; it computes `(Σₖ (S r k · (1 / M r)) · Wl k q + Σₖ X r k · Wr k q) + bl q`.  Since `M r ≥ 1`, multiplying by
  `1 / M r` is dividing by `M r`, and moving the bias inside the outer sum is associativity and commutativity of addition.
  The kernel hands the head the two halves of the first weight matrix (rows 0–63 and rows 64–127) and the two biases as
  rows; entry by entry this is the network's head.
-/
import proofs.«151319_j35064113004962_2_alg».proof.Proof.BodyValue
import proofs.«151319_j35064113004962_2_alg».proof.Proof.Spec
import Idealize.ShloMosaic.Lib.IdealHost

set_option maxRecDepth 16384

noncomputable section

open scoped BigOperators

namespace Cert.KernelIdeal.Arrange

open Cert.KernelIdeal Cert.KernelIdeal.Gen Cert.KernelIdeal.BodyValue Idealize.ShloMosaic Idealize.ShloMosaic.ValueIdx

/-- The column of reciprocals of the floored degrees. -/
def invCol (M : S150000.Idx → EReal) : S150000x1.Idx → EReal :=
  shapeCast _ (Host.divf (F := Ideal) (φ := .f32) (broadcastInDim S150000 ![] bcast_S_S150000 (constant (F := Ideal) S_ .f32 0x3F800000#32)) M) shapeCasts_S150000_S150000x1
/-- Two 64×64 matrices stacked into 128 rows. -/
def stacked (A B : S64x64.Idx → EReal) : S128x64.Idx → EReal :=
  concatenate S128x64 0 [⟨S64x64, A⟩, ⟨S64x64, B⟩] concatenates_S64x64_S64x64_S128x64_d0
/-- A vector of 64 as a 1×64 row. -/
def biasRow (b : S64.Idx → EReal) : S1x64.Idx → EReal := shapeCast _ b shapeCasts_S64_S1x64

theorem invCol_apply (M : S150000.Idx → EReal) (r : Fin 150000) : invCol M (ix2 r 0) = Ideal.div 1 (M (ix1 r)) := by
  unfold invCol
  rw [shapeCast_apply _ _ (ix2 r 0) (ix1 r) (by rw [Shape.rowMajor_val_one, Shape.rowMajor_val_two]; show r.val = r.val * 1 + 0; omega)]
  show Ideal.div (Ideal.ofBits .f32 0x3F800000#32) (M (ix1 r)) = _
  rw [Ideal.ofBits_one_f32]

theorem stacked_top (A B : S64x64.Idx → EReal) (k q : Fin 64) : stacked A B (ix2 (⟨k.val, by omega⟩ : Fin 128) q) = A (ix2 k q) :=
  concatenate_pair_apply_left 0 A B concatenates_S64x64_S64x64_S128x64_d0 (ix2 (⟨k.val, by omega⟩ : Fin 128) q) rfl (ix2 k q) (fun c => by
    match c with
    | ⟨0, _⟩ => rfl
    | ⟨1, _⟩ => rfl)

theorem stacked_bottom (A B : S64x64.Idx → EReal) (k q : Fin 64) : stacked A B (ix2 (⟨64 + k.val, by omega⟩ : Fin 128) q) = B (ix2 k q) :=
  concatenate_pair_apply_right 0 A B concatenates_S64x64_S64x64_S128x64_d0 (ix2 (⟨64 + k.val, by omega⟩ : Fin 128) q) rfl rfl (ix2 k q) (fun c hc => by
    match c with
    | ⟨0, _⟩ => exact absurd rfl hc
    | ⟨1, _⟩ => rfl) (by show k.val + 64 = 64 + k.val; omega)

theorem biasRow_apply (b : S64.Idx → EReal) (q : Fin 64) : biasRow b (ix2 0 q) = b (ix1 q) := by
  unfold biasRow
  exact shapeCast_apply _ _ (ix2 0 q) (ix1 q) (by rw [Shape.rowMajor_val_one, Shape.rowMajor_val_two]; show q.val = 0 * 64 + q.val; omega)

/-- The kernel's layer on its own inputs is the network's layer. -/
theorem layer_eq (S : S150000x64.Idx → EReal) (M : S150000.Idx → EReal) (X : S150000x64.Idx → EReal)
    (Wl : S64x64.Idx → EReal) (bl : S64.Idx → EReal) (Wr : S64x64.Idx → EReal) (hM : ∀ r, (1 : EReal) ≤ M r) :
    layerOut S (invCol M) X (stacked Wl Wr) (biasRow bl) = Cert.Spec.layer S M X Wl bl Wr := by
  funext i
  obtain ⟨r, q, rfl⟩ : ∃ (r : Fin 150000) (q : Fin 64), i = ix2 r q := ⟨i 0, i 1, eq_ix2 i⟩
  unfold layerOut Cert.Spec.layer
  show max (((∑ k : Fin 64, (S (ix2 r k) * invCol M (ix2 r 0)) * stacked Wl Wr (ix2 (⟨k.val, by omega⟩ : Fin 128) q))
      + ∑ k : Fin 64, X (ix2 r k) * stacked Wl Wr (ix2 (⟨64 + k.val, by omega⟩ : Fin 128) q)) + biasRow bl (ix2 0 q)) 0
    = max (((∑ k : Fin 64, Ideal.div (S (ix2 r k)) (M (ix1 r)) * Wl (ix2 k q)) + bl (ix1 q)) + ∑ k : Fin 64, X (ix2 r k) * Wr (ix2 k q)) 0
  simp only [invCol_apply, stacked_top, stacked_bottom, biasRow_apply, Cert.LibSplitSum.mul_recip_eq_div _ _ (hM _)]
  rw [add_right_comm]

/-- Rows 0–63 and rows 64–127 of the first head matrix. -/
def upperHalf (W : S128x32.Idx → EReal) : S64x32.Idx → EReal := extractStridedSlice S64x32 ![0, 0] W slices_S128x32_S64x32_0_0
def lowerHalf (W : S128x32.Idx → EReal) : S64x32.Idx → EReal := extractStridedSlice S64x32 ![64, 0] W slices_S128x32_S64x32_64_0
/-- A vector of 32 as a 1×32 row, a vector of one as a 1×1 array, and a column of 100000 as a flat vector. -/
def row32 (b : S32.Idx → EReal) : S1x32.Idx → EReal := shapeCast _ b shapeCasts_S32_S1x32
def row1 (b : S1.Idx → EReal) : S1x1.Idx → EReal := shapeCast _ b shapeCasts_S1_S1x1
def flat (v : S100000x1.Idx → EReal) : S100000.Idx → EReal := shapeCast _ v shapeCasts_S100000x1_S100000

theorem upperHalf_apply (W : S128x32.Idx → EReal) (k : Fin 64) (j : Fin 32) : upperHalf W (ix2 k j) = W (ix2 (⟨k.val, by omega⟩ : Fin 128) j) := by
  unfold upperHalf
  exact extractStridedSlice_apply ![0, 0] W slices_S128x32_S64x32_0_0 (ix2 k j) (ix2 (⟨k.val, by omega⟩ : Fin 128) j) (fun a => match a with
    | ⟨0, _⟩ => by show k.val = 0 + k.val; omega
    | ⟨1, _⟩ => by show j.val = 0 + j.val; omega)

theorem lowerHalf_apply (W : S128x32.Idx → EReal) (k : Fin 64) (j : Fin 32) : lowerHalf W (ix2 k j) = W (ix2 (⟨64 + k.val, by omega⟩ : Fin 128) j) := by
  unfold lowerHalf
  exact extractStridedSlice_apply ![64, 0] W slices_S128x32_S64x32_64_0 (ix2 k j) (ix2 (⟨64 + k.val, by omega⟩ : Fin 128) j) (fun a => match a with
    | ⟨0, _⟩ => by show 64 + k.val = 64 + k.val; omega
    | ⟨1, _⟩ => by show j.val = 0 + j.val; omega)

theorem row32_apply (b : S32.Idx → EReal) (j : Fin 32) : row32 b (ix2 0 j) = b (ix1 j) := by
  unfold row32
  exact shapeCast_apply _ _ (ix2 0 j) (ix1 j) (by rw [Shape.rowMajor_val_one, Shape.rowMajor_val_two]; show j.val = 0 * 32 + j.val; omega)

theorem row1_apply (b : S1.Idx → EReal) : row1 b (ix2 0 0) = b (ix1 0) := by
  unfold row1
  exact shapeCast_apply _ _ (ix2 0 0) (ix1 0) (by rw [Shape.rowMajor_val_one, Shape.rowMajor_val_two]; show (0 : Nat) = 0 * 1 + 0; omega)

theorem flat_apply (v : S100000x1.Idx → EReal) (r : Fin 100000) : flat v (ix1 r) = v (ix2 r 0) := by
  unfold flat
  exact shapeCast_apply _ _ (ix1 r) (ix2 r 0) (by rw [Shape.rowMajor_val_one, Shape.rowMajor_val_two]; show r.val * 1 + 0 = r.val; omega)

/-- The kernel's head on its own inputs, flattened, is the network's head. -/
theorem head_eq (U I : S100000x64.Idx → EReal) (W1 : S128x32.Idx → EReal) (b1 : S32.Idx → EReal)
    (W2 : S32x1.Idx → EReal) (b2 : S1.Idx → EReal) :
    flat (headOut U I (upperHalf W1) (lowerHalf W1) (row32 b1) W2 (row1 b2))
      = Cert.Spec.head (Ideal.ofBits .f32 0x3F800000#32) (Ideal.ofBits .f32 0x40A00000#32) U I W1 b1 W2 b2 := by
  funext i
  obtain ⟨r, rfl⟩ : ∃ r : Fin 100000, i = ix1 r := ⟨i 0, eq_ix1 i⟩
  rw [flat_apply]
  unfold headOut Cert.Spec.head Cert.Spec.hidden
  simp only [upperHalf_apply, lowerHalf_apply, row32_apply, row1_apply]

end Cert.KernelIdeal.Arrange

end
-- ==== Proof.Net.lean ====
/-
  The whole network as one function of the twelve argument arrays.

  The node features start as the user rows followed by the item rows.  Each of the three layers gathers, for every edge, the
  source node's row, adds it into the destination node's row of a zero array (`agg`), counts the edges into every node
  with a floor of one (`deg`), and applies `Spec.layer` with that layer's slices of the weights and bias.  The head gathers
  the rows of the requested users and of the requested items (shifted past the users) and applies `Spec.head` with the
  clamp bounds one and five.  A negative index is read from the end, as array indexing does.
-/
import proofs.«151319_j35064113004962_2_alg».proof.Proof.Gen.ReferenceIdeal
import proofs.«151319_j35064113004962_2_alg».proof.Proof.Spec

noncomputable section

namespace Cert.Net

open Cert.ReferenceIdeal Cert.ReferenceIdeal.Gen Idealize.ShloMosaic Idealize.ShloMosaic.TcCoe

/-- Arrays of 32-bit integers, and of extended reals, of a given shape. -/
abbrev IntArr (s : Shape) : Type := (⟨s, .i32⟩ : BufTy).Contents (Elt Ideal)
abbrev RealArr (s : Shape) : Type := (⟨s, .f32⟩ : BufTy).Contents (Elt Ideal)

/-- Row `a` of the edge list, as a flat array of 4,000,000 indices. -/
def srcFlat (e : (IntArr S2x4000000)) : (IntArr S4000000) :=
  shapeCast _ (extractStridedSlice S1x4000000 ![0, 0] e slices_S2x4000000_S1x4000000_0_0) shapeCasts_S1x4000000_S4000000
def dstFlat (e : (IntArr S2x4000000)) : (IntArr S4000000) :=
  shapeCast _ (extractStridedSlice S1x4000000 ![1, 0] e slices_S2x4000000_S1x4000000_1_0) shapeCasts_S1x4000000_S4000000

/-- The source indices as the gather takes them: a negative one counts from the end. -/
def src (e : (IntArr S2x4000000)) : (IntArr S4000000x1) :=
  broadcastInDim S4000000x1 ![0] bcast_S4000000_S4000000x1_0
    (select (cmpi .slt (srcFlat e) (broadcastInDim S4000000 ![] bcast_S_S4000000 (constantI S_ 32 0#32)))
      (addi (srcFlat e) (broadcastInDim S4000000 ![] bcast_S_S4000000 (constantI S_ 32 150000#32))) (srcFlat e))
/-- The destination indices as the scatter takes them. -/
def dst (e : (IntArr S2x4000000)) : (IntArr S4000000x1) :=
  broadcastInDim S4000000x1 ![0] bcast_S4000000_S4000000x1_0 (dstFlat e)

/-- Per node, the sum of the rows of `X` at the sources of the edges into it. -/
def agg (X : (RealArr S150000x64)) (e : (IntArr S2x4000000)) : (RealArr S150000x64) :=
  Host.scatterAdd (F := Ideal) scatter_S150000x64_S4000000x1_S4000000x64_1_0_0_1
    (broadcastInDim S150000x64 ![] bcast_S_S150000x64 (constant (F := Ideal) S_ .f32 0x00000000#32)) (dst e)
    (Host.gather gather_S150000x64_S4000000x1_S4000000x64_1_0_n_n_0_1_164 X (src e))

/-- Per node, the number of edges into it, floored at one. -/
def deg (e : (IntArr S2x4000000)) : (RealArr S150000) :=
  maximumf (F := Ideal) (Host.scatterAdd (F := Ideal) scatter_S150000_S4000000x1_S4000000_n_0_0_1
      (broadcastInDim S150000 ![] bcast_S_S150000 (constant (F := Ideal) S_ .f32 0x00000000#32)) (dst e)
      (broadcastInDim S4000000 ![] bcast_S_S4000000 (constant (F := Ideal) S_ .f32 0x3F800000#32)))
    (broadcastInDim S150000 ![] bcast_S_S150000 (constant (F := Ideal) S_ .f32 0x3F800000#32))

/-- The node features before the first layer: the user rows, then the item rows. -/
def nodes0 (ue : (RealArr S100000x64)) (ie : (RealArr S50000x64)) : (RealArr S150000x64) :=
  concatenate S150000x64 0 [⟨S100000x64, ue⟩, ⟨S50000x64, ie⟩] concatenates_S100000x64_S50000x64_S150000x64_d0

def mat0 (W : (RealArr S3x64x64)) : (RealArr S64x64) := shapeCast _ (extractStridedSlice S1x64x64 ![0, 0, 0] W slices_S3x64x64_S1x64x64_0_0_0) shapeCasts_S1x64x64_S64x64
def mat1 (W : (RealArr S3x64x64)) : (RealArr S64x64) := shapeCast _ (extractStridedSlice S1x64x64 ![1, 0, 0] W slices_S3x64x64_S1x64x64_1_0_0) shapeCasts_S1x64x64_S64x64
def mat2 (W : (RealArr S3x64x64)) : (RealArr S64x64) := shapeCast _ (extractStridedSlice S1x64x64 ![2, 0, 0] W slices_S3x64x64_S1x64x64_2_0_0) shapeCasts_S1x64x64_S64x64
def bias0 (b : (RealArr S3x64)) : (RealArr S64) := shapeCast _ (extractStridedSlice S1x64 ![0, 0] b slices_S3x64_S1x64_0_0) shapeCasts_S1x64_S64
def bias1 (b : (RealArr S3x64)) : (RealArr S64) := shapeCast _ (extractStridedSlice S1x64 ![1, 0] b slices_S3x64_S1x64_1_0) shapeCasts_S1x64_S64
def bias2 (b : (RealArr S3x64)) : (RealArr S64) := shapeCast _ (extractStridedSlice S1x64 ![2, 0] b slices_S3x64_S1x64_2_0) shapeCasts_S1x64_S64

/-- The rows of `X` at the requested users. -/
def users (X : (RealArr S150000x64)) (uid : (IntArr S100000)) : (RealArr S100000x64) :=
  Host.gather gather_S150000x64_S100000x1_S100000x64_1_0_n_n_0_1_164 X
    (broadcastInDim S100000x1 ![0] bcast_S100000_S100000x1_0
      (select (cmpi .slt uid (broadcastInDim S100000 ![] bcast_S_S100000 (constantI S_ 32 0#32)))
        (addi uid (broadcastInDim S100000 ![] bcast_S_S100000 (constantI S_ 32 150000#32))) uid))

/-- The item indices shifted past the 100,000 users. -/
def shifted (iid : (IntArr S100000)) : (IntArr S100000) :=
  addi iid (broadcastInDim S100000 ![] bcast_S_S100000 (constantI S_ 32 100000#32))

/-- The rows of `X` at the requested items. -/
def items (X : (RealArr S150000x64)) (iid : (IntArr S100000)) : (RealArr S100000x64) :=
  Host.gather gather_S150000x64_S100000x1_S100000x64_1_0_n_n_0_1_164 X
    (broadcastInDim S100000x1 ![0] bcast_S100000_S100000x1_0
      (select (cmpi .slt (shifted iid) (broadcastInDim S100000 ![] bcast_S_S100000 (constantI S_ 32 0#32)))
        (addi (shifted iid) (broadcastInDim S100000 ![] bcast_S_S100000 (constantI S_ 32 150000#32))) (shifted iid)))

def feat1 (e : (IntArr S2x4000000)) (ue : (RealArr S100000x64)) (ie : (RealArr S50000x64)) (Wl : (RealArr S3x64x64)) (bl : (RealArr S3x64)) (Wr : (RealArr S3x64x64)) : (RealArr S150000x64) :=
  Spec.layer (agg (nodes0 ue ie) e) (deg e) (nodes0 ue ie) (mat0 Wl) (bias0 bl) (mat0 Wr)
def feat2 (e : (IntArr S2x4000000)) (ue : (RealArr S100000x64)) (ie : (RealArr S50000x64)) (Wl : (RealArr S3x64x64)) (bl : (RealArr S3x64)) (Wr : (RealArr S3x64x64)) : (RealArr S150000x64) :=
  Spec.layer (agg (feat1 e ue ie Wl bl Wr) e) (deg e) (feat1 e ue ie Wl bl Wr) (mat1 Wl) (bias1 bl) (mat1 Wr)
def feat3 (e : (IntArr S2x4000000)) (ue : (RealArr S100000x64)) (ie : (RealArr S50000x64)) (Wl : (RealArr S3x64x64)) (bl : (RealArr S3x64)) (Wr : (RealArr S3x64x64)) : (RealArr S150000x64) :=
  Spec.layer (agg (feat2 e ue ie Wl bl Wr) e) (deg e) (feat2 e ue ie Wl bl Wr) (mat2 Wl) (bias2 bl) (mat2 Wr)

/-- The predicted ratings. -/
def rating (e : (IntArr S2x4000000)) (uid iid : (IntArr S100000)) (ue : (RealArr S100000x64)) (ie : (RealArr S50000x64)) (Wl : (RealArr S3x64x64)) (bl : (RealArr S3x64))
    (Wr : (RealArr S3x64x64)) (W1 : (RealArr S128x32)) (b1 : (RealArr S32)) (W2 : (RealArr S32x1)) (b2 : (RealArr S1)) : (RealArr S100000) :=
  Spec.head (Ideal.ofBits .f32 0x3F800000#32) (Ideal.ofBits .f32 0x40A00000#32)
    (users (feat3 e ue ie Wl bl Wr) uid) (items (feat3 e ue ie Wl bl Wr) iid) W1 b1 W2 b2

end Cert.Net

end
-- ==== Proof.Chain.lean ====
/-
  The kernel's result as a function of its arguments.  The buffer contents are followed through @main's nine segments: each
  stretch of host operations computes its results from the contents it finds (the neighbour sums, the reciprocal degrees, the
  stacked weights, the bias row, the gathered user and item rows), each region leaves its output array at the layer's or the
  head's function of the arrays it was handed, and every other buffer keeps what it held.  Layer by layer the node features
  are the network's, and the result buffer ends holding the network's ratings.
-/
import proofs.«151319_j35064113004962_2_alg».proof.Proof.Gen.KernelIdeal.Frame
import proofs.«151319_j35064113004962_2_alg».proof.Proof.Layer0
import proofs.«151319_j35064113004962_2_alg».proof.Proof.Layer1
import proofs.«151319_j35064113004962_2_alg».proof.Proof.Layer2
import proofs.«151319_j35064113004962_2_alg».proof.Proof.Score
import proofs.«151319_j35064113004962_2_alg».proof.Proof.Arrange
import proofs.«151319_j35064113004962_2_alg».proof.Proof.Net
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem
open Idealize.ShloMosaic.Pipeline (Dat Cfg Window)

/-- Rewrites every remaining host operation's result at a buffer: to the operation's function at its own result buffer, to the
    earlier contents at any other buffer. -/
macro "peel_results" : tactic =>
  `(tactic| (repeat (first
               | rw [nullary_result] | rw [unary_result] | rw [binary_result] | rw [ternary_result] | rw [quaternary_result]
               | rw [reshape_result] | rw [binaryIndexed_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [binaryIndexed_result_ne]; rotate_left; decide))))

variable (m : (ℓ : Loc nD τ sig) → Buf (Elt Ideal) ℓ) (ρ : Dev nD → PrngReg) (c : Dev nD)

theorem arg1_W1 : W1 m ρ c (Proc.devRef .tc main_arg1) = m ((c : Thread nD τ).loc main_arg1) := by
  show StableHlo.after hostOps0 (W0 m ρ c) (Proc.devRef .tc main_arg1) = _
  after_results
  all_goals rfl

theorem arg1_W2 : W2 m ρ c (Proc.devRef .tc main_arg1) = m ((c : Thread nD τ).loc main_arg1) := by
  exact (W2_of_ne m ρ c main_arg1 (by decide)).trans (arg1_W1 m ρ c)

theorem arg1_W3 : W3 m ρ c (Proc.devRef .tc main_arg1) = m ((c : Thread nD τ).loc main_arg1) := by
  show StableHlo.after hostOps1 (W2 m ρ c) (Proc.devRef .tc main_arg1) = _
  after_results
  all_goals exact arg1_W2 m ρ c

theorem arg1_W4 : W4 m ρ c (Proc.devRef .tc main_arg1) = m ((c : Thread nD τ).loc main_arg1) := by
  exact (W4_of_ne m ρ c main_arg1 (by decide)).trans (arg1_W3 m ρ c)

theorem arg1_W5 : W5 m ρ c (Proc.devRef .tc main_arg1) = m ((c : Thread nD τ).loc main_arg1) := by
  show StableHlo.after hostOps2 (W4 m ρ c) (Proc.devRef .tc main_arg1) = _
  after_results
  all_goals exact arg1_W4 m ρ c

theorem arg1_W6 : W6 m ρ c (Proc.devRef .tc main_arg1) = m ((c : Thread nD τ).loc main_arg1) := by
  exact (W6_of_ne m ρ c main_arg1 (by decide)).trans (arg1_W5 m ρ c)

theorem arg1_W7 : W7 m ρ c (Proc.devRef .tc main_arg1) = m ((c : Thread nD τ).loc main_arg1) := by
  show StableHlo.after hostOps3 (W6 m ρ c) (Proc.devRef .tc main_arg1) = _
  after_results
  all_goals exact arg1_W6 m ρ c

theorem arg2_W1 : W1 m ρ c (Proc.devRef .tc main_arg2) = m ((c : Thread nD τ).loc main_arg2) := by
  show StableHlo.after hostOps0 (W0 m ρ c) (Proc.devRef .tc main_arg2) = _
  after_results
  all_goals rfl

theorem arg2_W2 : W2 m ρ c (Proc.devRef .tc main_arg2) = m ((c : Thread nD τ).loc main_arg2) := by
  exact (W2_of_ne m ρ c main_arg2 (by decide)).trans (arg2_W1 m ρ c)

theorem arg2_W3 : W3 m ρ c (Proc.devRef .tc main_arg2) = m ((c : Thread nD τ).loc main_arg2) := by
  show StableHlo.after hostOps1 (W2 m ρ c) (Proc.devRef .tc main_arg2) = _
  after_results
  all_goals exact arg2_W2 m ρ c

theorem arg2_W4 : W4 m ρ c (Proc.devRef .tc main_arg2) = m ((c : Thread nD τ).loc main_arg2) := by
  exact (W4_of_ne m ρ c main_arg2 (by decide)).trans (arg2_W3 m ρ c)

theorem arg2_W5 : W5 m ρ c (Proc.devRef .tc main_arg2) = m ((c : Thread nD τ).loc main_arg2) := by
  show StableHlo.after hostOps2 (W4 m ρ c) (Proc.devRef .tc main_arg2) = _
  after_results
  all_goals exact arg2_W4 m ρ c

theorem arg2_W6 : W6 m ρ c (Proc.devRef .tc main_arg2) = m ((c : Thread nD τ).loc main_arg2) := by
  exact (W6_of_ne m ρ c main_arg2 (by decide)).trans (arg2_W5 m ρ c)

theorem arg2_W7 : W7 m ρ c (Proc.devRef .tc main_arg2) = m ((c : Thread nD τ).loc main_arg2) := by
  show StableHlo.after hostOps3 (W6 m ρ c) (Proc.devRef .tc main_arg2) = _
  after_results
  all_goals exact arg2_W6 m ρ c

theorem arg5_W1 : W1 m ρ c (Proc.devRef .tc main_arg5) = m ((c : Thread nD τ).loc main_arg5) := by
  show StableHlo.after hostOps0 (W0 m ρ c) (Proc.devRef .tc main_arg5) = _
  after_results
  all_goals rfl

theorem arg5_W2 : W2 m ρ c (Proc.devRef .tc main_arg5) = m ((c : Thread nD τ).loc main_arg5) := by
  exact (W2_of_ne m ρ c main_arg5 (by decide)).trans (arg5_W1 m ρ c)

theorem arg5_W3 : W3 m ρ c (Proc.devRef .tc main_arg5) = m ((c : Thread nD τ).loc main_arg5) := by
  show StableHlo.after hostOps1 (W2 m ρ c) (Proc.devRef .tc main_arg5) = _
  after_results
  all_goals exact arg5_W2 m ρ c

theorem arg5_W4 : W4 m ρ c (Proc.devRef .tc main_arg5) = m ((c : Thread nD τ).loc main_arg5) := by
  exact (W4_of_ne m ρ c main_arg5 (by decide)).trans (arg5_W3 m ρ c)

theorem arg5_W5 : W5 m ρ c (Proc.devRef .tc main_arg5) = m ((c : Thread nD τ).loc main_arg5) := by
  show StableHlo.after hostOps2 (W4 m ρ c) (Proc.devRef .tc main_arg5) = _
  after_results
  all_goals exact arg5_W4 m ρ c

theorem arg6_W1 : W1 m ρ c (Proc.devRef .tc main_arg6) = m ((c : Thread nD τ).loc main_arg6) := by
  show StableHlo.after hostOps0 (W0 m ρ c) (Proc.devRef .tc main_arg6) = _
  after_results
  all_goals rfl

theorem arg6_W2 : W2 m ρ c (Proc.devRef .tc main_arg6) = m ((c : Thread nD τ).loc main_arg6) := by
  exact (W2_of_ne m ρ c main_arg6 (by decide)).trans (arg6_W1 m ρ c)

theorem arg6_W3 : W3 m ρ c (Proc.devRef .tc main_arg6) = m ((c : Thread nD τ).loc main_arg6) := by
  show StableHlo.after hostOps1 (W2 m ρ c) (Proc.devRef .tc main_arg6) = _
  after_results
  all_goals exact arg6_W2 m ρ c

theorem arg6_W4 : W4 m ρ c (Proc.devRef .tc main_arg6) = m ((c : Thread nD τ).loc main_arg6) := by
  exact (W4_of_ne m ρ c main_arg6 (by decide)).trans (arg6_W3 m ρ c)

theorem arg6_W5 : W5 m ρ c (Proc.devRef .tc main_arg6) = m ((c : Thread nD τ).loc main_arg6) := by
  show StableHlo.after hostOps2 (W4 m ρ c) (Proc.devRef .tc main_arg6) = _
  after_results
  all_goals exact arg6_W4 m ρ c

theorem arg7_W1 : W1 m ρ c (Proc.devRef .tc main_arg7) = m ((c : Thread nD τ).loc main_arg7) := by
  show StableHlo.after hostOps0 (W0 m ρ c) (Proc.devRef .tc main_arg7) = _
  after_results
  all_goals rfl

theorem arg7_W2 : W2 m ρ c (Proc.devRef .tc main_arg7) = m ((c : Thread nD τ).loc main_arg7) := by
  exact (W2_of_ne m ρ c main_arg7 (by decide)).trans (arg7_W1 m ρ c)

theorem arg7_W3 : W3 m ρ c (Proc.devRef .tc main_arg7) = m ((c : Thread nD τ).loc main_arg7) := by
  show StableHlo.after hostOps1 (W2 m ρ c) (Proc.devRef .tc main_arg7) = _
  after_results
  all_goals exact arg7_W2 m ρ c

theorem arg7_W4 : W4 m ρ c (Proc.devRef .tc main_arg7) = m ((c : Thread nD τ).loc main_arg7) := by
  exact (W4_of_ne m ρ c main_arg7 (by decide)).trans (arg7_W3 m ρ c)

theorem arg7_W5 : W5 m ρ c (Proc.devRef .tc main_arg7) = m ((c : Thread nD τ).loc main_arg7) := by
  show StableHlo.after hostOps2 (W4 m ρ c) (Proc.devRef .tc main_arg7) = _
  after_results
  all_goals exact arg7_W4 m ρ c

theorem arg8_W1 : W1 m ρ c (Proc.devRef .tc main_arg8) = m ((c : Thread nD τ).loc main_arg8) := by
  show StableHlo.after hostOps0 (W0 m ρ c) (Proc.devRef .tc main_arg8) = _
  after_results
  all_goals rfl

theorem arg8_W2 : W2 m ρ c (Proc.devRef .tc main_arg8) = m ((c : Thread nD τ).loc main_arg8) := by
  exact (W2_of_ne m ρ c main_arg8 (by decide)).trans (arg8_W1 m ρ c)

theorem arg8_W3 : W3 m ρ c (Proc.devRef .tc main_arg8) = m ((c : Thread nD τ).loc main_arg8) := by
  show StableHlo.after hostOps1 (W2 m ρ c) (Proc.devRef .tc main_arg8) = _
  after_results
  all_goals exact arg8_W2 m ρ c

theorem arg8_W4 : W4 m ρ c (Proc.devRef .tc main_arg8) = m ((c : Thread nD τ).loc main_arg8) := by
  exact (W4_of_ne m ρ c main_arg8 (by decide)).trans (arg8_W3 m ρ c)

theorem arg8_W5 : W5 m ρ c (Proc.devRef .tc main_arg8) = m ((c : Thread nD τ).loc main_arg8) := by
  show StableHlo.after hostOps2 (W4 m ρ c) (Proc.devRef .tc main_arg8) = _
  after_results
  all_goals exact arg8_W4 m ρ c

theorem arg8_W6 : W6 m ρ c (Proc.devRef .tc main_arg8) = m ((c : Thread nD τ).loc main_arg8) := by
  exact (W6_of_ne m ρ c main_arg8 (by decide)).trans (arg8_W5 m ρ c)

theorem arg8_W7 : W7 m ρ c (Proc.devRef .tc main_arg8) = m ((c : Thread nD τ).loc main_arg8) := by
  show StableHlo.after hostOps3 (W6 m ρ c) (Proc.devRef .tc main_arg8) = _
  after_results
  all_goals exact arg8_W6 m ρ c

theorem arg9_W1 : W1 m ρ c (Proc.devRef .tc main_arg9) = m ((c : Thread nD τ).loc main_arg9) := by
  show StableHlo.after hostOps0 (W0 m ρ c) (Proc.devRef .tc main_arg9) = _
  after_results
  all_goals rfl

theorem arg9_W2 : W2 m ρ c (Proc.devRef .tc main_arg9) = m ((c : Thread nD τ).loc main_arg9) := by
  exact (W2_of_ne m ρ c main_arg9 (by decide)).trans (arg9_W1 m ρ c)

theorem arg9_W3 : W3 m ρ c (Proc.devRef .tc main_arg9) = m ((c : Thread nD τ).loc main_arg9) := by
  show StableHlo.after hostOps1 (W2 m ρ c) (Proc.devRef .tc main_arg9) = _
  after_results
  all_goals exact arg9_W2 m ρ c

theorem arg9_W4 : W4 m ρ c (Proc.devRef .tc main_arg9) = m ((c : Thread nD τ).loc main_arg9) := by
  exact (W4_of_ne m ρ c main_arg9 (by decide)).trans (arg9_W3 m ρ c)

theorem arg9_W5 : W5 m ρ c (Proc.devRef .tc main_arg9) = m ((c : Thread nD τ).loc main_arg9) := by
  show StableHlo.after hostOps2 (W4 m ρ c) (Proc.devRef .tc main_arg9) = _
  after_results
  all_goals exact arg9_W4 m ρ c

theorem arg9_W6 : W6 m ρ c (Proc.devRef .tc main_arg9) = m ((c : Thread nD τ).loc main_arg9) := by
  exact (W6_of_ne m ρ c main_arg9 (by decide)).trans (arg9_W5 m ρ c)

theorem arg9_W7 : W7 m ρ c (Proc.devRef .tc main_arg9) = m ((c : Thread nD τ).loc main_arg9) := by
  show StableHlo.after hostOps3 (W6 m ρ c) (Proc.devRef .tc main_arg9) = _
  after_results
  all_goals exact arg9_W6 m ρ c

theorem arg10_W1 : W1 m ρ c (Proc.devRef .tc main_arg10) = m ((c : Thread nD τ).loc main_arg10) := by
  show StableHlo.after hostOps0 (W0 m ρ c) (Proc.devRef .tc main_arg10) = _
  after_results
  all_goals rfl

theorem arg10_W2 : W2 m ρ c (Proc.devRef .tc main_arg10) = m ((c : Thread nD τ).loc main_arg10) := by
  exact (W2_of_ne m ρ c main_arg10 (by decide)).trans (arg10_W1 m ρ c)

theorem arg10_W3 : W3 m ρ c (Proc.devRef .tc main_arg10) = m ((c : Thread nD τ).loc main_arg10) := by
  show StableHlo.after hostOps1 (W2 m ρ c) (Proc.devRef .tc main_arg10) = _
  after_results
  all_goals exact arg10_W2 m ρ c

theorem arg10_W4 : W4 m ρ c (Proc.devRef .tc main_arg10) = m ((c : Thread nD τ).loc main_arg10) := by
  exact (W4_of_ne m ρ c main_arg10 (by decide)).trans (arg10_W3 m ρ c)

theorem arg10_W5 : W5 m ρ c (Proc.devRef .tc main_arg10) = m ((c : Thread nD τ).loc main_arg10) := by
  show StableHlo.after hostOps2 (W4 m ρ c) (Proc.devRef .tc main_arg10) = _
  after_results
  all_goals exact arg10_W4 m ρ c

theorem arg10_W6 : W6 m ρ c (Proc.devRef .tc main_arg10) = m ((c : Thread nD τ).loc main_arg10) := by
  exact (W6_of_ne m ρ c main_arg10 (by decide)).trans (arg10_W5 m ρ c)

theorem arg10_W7 : W7 m ρ c (Proc.devRef .tc main_arg10) = m ((c : Thread nD τ).loc main_arg10) := by
  show StableHlo.after hostOps3 (W6 m ρ c) (Proc.devRef .tc main_arg10) = _
  after_results
  all_goals exact arg10_W6 m ρ c

theorem arg11_W1 : W1 m ρ c (Proc.devRef .tc main_arg11) = m ((c : Thread nD τ).loc main_arg11) := by
  show StableHlo.after hostOps0 (W0 m ρ c) (Proc.devRef .tc main_arg11) = _
  after_results
  all_goals rfl

theorem arg11_W2 : W2 m ρ c (Proc.devRef .tc main_arg11) = m ((c : Thread nD τ).loc main_arg11) := by
  exact (W2_of_ne m ρ c main_arg11 (by decide)).trans (arg11_W1 m ρ c)

theorem arg11_W3 : W3 m ρ c (Proc.devRef .tc main_arg11) = m ((c : Thread nD τ).loc main_arg11) := by
  show StableHlo.after hostOps1 (W2 m ρ c) (Proc.devRef .tc main_arg11) = _
  after_results
  all_goals exact arg11_W2 m ρ c

theorem arg11_W4 : W4 m ρ c (Proc.devRef .tc main_arg11) = m ((c : Thread nD τ).loc main_arg11) := by
  exact (W4_of_ne m ρ c main_arg11 (by decide)).trans (arg11_W3 m ρ c)

theorem arg11_W5 : W5 m ρ c (Proc.devRef .tc main_arg11) = m ((c : Thread nD τ).loc main_arg11) := by
  show StableHlo.after hostOps2 (W4 m ρ c) (Proc.devRef .tc main_arg11) = _
  after_results
  all_goals exact arg11_W4 m ρ c

theorem arg11_W6 : W6 m ρ c (Proc.devRef .tc main_arg11) = m ((c : Thread nD τ).loc main_arg11) := by
  exact (W6_of_ne m ρ c main_arg11 (by decide)).trans (arg11_W5 m ρ c)

theorem arg11_W7 : W7 m ρ c (Proc.devRef .tc main_arg11) = m ((c : Thread nD τ).loc main_arg11) := by
  show StableHlo.after hostOps3 (W6 m ρ c) (Proc.devRef .tc main_arg11) = _
  after_results
  all_goals exact arg11_W6 m ρ c

theorem v1_W1 : W1 m ρ c (Proc.devRef .tc main_v1) = Cert.Net.srcFlat (m ((c : Thread nD τ).loc main_arg0)) := by
  show StableHlo.after hostOps0 (W0 m ρ c) (Proc.devRef .tc main_v1) = _
  after_results
  all_goals rfl

theorem v1_W2 : W2 m ρ c (Proc.devRef .tc main_v1) = Cert.Net.srcFlat (m ((c : Thread nD τ).loc main_arg0)) := by
  exact (W2_of_ne m ρ c main_v1 (by decide)).trans (v1_W1 m ρ c)

theorem v1_W3 : W3 m ρ c (Proc.devRef .tc main_v1) = Cert.Net.srcFlat (m ((c : Thread nD τ).loc main_arg0)) := by
  show StableHlo.after hostOps1 (W2 m ρ c) (Proc.devRef .tc main_v1) = _
  after_results
  all_goals exact v1_W2 m ρ c

theorem v1_W4 : W4 m ρ c (Proc.devRef .tc main_v1) = Cert.Net.srcFlat (m ((c : Thread nD τ).loc main_arg0)) := by
  exact (W4_of_ne m ρ c main_v1 (by decide)).trans (v1_W3 m ρ c)

theorem v3_W1 : W1 m ρ c (Proc.devRef .tc main_v3) = Cert.Net.dstFlat (m ((c : Thread nD τ).loc main_arg0)) := by
  show StableHlo.after hostOps0 (W0 m ρ c) (Proc.devRef .tc main_v3) = _
  after_results
  all_goals rfl

theorem v3_W2 : W2 m ρ c (Proc.devRef .tc main_v3) = Cert.Net.dstFlat (m ((c : Thread nD τ).loc main_arg0)) := by
  exact (W2_of_ne m ρ c main_v3 (by decide)).trans (v3_W1 m ρ c)

theorem v3_W3 : W3 m ρ c (Proc.devRef .tc main_v3) = Cert.Net.dstFlat (m ((c : Thread nD τ).loc main_arg0)) := by
  show StableHlo.after hostOps1 (W2 m ρ c) (Proc.devRef .tc main_v3) = _
  after_results
  all_goals exact v3_W2 m ρ c

theorem v3_W4 : W4 m ρ c (Proc.devRef .tc main_v3) = Cert.Net.dstFlat (m ((c : Thread nD τ).loc main_arg0)) := by
  exact (W4_of_ne m ρ c main_v3 (by decide)).trans (v3_W3 m ρ c)

theorem v13_W1 : W1 m ρ c (Proc.devRef .tc main_v13) = Cert.KernelIdeal.Arrange.invCol (Cert.Net.deg (m ((c : Thread nD τ).loc main_arg0))) := by
  show StableHlo.after hostOps0 (W0 m ρ c) (Proc.devRef .tc main_v13) = _
  after_results
  all_goals rfl

theorem v13_W2 : W2 m ρ c (Proc.devRef .tc main_v13) = Cert.KernelIdeal.Arrange.invCol (Cert.Net.deg (m ((c : Thread nD τ).loc main_arg0))) := by
  refine (W2_arr m ρ c 1).trans ?_
  rw [(dat0 (V1 m ρ) c).arrAt_in 1 rfl cfg0.N, A_eq0]
  exact v13_W1 m ρ c

theorem v13_W3 : W3 m ρ c (Proc.devRef .tc main_v13) = Cert.KernelIdeal.Arrange.invCol (Cert.Net.deg (m ((c : Thread nD τ).loc main_arg0))) := by
  show StableHlo.after hostOps1 (W2 m ρ c) (Proc.devRef .tc main_v13) = _
  after_results
  all_goals exact v13_W2 m ρ c

theorem v13_W4 : W4 m ρ c (Proc.devRef .tc main_v13) = Cert.KernelIdeal.Arrange.invCol (Cert.Net.deg (m ((c : Thread nD τ).loc main_arg0))) := by
  refine (W4_arr m ρ c 1).trans ?_
  rw [(dat1 (V3 m ρ) c).arrAt_in 1 rfl cfg1.N, A_eq1]
  exact v13_W3 m ρ c

theorem v13_W5 : W5 m ρ c (Proc.devRef .tc main_v13) = Cert.KernelIdeal.Arrange.invCol (Cert.Net.deg (m ((c : Thread nD τ).loc main_arg0))) := by
  show StableHlo.after hostOps2 (W4 m ρ c) (Proc.devRef .tc main_v13) = _
  after_results
  all_goals exact v13_W4 m ρ c

/-- Every floored degree is at least one. -/
theorem deg_ge_one (e : Cert.Net.IntArr Cert.ReferenceIdeal.S2x4000000) (r : Cert.ReferenceIdeal.S150000.Idx) : (1 : EReal) ≤ Cert.Net.deg e r := by
  unfold Cert.Net.deg
  rw [Idealize.ShloMosaic.ValueIdx.maximumf_apply]
  refine le_trans ?_ (le_max_right _ _)
  show (1 : EReal) ≤ Ideal.ofBits .f32 0x3F800000#32
  rw [Ideal.ofBits_one_f32]

theorem v4_W1 : W1 m ρ c (Proc.devRef .tc main_v4) = Cert.Net.nodes0 (m ((c : Thread nD τ).loc main_arg3)) (m ((c : Thread nD τ).loc main_arg4)) := by
  show StableHlo.after hostOps0 (W0 m ρ c) (Proc.devRef .tc main_v4) = _
  after_results
  all_goals rfl

theorem v23_W1 : W1 m ρ c (Proc.devRef .tc main_v23) = Cert.Net.agg (Cert.Net.nodes0 (m ((c : Thread nD τ).loc main_arg3)) (m ((c : Thread nD τ).loc main_arg4))) (m ((c : Thread nD τ).loc main_arg0)) := by
  show StableHlo.after hostOps0 (W0 m ρ c) (Proc.devRef .tc main_v23) = _
  after_results_simp
  all_goals rfl

theorem v26_W1 : W1 m ρ c (Proc.devRef .tc main_v26) = Cert.KernelIdeal.Arrange.biasRow (Cert.Net.bias0 (m ((c : Thread nD τ).loc main_arg6))) := by
  show StableHlo.after hostOps0 (W0 m ρ c) (Proc.devRef .tc main_v26) = _
  after_results
  all_goals rfl

theorem v31_W1 : W1 m ρ c (Proc.devRef .tc main_v31) = Cert.KernelIdeal.Arrange.stacked (Cert.Net.mat0 (m ((c : Thread nD τ).loc main_arg5))) (Cert.Net.mat0 (m ((c : Thread nD τ).loc main_arg7))) := by
  show StableHlo.after hostOps0 (W0 m ρ c) (Proc.devRef .tc main_v31) = _
  after_results_simp
  all_goals rfl

theorem x1_W2 : W2 m ρ c (Proc.devRef .tc main_v32) = (Cert.Net.feat1 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W2_arr m ρ c 5).trans ?_
  rw [Cert.KernelIdeal.Layer0.final (V1 m ρ) c]
  show Cert.KernelIdeal.BodyValue.layerOut (W1 m ρ c (Proc.devRef .tc main_v23)) (W1 m ρ c (Proc.devRef .tc main_v13)) (W1 m ρ c (Proc.devRef .tc main_v4)) (W1 m ρ c (Proc.devRef .tc main_v31)) (W1 m ρ c (Proc.devRef .tc main_v26)) = _
  rw [v23_W1 m ρ c, v13_W1 m ρ c, v4_W1 m ρ c, v31_W1 m ρ c, v26_W1 m ρ c]
  exact Cert.KernelIdeal.Arrange.layer_eq _ _ _ _ _ _ (deg_ge_one _)

theorem v43_W3 : W3 m ρ c (Proc.devRef .tc main_v43) = Cert.Net.agg (Cert.Net.feat1 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg0)) := by
  show StableHlo.after hostOps1 (W2 m ρ c) (Proc.devRef .tc main_v43) = _
  after_results_simp
  rw [v1_W2 m ρ c, v3_W2 m ρ c, x1_W2 m ρ c]
  rfl

theorem v46_W3 : W3 m ρ c (Proc.devRef .tc main_v46) = Cert.KernelIdeal.Arrange.biasRow (Cert.Net.bias1 (m ((c : Thread nD τ).loc main_arg6))) := by
  show StableHlo.after hostOps1 (W2 m ρ c) (Proc.devRef .tc main_v46) = _
  after_results
  rw [arg6_W2 m ρ c]
  rfl

set_option maxHeartbeats 8000000 in
theorem v51_W3 : W3 m ρ c (Proc.devRef .tc main_v51) = Cert.KernelIdeal.Arrange.stacked (Cert.Net.mat1 (m ((c : Thread nD τ).loc main_arg5))) (Cert.Net.mat1 (m ((c : Thread nD τ).loc main_arg7))) := by
  show StableHlo.after hostOps1 (W2 m ρ c) (Proc.devRef .tc main_v51) = _
  after_results_simp
  peel_results
  rw [arg5_W2 m ρ c, arg7_W2 m ρ c]
  rfl

theorem x1_W3 : W3 m ρ c (Proc.devRef .tc main_v32) = (Cert.Net.feat1 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps1 (W2 m ρ c) (Proc.devRef .tc main_v32) = _
  after_results
  all_goals exact x1_W2 m ρ c

theorem x2_W4 : W4 m ρ c (Proc.devRef .tc main_v52) = (Cert.Net.feat2 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W4_arr m ρ c 5).trans ?_
  rw [Cert.KernelIdeal.Layer1.final (V3 m ρ) c]
  show Cert.KernelIdeal.BodyValue.layerOut (W3 m ρ c (Proc.devRef .tc main_v43)) (W3 m ρ c (Proc.devRef .tc main_v13)) (W3 m ρ c (Proc.devRef .tc main_v32)) (W3 m ρ c (Proc.devRef .tc main_v51)) (W3 m ρ c (Proc.devRef .tc main_v46)) = _
  rw [v43_W3 m ρ c, v13_W3 m ρ c, x1_W3 m ρ c, v51_W3 m ρ c, v46_W3 m ρ c]
  exact Cert.KernelIdeal.Arrange.layer_eq _ _ _ _ _ _ (deg_ge_one _)

theorem v63_W5 : W5 m ρ c (Proc.devRef .tc main_v63) = Cert.Net.agg (Cert.Net.feat2 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg0)) := by
  show StableHlo.after hostOps2 (W4 m ρ c) (Proc.devRef .tc main_v63) = _
  after_results_simp
  rw [v1_W4 m ρ c, v3_W4 m ρ c, x2_W4 m ρ c]
  rfl

theorem v66_W5 : W5 m ρ c (Proc.devRef .tc main_v66) = Cert.KernelIdeal.Arrange.biasRow (Cert.Net.bias2 (m ((c : Thread nD τ).loc main_arg6))) := by
  show StableHlo.after hostOps2 (W4 m ρ c) (Proc.devRef .tc main_v66) = _
  after_results
  rw [arg6_W4 m ρ c]
  rfl

set_option maxHeartbeats 8000000 in
theorem v71_W5 : W5 m ρ c (Proc.devRef .tc main_v71) = Cert.KernelIdeal.Arrange.stacked (Cert.Net.mat2 (m ((c : Thread nD τ).loc main_arg5))) (Cert.Net.mat2 (m ((c : Thread nD τ).loc main_arg7))) := by
  show StableHlo.after hostOps2 (W4 m ρ c) (Proc.devRef .tc main_v71) = _
  after_results_simp
  peel_results
  rw [arg5_W4 m ρ c, arg7_W4 m ρ c]
  rfl

theorem x2_W5 : W5 m ρ c (Proc.devRef .tc main_v52) = (Cert.Net.feat2 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2 (W4 m ρ c) (Proc.devRef .tc main_v52) = _
  after_results
  all_goals exact x2_W4 m ρ c

theorem x3_W6 : W6 m ρ c (Proc.devRef .tc main_v72) = (Cert.Net.feat3 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W6_arr m ρ c 5).trans ?_
  rw [Cert.KernelIdeal.Layer2.final (V5 m ρ) c]
  show Cert.KernelIdeal.BodyValue.layerOut (W5 m ρ c (Proc.devRef .tc main_v63)) (W5 m ρ c (Proc.devRef .tc main_v13)) (W5 m ρ c (Proc.devRef .tc main_v52)) (W5 m ρ c (Proc.devRef .tc main_v71)) (W5 m ρ c (Proc.devRef .tc main_v66)) = _
  rw [v63_W5 m ρ c, v13_W5 m ρ c, x2_W5 m ρ c, v71_W5 m ρ c, v66_W5 m ρ c]
  exact Cert.KernelIdeal.Arrange.layer_eq _ _ _ _ _ _ (deg_ge_one _)

theorem v79_W7 : W7 m ρ c (Proc.devRef .tc main_v79) = Cert.Net.users (Cert.Net.feat3 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) := by
  show StableHlo.after hostOps3 (W6 m ρ c) (Proc.devRef .tc main_v79) = _
  after_results_simp
  rw [arg1_W6 m ρ c, x3_W6 m ρ c]
  rfl

theorem v88_W7 : W7 m ρ c (Proc.devRef .tc main_v88) = Cert.Net.items (Cert.Net.feat3 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) := by
  show StableHlo.after hostOps3 (W6 m ρ c) (Proc.devRef .tc main_v88) = _
  after_results_simp
  rw [arg2_W6 m ρ c, x3_W6 m ρ c]
  rfl

theorem v89_W7 : W7 m ρ c (Proc.devRef .tc main_v89) = Cert.KernelIdeal.Arrange.upperHalf (m ((c : Thread nD τ).loc main_arg8)) := by
  show StableHlo.after hostOps3 (W6 m ρ c) (Proc.devRef .tc main_v89) = _
  after_results
  rw [arg8_W6 m ρ c]
  rfl

theorem v90_W7 : W7 m ρ c (Proc.devRef .tc main_v90) = Cert.KernelIdeal.Arrange.lowerHalf (m ((c : Thread nD τ).loc main_arg8)) := by
  show StableHlo.after hostOps3 (W6 m ρ c) (Proc.devRef .tc main_v90) = _
  after_results
  rw [arg8_W6 m ρ c]
  rfl

theorem v91_W7 : W7 m ρ c (Proc.devRef .tc main_v91) = Cert.KernelIdeal.Arrange.row32 (m ((c : Thread nD τ).loc main_arg9)) := by
  show StableHlo.after hostOps3 (W6 m ρ c) (Proc.devRef .tc main_v91) = _
  after_results
  rw [arg9_W6 m ρ c]
  rfl

theorem v92_W7 : W7 m ρ c (Proc.devRef .tc main_v92) = Cert.KernelIdeal.Arrange.row1 (m ((c : Thread nD τ).loc main_arg11)) := by
  show StableHlo.after hostOps3 (W6 m ρ c) (Proc.devRef .tc main_v92) = _
  after_results
  rw [arg11_W6 m ρ c]
  rfl

/-- The result buffer at the return holds the network's ratings of the argument arrays. -/
theorem result : W9 m ρ c (Proc.devRef .tc main_v94) = Cert.Net.rating (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h8 : W8 m ρ c (Proc.devRef .tc main_v93)
      = Cert.KernelIdeal.BodyValue.headOut (Cert.Net.users (Cert.Net.feat3 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (Cert.Net.items (Cert.Net.feat3 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)))
          (Cert.KernelIdeal.Arrange.upperHalf (m ((c : Thread nD τ).loc main_arg8))) (Cert.KernelIdeal.Arrange.lowerHalf (m ((c : Thread nD τ).loc main_arg8))) (Cert.KernelIdeal.Arrange.row32 (m ((c : Thread nD τ).loc main_arg9))) (m ((c : Thread nD τ).loc main_arg10)) (Cert.KernelIdeal.Arrange.row1 (m ((c : Thread nD τ).loc main_arg11))) := by
    refine (W8_arr m ρ c 7).trans ?_
    rw [Cert.KernelIdeal.Score.final (V7 m ρ) c]
    show Cert.KernelIdeal.BodyValue.headOut (W7 m ρ c (Proc.devRef .tc main_v79)) (W7 m ρ c (Proc.devRef .tc main_v88)) (W7 m ρ c (Proc.devRef .tc main_v89)) (W7 m ρ c (Proc.devRef .tc main_v90)) (W7 m ρ c (Proc.devRef .tc main_v91)) (W7 m ρ c (Proc.devRef .tc main_arg10)) (W7 m ρ c (Proc.devRef .tc main_v92)) = _
    rw [v79_W7 m ρ c, v88_W7 m ρ c, v89_W7 m ρ c, v90_W7 m ρ c, v91_W7 m ρ c, arg10_W7 m ρ c, v92_W7 m ρ c]
  show StableHlo.after hostOps4 (W8 m ρ c) (Proc.devRef .tc main_v94) = _
  after_results
  rw [h8]
  exact Cert.KernelIdeal.Arrange.head_eq _ _ _ _ _ _

end Cert.KernelIdeal.Chain

end
-- ==== Proof.RefValue.lean ====
/-
  The reference program's run, read back as the network.

  The program is a straight line of whole-array operations.  They are listed here in program order, cut into twelve
  consecutive segments: the edge list's two rows; each of the three graph layers up to its sum, and then its floor at
  zero; the head's two gathers; the head's hidden layer up to its sum, and then its floor; the score with the two clamp
  bounds; and the clamp.  For each segment the contents of the buffers it produces are computed as the segment's
  operations applied to the contents of the buffers it reads, from arbitrary starting contents, and every buffer a
  segment does not write keeps its contents.  Read at an index, a layer's sum floored at zero is `Spec.layer` and the
  clamped score is `Spec.head`: a product is the sum over the contracted axis of the products of entries, a spread
  vector reads the vector's entry, the joined blocks' 128-sum splits into the two blocks' 64-sums.  Chaining the
  segments gives the result buffer as `Net.rating` of the twelve arguments, and the arguments unchanged.
-/
import proofs.«151319_j35064113004962_2_alg».proof.Proof.Gen.ReferenceIdeal
import proofs.«151319_j35064113004962_2_alg».proof.Proof.Net
import proofs.«151319_j35064113004962_2_alg».proof.Proof.LibSplitSum
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-- The edge list's two rows, each sliced out and flattened. -/
abbrev opsP : List (HloOp τ sig (Elt F)) :=
  [ unary main_arg0 main_v0 ((extractStridedSlice S1x4000000 ![0, 0] · slices_S2x4000000_S1x4000000_0_0) : (⟨S2x4000000, .i32⟩ : BufTy).Contents (Elt F) → (⟨S1x4000000, .i32⟩ : BufTy).Contents (Elt F)),
    reshape main_v0 main_v1 rfl shapeCasts_S1x4000000_S4000000,
    unary main_arg0 main_v2 ((extractStridedSlice S1x4000000 ![1, 0] · slices_S2x4000000_S1x4000000_1_0) : (⟨S2x4000000, .i32⟩ : BufTy).Contents (Elt F) → (⟨S1x4000000, .i32⟩ : BufTy).Contents (Elt F)),
    reshape main_v2 main_v3 rfl shapeCasts_S1x4000000_S4000000 ]

/-- The first graph layer before its floor at zero, in program order: the starting node features, the layer's slices of the weights, the gather and the two scatters, the division, the two products and the bias. -/
abbrev opsA : List (HloOp τ sig (Elt F)) :=
  [ binary main_arg3 main_arg4 main_v4 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg5 main_v5 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v5 main_v6 rfl shapeCasts_S1x64x64_S64x64,
    unary main_arg6 main_v7 ((extractStridedSlice S1x64 ![0, 0] · slices_S3x64_S1x64_0_0) : (⟨S3x64, .f32⟩ : BufTy).Contents (Elt F) → (⟨S1x64, .f32⟩ : BufTy).Contents (Elt F)),
    reshape main_v7 main_v8 rfl shapeCasts_S1x64_S64,
    unary main_arg7 main_v9 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v9 main_v10 rfl shapeCasts_S1x64x64_S64x64,
    nullary main_c (constantI S_ 32 0#32),
    unary main_c main_v11 (broadcastInDim S4000000 ![] bcast_S_S4000000 : (⟨S_, .i32⟩ : BufTy).Contents (Elt F) → (⟨S4000000, .i32⟩ : BufTy).Contents (Elt F)),
    binary main_v1 main_v11 main_v12 (cmpi .slt : (⟨S4000000, .i32⟩ : BufTy).Contents (Elt F) → (⟨S4000000, .i32⟩ : BufTy).Contents (Elt F) → (⟨S4000000, .i1⟩ : BufTy).Contents (Elt F)),
    nullary main_c_0 (constantI S_ 32 150000#32),
    unary main_c_0 main_v13 (broadcastInDim S4000000 ![] bcast_S_S4000000 : (⟨S_, .i32⟩ : BufTy).Contents (Elt F) → (⟨S4000000, .i32⟩ : BufTy).Contents (Elt F)),
    binary main_v1 main_v13 main_v14 (addi : (⟨S4000000, .i32⟩ : BufTy).Contents (Elt F) → (⟨S4000000, .i32⟩ : BufTy).Contents (Elt F) → (⟨S4000000, .i32⟩ : BufTy).Contents (Elt F)),
    ternary main_v12 main_v14 main_v1 main_v15 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v15 main_v16 (broadcastInDim S4000000x1 ![0] bcast_S4000000_S4000000x1_0 : (⟨S4000000, .i32⟩ : BufTy).Contents (Elt F) → (⟨S4000000x1, .i32⟩ : BufTy).Contents (Elt F)),
    binary main_v4 main_v16 main_v17 ((fun x i => Host.gather gather_S150000x64_S4000000x1_S4000000x64_1_0_n_n_0_1_164 x i) : (⟨S150000x64, .f32⟩ : BufTy).Contents (Elt F) → (⟨S4000000x1, .i32⟩ : BufTy).Contents (Elt F) → (⟨S4000000x64, .f32⟩ : BufTy).Contents (Elt F)),
    nullary main_cst (constant S_ .f32 0x00000000#32),
    unary main_cst main_v18 (broadcastInDim S150000x64 ![] bcast_S_S150000x64 : (⟨S_, .f32⟩ : BufTy).Contents (Elt F) → (⟨S150000x64, .f32⟩ : BufTy).Contents (Elt F)),
    unary main_v3 main_v19 (broadcastInDim S4000000x1 ![0] bcast_S4000000_S4000000x1_0 : (⟨S4000000, .i32⟩ : BufTy).Contents (Elt F) → (⟨S4000000x1, .i32⟩ : BufTy).Contents (Elt F)),
    ternary main_v18 main_v19 main_v17 main_v20 ((fun x i u => Host.scatterAdd scatter_S150000x64_S4000000x1_S4000000x64_1_0_0_1 x i u) : (⟨S150000x64, .f32⟩ : BufTy).Contents (Elt F) → (⟨S4000000x1, .i32⟩ : BufTy).Contents (Elt F) → (⟨S4000000x64, .f32⟩ : BufTy).Contents (Elt F) → (⟨S150000x64, .f32⟩ : BufTy).Contents (Elt F)),
    nullary main_cst_1 (constant S_ .f32 0x3F800000#32),
    unary main_cst_1 main_v21 (broadcastInDim S4000000 ![] bcast_S_S4000000 : (⟨S_, .f32⟩ : BufTy).Contents (Elt F) → (⟨S4000000, .f32⟩ : BufTy).Contents (Elt F)),
    nullary main_cst_2 (constant S_ .f32 0x00000000#32),
    unary main_cst_2 main_v22 (broadcastInDim S150000 ![] bcast_S_S150000 : (⟨S_, .f32⟩ : BufTy).Contents (Elt F) → (⟨S150000, .f32⟩ : BufTy).Contents (Elt F)),
    unary main_v3 main_v23 (broadcastInDim S4000000x1 ![0] bcast_S4000000_S4000000x1_0 : (⟨S4000000, .i32⟩ : BufTy).Contents (Elt F) → (⟨S4000000x1, .i32⟩ : BufTy).Contents (Elt F)),
    ternary main_v22 main_v23 main_v21 main_v24 ((fun x i u => Host.scatterAdd scatter_S150000_S4000000x1_S4000000_n_0_0_1 x i u) : (⟨S150000, .f32⟩ : BufTy).Contents (Elt F) → (⟨S4000000x1, .i32⟩ : BufTy).Contents (Elt F) → (⟨S4000000, .f32⟩ : BufTy).Contents (Elt F) → (⟨S150000, .f32⟩ : BufTy).Contents (Elt F)),
    nullary main_cst_3 (constant S_ .f32 0x3F800000#32),
    unary main_cst_3 main_v25 (broadcastInDim S150000 ![] bcast_S_S150000 : (⟨S_, .f32⟩ : BufTy).Contents (Elt F) → (⟨S150000, .f32⟩ : BufTy).Contents (Elt F)),
    binary main_v24 main_v25 main_v26 (maximumf : (⟨S150000, .f32⟩ : BufTy).Contents (Elt F) → (⟨S150000, .f32⟩ : BufTy).Contents (Elt F) → (⟨S150000, .f32⟩ : BufTy).Contents (Elt F)),
    unary main_v26 main_v27 (broadcastInDim S150000x1 ![0] bcast_S150000_S150000x1_0 : (⟨S150000, .f32⟩ : BufTy).Contents (Elt F) → (⟨S150000x1, .f32⟩ : BufTy).Contents (Elt F)),
    unary main_v27 main_v28 (broadcastInDim S150000x64 ![0, 1] bcast_S150000x1_S150000x64_0_1 : (⟨S150000x1, .f32⟩ : BufTy).Contents (Elt F) → (⟨S150000x64, .f32⟩ : BufTy).Contents (Elt F)),
    binary main_v20 main_v28 main_v29 (Host.divf : (⟨S150000x64, .f32⟩ : BufTy).Contents (Elt F) → (⟨S150000x64, .f32⟩ : BufTy).Contents (Elt F) → (⟨S150000x64, .f32⟩ : BufTy).Contents (Elt F)),
    binary main_v29 main_v6 main_v30 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_v8 main_v31 (broadcastInDim S1x64 ![1] bcast_S64_S1x64_1 : (⟨S64, .f32⟩ : BufTy).Contents (Elt F) → (⟨S1x64, .f32⟩ : BufTy).Contents (Elt F)),
    unary main_v31 main_v32 (broadcastInDim S150000x64 ![0, 1] bcast_S1x64_S150000x64_0_1 : (⟨S1x64, .f32⟩ : BufTy).Contents (Elt F) → (⟨S150000x64, .f32⟩ : BufTy).Contents (Elt F)),
    binary main_v30 main_v32 main_v33 (addf : (⟨S150000x64, .f32⟩ : BufTy).Contents (Elt F) → (⟨S150000x64, .f32⟩ : BufTy).Contents (Elt F) → (⟨S150000x64, .f32⟩ : BufTy).Contents (Elt F)),
    binary main_v4 main_v10 main_v34 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    binary main_v33 main_v34 main_v35 (addf : (⟨S150000x64, .f32⟩ : BufTy).Contents (Elt F) → (⟨S150000x64, .f32⟩ : BufTy).Contents (Elt F) → (⟨S150000x64, .f32⟩ : BufTy).Contents (Elt F)) ]

/-- The first layer's floor at zero. -/
abbrev opsRa : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S150000x64, .f32⟩) main_call0_v0) (broadcastInDim S150000x64 ![] bcast_S_S150000x64),
    TRef.binary (TRef.of (T := ⟨S150000x64, .f32⟩) main_v35) (TRef.of (T := ⟨S150000x64, .f32⟩) main_call0_v0) (TRef.of (T := ⟨S150000x64, .f32⟩) main_v36) maximumf ]

/-- The second graph layer before its floor at zero, in program order. -/
abbrev opsB : List (HloOp τ sig (Elt F)) :=
  [ unary main_arg5 main_v37 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v37 main_v38 rfl shapeCasts_S1x64x64_S64x64,
    unary main_arg6 main_v39 ((extractStridedSlice S1x64 ![1, 0] · slices_S3x64_S1x64_1_0) : (⟨S3x64, .f32⟩ : BufTy).Contents (Elt F) → (⟨S1x64, .f32⟩ : BufTy).Contents (Elt F)),
    reshape main_v39 main_v40 rfl shapeCasts_S1x64_S64,
    unary main_arg7 main_v41 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v41 main_v42 rfl shapeCasts_S1x64x64_S64x64,
    nullary main_c_4 (constantI S_ 32 0#32),
    unary main_c_4 main_v43 (broadcastInDim S4000000 ![] bcast_S_S4000000 : (⟨S_, .i32⟩ : BufTy).Contents (Elt F) → (⟨S4000000, .i32⟩ : BufTy).Contents (Elt F)),
    binary main_v1 main_v43 main_v44 (cmpi .slt : (⟨S4000000, .i32⟩ : BufTy).Contents (Elt F) → (⟨S4000000, .i32⟩ : BufTy).Contents (Elt F) → (⟨S4000000, .i1⟩ : BufTy).Contents (Elt F)),
    nullary main_c_5 (constantI S_ 32 150000#32),
    unary main_c_5 main_v45 (broadcastInDim S4000000 ![] bcast_S_S4000000 : (⟨S_, .i32⟩ : BufTy).Contents (Elt F) → (⟨S4000000, .i32⟩ : BufTy).Contents (Elt F)),
    binary main_v1 main_v45 main_v46 (addi : (⟨S4000000, .i32⟩ : BufTy).Contents (Elt F) → (⟨S4000000, .i32⟩ : BufTy).Contents (Elt F) → (⟨S4000000, .i32⟩ : BufTy).Contents (Elt F)),
    ternary main_v44 main_v46 main_v1 main_v47 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v47 main_v48 (broadcastInDim S4000000x1 ![0] bcast_S4000000_S4000000x1_0 : (⟨S4000000, .i32⟩ : BufTy).Contents (Elt F) → (⟨S4000000x1, .i32⟩ : BufTy).Contents (Elt F)),
    binary main_v36 main_v48 main_v49 ((fun x i => Host.gather gather_S150000x64_S4000000x1_S4000000x64_1_0_n_n_0_1_164 x i) : (⟨S150000x64, .f32⟩ : BufTy).Contents (Elt F) → (⟨S4000000x1, .i32⟩ : BufTy).Contents (Elt F) → (⟨S4000000x64, .f32⟩ : BufTy).Contents (Elt F)),
    nullary main_cst_6 (constant S_ .f32 0x00000000#32),
    unary main_cst_6 main_v50 (broadcastInDim S150000x64 ![] bcast_S_S150000x64 : (⟨S_, .f32⟩ : BufTy).Contents (Elt F) → (⟨S150000x64, .f32⟩ : BufTy).Contents (Elt F)),
    unary main_v3 main_v51 (broadcastInDim S4000000x1 ![0] bcast_S4000000_S4000000x1_0 : (⟨S4000000, .i32⟩ : BufTy).Contents (Elt F) → (⟨S4000000x1, .i32⟩ : BufTy).Contents (Elt F)),
    ternary main_v50 main_v51 main_v49 main_v52 ((fun x i u => Host.scatterAdd scatter_S150000x64_S4000000x1_S4000000x64_1_0_0_1 x i u) : (⟨S150000x64, .f32⟩ : BufTy).Contents (Elt F) → (⟨S4000000x1, .i32⟩ : BufTy).Contents (Elt F) → (⟨S4000000x64, .f32⟩ : BufTy).Contents (Elt F) → (⟨S150000x64, .f32⟩ : BufTy).Contents (Elt F)),
    nullary main_cst_7 (constant S_ .f32 0x3F800000#32),
    unary main_cst_7 main_v53 (broadcastInDim S4000000 ![] bcast_S_S4000000 : (⟨S_, .f32⟩ : BufTy).Contents (Elt F) → (⟨S4000000, .f32⟩ : BufTy).Contents (Elt F)),
    nullary main_cst_8 (constant S_ .f32 0x00000000#32),
    unary main_cst_8 main_v54 (broadcastInDim S150000 ![] bcast_S_S150000 : (⟨S_, .f32⟩ : BufTy).Contents (Elt F) → (⟨S150000, .f32⟩ : BufTy).Contents (Elt F)),
    unary main_v3 main_v55 (broadcastInDim S4000000x1 ![0] bcast_S4000000_S4000000x1_0 : (⟨S4000000, .i32⟩ : BufTy).Contents (Elt F) → (⟨S4000000x1, .i32⟩ : BufTy).Contents (Elt F)),
    ternary main_v54 main_v55 main_v53 main_v56 ((fun x i u => Host.scatterAdd scatter_S150000_S4000000x1_S4000000_n_0_0_1 x i u) : (⟨S150000, .f32⟩ : BufTy).Contents (Elt F) → (⟨S4000000x1, .i32⟩ : BufTy).Contents (Elt F) → (⟨S4000000, .f32⟩ : BufTy).Contents (Elt F) → (⟨S150000, .f32⟩ : BufTy).Contents (Elt F)),
    nullary main_cst_9 (constant S_ .f32 0x3F800000#32),
    unary main_cst_9 main_v57 (broadcastInDim S150000 ![] bcast_S_S150000 : (⟨S_, .f32⟩ : BufTy).Contents (Elt F) → (⟨S150000, .f32⟩ : BufTy).Contents (Elt F)),
    binary main_v56 main_v57 main_v58 (maximumf : (⟨S150000, .f32⟩ : BufTy).Contents (Elt F) → (⟨S150000, .f32⟩ : BufTy).Contents (Elt F) → (⟨S150000, .f32⟩ : BufTy).Contents (Elt F)),
    unary main_v58 main_v59 (broadcastInDim S150000x1 ![0] bcast_S150000_S150000x1_0 : (⟨S150000, .f32⟩ : BufTy).Contents (Elt F) → (⟨S150000x1, .f32⟩ : BufTy).Contents (Elt F)),
    unary main_v59 main_v60 (broadcastInDim S150000x64 ![0, 1] bcast_S150000x1_S150000x64_0_1 : (⟨S150000x1, .f32⟩ : BufTy).Contents (Elt F) → (⟨S150000x64, .f32⟩ : BufTy).Contents (Elt F)),
    binary main_v52 main_v60 main_v61 (Host.divf : (⟨S150000x64, .f32⟩ : BufTy).Contents (Elt F) → (⟨S150000x64, .f32⟩ : BufTy).Contents (Elt F) → (⟨S150000x64, .f32⟩ : BufTy).Contents (Elt F)),
    binary main_v61 main_v38 main_v62 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_v40 main_v63 (broadcastInDim S1x64 ![1] bcast_S64_S1x64_1 : (⟨S64, .f32⟩ : BufTy).Contents (Elt F) → (⟨S1x64, .f32⟩ : BufTy).Contents (Elt F)),
    unary main_v63 main_v64 (broadcastInDim S150000x64 ![0, 1] bcast_S1x64_S150000x64_0_1 : (⟨S1x64, .f32⟩ : BufTy).Contents (Elt F) → (⟨S150000x64, .f32⟩ : BufTy).Contents (Elt F)),
    binary main_v62 main_v64 main_v65 (addf : (⟨S150000x64, .f32⟩ : BufTy).Contents (Elt F) → (⟨S150000x64, .f32⟩ : BufTy).Contents (Elt F) → (⟨S150000x64, .f32⟩ : BufTy).Contents (Elt F)),
    binary main_v36 main_v42 main_v66 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    binary main_v65 main_v66 main_v67 (addf : (⟨S150000x64, .f32⟩ : BufTy).Contents (Elt F) → (⟨S150000x64, .f32⟩ : BufTy).Contents (Elt F) → (⟨S150000x64, .f32⟩ : BufTy).Contents (Elt F)) ]

/-- The second layer's floor at zero. -/
abbrev opsRb : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S150000x64, .f32⟩) main_call1_v0) (broadcastInDim S150000x64 ![] bcast_S_S150000x64),
    TRef.binary (TRef.of (T := ⟨S150000x64, .f32⟩) main_v67) (TRef.of (T := ⟨S150000x64, .f32⟩) main_call1_v0) (TRef.of (T := ⟨S150000x64, .f32⟩) main_v68) maximumf ]

/-- The third graph layer before its floor at zero, in program order. -/
abbrev opsC : List (HloOp τ sig (Elt F)) :=
  [ unary main_arg5 main_v69 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v69 main_v70 rfl shapeCasts_S1x64x64_S64x64,
    unary main_arg6 main_v71 ((extractStridedSlice S1x64 ![2, 0] · slices_S3x64_S1x64_2_0) : (⟨S3x64, .f32⟩ : BufTy).Contents (Elt F) → (⟨S1x64, .f32⟩ : BufTy).Contents (Elt F)),
    reshape main_v71 main_v72 rfl shapeCasts_S1x64_S64,
    unary main_arg7 main_v73 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v73 main_v74 rfl shapeCasts_S1x64x64_S64x64,
    nullary main_c_10 (constantI S_ 32 0#32),
    unary main_c_10 main_v75 (broadcastInDim S4000000 ![] bcast_S_S4000000 : (⟨S_, .i32⟩ : BufTy).Contents (Elt F) → (⟨S4000000, .i32⟩ : BufTy).Contents (Elt F)),
    binary main_v1 main_v75 main_v76 (cmpi .slt : (⟨S4000000, .i32⟩ : BufTy).Contents (Elt F) → (⟨S4000000, .i32⟩ : BufTy).Contents (Elt F) → (⟨S4000000, .i1⟩ : BufTy).Contents (Elt F)),
    nullary main_c_11 (constantI S_ 32 150000#32),
    unary main_c_11 main_v77 (broadcastInDim S4000000 ![] bcast_S_S4000000 : (⟨S_, .i32⟩ : BufTy).Contents (Elt F) → (⟨S4000000, .i32⟩ : BufTy).Contents (Elt F)),
    binary main_v1 main_v77 main_v78 (addi : (⟨S4000000, .i32⟩ : BufTy).Contents (Elt F) → (⟨S4000000, .i32⟩ : BufTy).Contents (Elt F) → (⟨S4000000, .i32⟩ : BufTy).Contents (Elt F)),
    ternary main_v76 main_v78 main_v1 main_v79 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v79 main_v80 (broadcastInDim S4000000x1 ![0] bcast_S4000000_S4000000x1_0 : (⟨S4000000, .i32⟩ : BufTy).Contents (Elt F) → (⟨S4000000x1, .i32⟩ : BufTy).Contents (Elt F)),
    binary main_v68 main_v80 main_v81 ((fun x i => Host.gather gather_S150000x64_S4000000x1_S4000000x64_1_0_n_n_0_1_164 x i) : (⟨S150000x64, .f32⟩ : BufTy).Contents (Elt F) → (⟨S4000000x1, .i32⟩ : BufTy).Contents (Elt F) → (⟨S4000000x64, .f32⟩ : BufTy).Contents (Elt F)),
    nullary main_cst_12 (constant S_ .f32 0x00000000#32),
    unary main_cst_12 main_v82 (broadcastInDim S150000x64 ![] bcast_S_S150000x64 : (⟨S_, .f32⟩ : BufTy).Contents (Elt F) → (⟨S150000x64, .f32⟩ : BufTy).Contents (Elt F)),
    unary main_v3 main_v83 (broadcastInDim S4000000x1 ![0] bcast_S4000000_S4000000x1_0 : (⟨S4000000, .i32⟩ : BufTy).Contents (Elt F) → (⟨S4000000x1, .i32⟩ : BufTy).Contents (Elt F)),
    ternary main_v82 main_v83 main_v81 main_v84 ((fun x i u => Host.scatterAdd scatter_S150000x64_S4000000x1_S4000000x64_1_0_0_1 x i u) : (⟨S150000x64, .f32⟩ : BufTy).Contents (Elt F) → (⟨S4000000x1, .i32⟩ : BufTy).Contents (Elt F) → (⟨S4000000x64, .f32⟩ : BufTy).Contents (Elt F) → (⟨S150000x64, .f32⟩ : BufTy).Contents (Elt F)),
    nullary main_cst_13 (constant S_ .f32 0x3F800000#32),
    unary main_cst_13 main_v85 (broadcastInDim S4000000 ![] bcast_S_S4000000 : (⟨S_, .f32⟩ : BufTy).Contents (Elt F) → (⟨S4000000, .f32⟩ : BufTy).Contents (Elt F)),
    nullary main_cst_14 (constant S_ .f32 0x00000000#32),
    unary main_cst_14 main_v86 (broadcastInDim S150000 ![] bcast_S_S150000 : (⟨S_, .f32⟩ : BufTy).Contents (Elt F) → (⟨S150000, .f32⟩ : BufTy).Contents (Elt F)),
    unary main_v3 main_v87 (broadcastInDim S4000000x1 ![0] bcast_S4000000_S4000000x1_0 : (⟨S4000000, .i32⟩ : BufTy).Contents (Elt F) → (⟨S4000000x1, .i32⟩ : BufTy).Contents (Elt F)),
    ternary main_v86 main_v87 main_v85 main_v88 ((fun x i u => Host.scatterAdd scatter_S150000_S4000000x1_S4000000_n_0_0_1 x i u) : (⟨S150000, .f32⟩ : BufTy).Contents (Elt F) → (⟨S4000000x1, .i32⟩ : BufTy).Contents (Elt F) → (⟨S4000000, .f32⟩ : BufTy).Contents (Elt F) → (⟨S150000, .f32⟩ : BufTy).Contents (Elt F)),
    nullary main_cst_15 (constant S_ .f32 0x3F800000#32),
    unary main_cst_15 main_v89 (broadcastInDim S150000 ![] bcast_S_S150000 : (⟨S_, .f32⟩ : BufTy).Contents (Elt F) → (⟨S150000, .f32⟩ : BufTy).Contents (Elt F)),
    binary main_v88 main_v89 main_v90 (maximumf : (⟨S150000, .f32⟩ : BufTy).Contents (Elt F) → (⟨S150000, .f32⟩ : BufTy).Contents (Elt F) → (⟨S150000, .f32⟩ : BufTy).Contents (Elt F)),
    unary main_v90 main_v91 (broadcastInDim S150000x1 ![0] bcast_S150000_S150000x1_0 : (⟨S150000, .f32⟩ : BufTy).Contents (Elt F) → (⟨S150000x1, .f32⟩ : BufTy).Contents (Elt F)),
    unary main_v91 main_v92 (broadcastInDim S150000x64 ![0, 1] bcast_S150000x1_S150000x64_0_1 : (⟨S150000x1, .f32⟩ : BufTy).Contents (Elt F) → (⟨S150000x64, .f32⟩ : BufTy).Contents (Elt F)),
    binary main_v84 main_v92 main_v93 (Host.divf : (⟨S150000x64, .f32⟩ : BufTy).Contents (Elt F) → (⟨S150000x64, .f32⟩ : BufTy).Contents (Elt F) → (⟨S150000x64, .f32⟩ : BufTy).Contents (Elt F)),
    binary main_v93 main_v70 main_v94 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_v72 main_v95 (broadcastInDim S1x64 ![1] bcast_S64_S1x64_1 : (⟨S64, .f32⟩ : BufTy).Contents (Elt F) → (⟨S1x64, .f32⟩ : BufTy).Contents (Elt F)),
    unary main_v95 main_v96 (broadcastInDim S150000x64 ![0, 1] bcast_S1x64_S150000x64_0_1 : (⟨S1x64, .f32⟩ : BufTy).Contents (Elt F) → (⟨S150000x64, .f32⟩ : BufTy).Contents (Elt F)),
    binary main_v94 main_v96 main_v97 (addf : (⟨S150000x64, .f32⟩ : BufTy).Contents (Elt F) → (⟨S150000x64, .f32⟩ : BufTy).Contents (Elt F) → (⟨S150000x64, .f32⟩ : BufTy).Contents (Elt F)),
    binary main_v68 main_v74 main_v98 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    binary main_v97 main_v98 main_v99 (addf : (⟨S150000x64, .f32⟩ : BufTy).Contents (Elt F) → (⟨S150000x64, .f32⟩ : BufTy).Contents (Elt F) → (⟨S150000x64, .f32⟩ : BufTy).Contents (Elt F)) ]

/-- The third layer's floor at zero. -/
abbrev opsRc : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S150000x64, .f32⟩) main_call2_v0) (broadcastInDim S150000x64 ![] bcast_S_S150000x64),
    TRef.binary (TRef.of (T := ⟨S150000x64, .f32⟩) main_v99) (TRef.of (T := ⟨S150000x64, .f32⟩) main_call2_v0) (TRef.of (T := ⟨S150000x64, .f32⟩) main_v100) maximumf ]

/-- The head's two gathers: the rows of the requested users and of the requested items. -/
abbrev opsD : List (HloOp τ sig (Elt F)) :=
  [ nullary main_c_16 (constantI S_ 32 0#32),
    unary main_c_16 main_v101 (broadcastInDim S100000 ![] bcast_S_S100000 : (⟨S_, .i32⟩ : BufTy).Contents (Elt F) → (⟨S100000, .i32⟩ : BufTy).Contents (Elt F)),
    binary main_arg1 main_v101 main_v102 (cmpi .slt : (⟨S100000, .i32⟩ : BufTy).Contents (Elt F) → (⟨S100000, .i32⟩ : BufTy).Contents (Elt F) → (⟨S100000, .i1⟩ : BufTy).Contents (Elt F)),
    nullary main_c_17 (constantI S_ 32 150000#32),
    unary main_c_17 main_v103 (broadcastInDim S100000 ![] bcast_S_S100000 : (⟨S_, .i32⟩ : BufTy).Contents (Elt F) → (⟨S100000, .i32⟩ : BufTy).Contents (Elt F)),
    binary main_arg1 main_v103 main_v104 (addi : (⟨S100000, .i32⟩ : BufTy).Contents (Elt F) → (⟨S100000, .i32⟩ : BufTy).Contents (Elt F) → (⟨S100000, .i32⟩ : BufTy).Contents (Elt F)),
    ternary main_v102 main_v104 main_arg1 main_v105 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v105 main_v106 (broadcastInDim S100000x1 ![0] bcast_S100000_S100000x1_0 : (⟨S100000, .i32⟩ : BufTy).Contents (Elt F) → (⟨S100000x1, .i32⟩ : BufTy).Contents (Elt F)),
    binary main_v100 main_v106 main_v107 ((fun x i => Host.gather gather_S150000x64_S100000x1_S100000x64_1_0_n_n_0_1_164 x i) : (⟨S150000x64, .f32⟩ : BufTy).Contents (Elt F) → (⟨S100000x1, .i32⟩ : BufTy).Contents (Elt F) → (⟨S100000x64, .f32⟩ : BufTy).Contents (Elt F)),
    nullary main_c_18 (constantI S_ 32 100000#32),
    unary main_c_18 main_v108 (broadcastInDim S100000 ![] bcast_S_S100000 : (⟨S_, .i32⟩ : BufTy).Contents (Elt F) → (⟨S100000, .i32⟩ : BufTy).Contents (Elt F)),
    binary main_arg2 main_v108 main_v109 (addi : (⟨S100000, .i32⟩ : BufTy).Contents (Elt F) → (⟨S100000, .i32⟩ : BufTy).Contents (Elt F) → (⟨S100000, .i32⟩ : BufTy).Contents (Elt F)),
    nullary main_c_19 (constantI S_ 32 0#32),
    unary main_c_19 main_v110 (broadcastInDim S100000 ![] bcast_S_S100000 : (⟨S_, .i32⟩ : BufTy).Contents (Elt F) → (⟨S100000, .i32⟩ : BufTy).Contents (Elt F)),
    binary main_v109 main_v110 main_v111 (cmpi .slt : (⟨S100000, .i32⟩ : BufTy).Contents (Elt F) → (⟨S100000, .i32⟩ : BufTy).Contents (Elt F) → (⟨S100000, .i1⟩ : BufTy).Contents (Elt F)),
    nullary main_c_20 (constantI S_ 32 150000#32),
    unary main_c_20 main_v112 (broadcastInDim S100000 ![] bcast_S_S100000 : (⟨S_, .i32⟩ : BufTy).Contents (Elt F) → (⟨S100000, .i32⟩ : BufTy).Contents (Elt F)),
    binary main_v109 main_v112 main_v113 (addi : (⟨S100000, .i32⟩ : BufTy).Contents (Elt F) → (⟨S100000, .i32⟩ : BufTy).Contents (Elt F) → (⟨S100000, .i32⟩ : BufTy).Contents (Elt F)),
    ternary main_v111 main_v113 main_v109 main_v114 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v114 main_v115 (broadcastInDim S100000x1 ![0] bcast_S100000_S100000x1_0 : (⟨S100000, .i32⟩ : BufTy).Contents (Elt F) → (⟨S100000x1, .i32⟩ : BufTy).Contents (Elt F)),
    binary main_v100 main_v115 main_v116 ((fun x i => Host.gather gather_S150000x64_S100000x1_S100000x64_1_0_n_n_0_1_164 x i) : (⟨S150000x64, .f32⟩ : BufTy).Contents (Elt F) → (⟨S100000x1, .i32⟩ : BufTy).Contents (Elt F) → (⟨S100000x64, .f32⟩ : BufTy).Contents (Elt F)) ]

/-- The head's hidden layer before its floor at zero: the joining, the product and the bias. -/
abbrev opsE : List (HloOp τ sig (Elt F)) :=
  [ binary main_v107 main_v116 main_v117 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v117 main_arg8 main_v118 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    unary main_arg9 main_v119 (broadcastInDim S1x32 ![1] bcast_S32_S1x32_1 : (⟨S32, .f32⟩ : BufTy).Contents (Elt F) → (⟨S1x32, .f32⟩ : BufTy).Contents (Elt F)),
    unary main_v119 main_v120 (broadcastInDim S100000x32 ![0, 1] bcast_S1x32_S100000x32_0_1 : (⟨S1x32, .f32⟩ : BufTy).Contents (Elt F) → (⟨S100000x32, .f32⟩ : BufTy).Contents (Elt F)),
    binary main_v118 main_v120 main_v121 (addf : (⟨S100000x32, .f32⟩ : BufTy).Contents (Elt F) → (⟨S100000x32, .f32⟩ : BufTy).Contents (Elt F) → (⟨S100000x32, .f32⟩ : BufTy).Contents (Elt F)) ]

/-- The hidden layer's floor at zero. -/
abbrev opsRe : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x32, .f32⟩) main_call3_v0) (broadcastInDim S100000x32 ![] bcast_S_S100000x32),
    TRef.binary (TRef.of (T := ⟨S100000x32, .f32⟩) main_v121) (TRef.of (T := ⟨S100000x32, .f32⟩) main_call3_v0) (TRef.of (T := ⟨S100000x32, .f32⟩) main_v122) maximumf ]

/-- The head's score: the product, the bias, the flattening, and the two clamp bounds. -/
abbrev opsG : List (HloOp τ sig (Elt F)) :=
  [ binary main_v122 main_arg10 main_v123 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    unary main_arg11 main_v124 (broadcastInDim S1x1 ![1] bcast_S1_S1x1_1 : (⟨S1, .f32⟩ : BufTy).Contents (Elt F) → (⟨S1x1, .f32⟩ : BufTy).Contents (Elt F)),
    unary main_v124 main_v125 (broadcastInDim S100000x1 ![0, 1] bcast_S1x1_S100000x1_0_1 : (⟨S1x1, .f32⟩ : BufTy).Contents (Elt F) → (⟨S100000x1, .f32⟩ : BufTy).Contents (Elt F)),
    binary main_v123 main_v125 main_v126 (addf : (⟨S100000x1, .f32⟩ : BufTy).Contents (Elt F) → (⟨S100000x1, .f32⟩ : BufTy).Contents (Elt F) → (⟨S100000x1, .f32⟩ : BufTy).Contents (Elt F)),
    reshape main_v126 main_v127 rfl shapeCasts_S100000x1_S100000,
    nullary main_cst_21 (constant S_ .f32 0x3F800000#32),
    nullary main_cst_22 (constant S_ .f32 0x40A00000#32) ]

/-- The clamp: the lower bound spread and applied, then the upper bound. -/
abbrev opsK : List (HloOp τ sig (Elt F)) :=
  [ TRef.unary (TRef.of (T := ⟨S_, .f32⟩) main_cst_21) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_v127) (TRef.of (T := ⟨S100000, .f32⟩) main_call4_v2) maximumf,
    TRef.unary (TRef.of (T := ⟨S_, .f32⟩) main_cst_22) (TRef.of (T := ⟨S_, .f32⟩) main_call4_v3) id,
    TRef.unary (TRef.of (T := ⟨S_, .f32⟩) main_call4_v3) (TRef.of (T := ⟨S100000, .f32⟩) main_call4_v4) (broadcastInDim S100000 ![] bcast_S_S100000),
    TRef.binary (TRef.of (T := ⟨S100000, .f32⟩) main_call4_v4) (TRef.of (T := ⟨S100000, .f32⟩) main_call4_v2) (TRef.of (T := ⟨S100000, .f32⟩) main_v128) minimumf ]

set_option maxRecDepth 8192 in
set_option maxHeartbeats 4000000 in
/-- The reference's main function is its operations run in order. -/
theorem main_eq (c : Dev nD) : main (F := F) c = seq (opsP ++ opsA ++ opsRa ++ opsB ++ opsRb ++ opsC ++ opsRc ++ opsD ++ opsE ++ opsRe ++ opsG ++ opsK) := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsP_sub : (opsP : List (HloOp τ sig (Elt F))).Forall fun op => op.bufs ⊆ tcRefs τ sig :=
  ⟨unary_bufs_sub .., reshape_bufs_sub .., unary_bufs_sub .., reshape_bufs_sub ..⟩
theorem opsP_fresh : ∀ op ∈ (opsP : List (HloOp τ sig (Elt F))), op.fresh = ∅ := by
  intro _ h; (repeat (cases h with | head => rfl | tail _ h => ?_)); exact nomatch h

set_option maxRecDepth 8192 in
theorem opsA_sub : (opsA : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
theorem opsA_fresh : ∀ op ∈ (opsA : List (HloOp τ sig (Elt F))), op.fresh = ∅ := by
  intro _ h; (repeat (cases h with | head => rfl | tail _ h => ?_)); exact nomatch h

set_option maxRecDepth 8192 in
theorem opsRa_sub : (opsRa : List (HloOp τ sig (Elt F))).Forall fun op => op.bufs ⊆ tcRefs τ sig :=
  ⟨nullary_bufs_sub .., unary_bufs_sub .., binary_bufs_sub ..⟩
theorem opsRa_fresh : ∀ op ∈ (opsRa : List (HloOp τ sig (Elt F))), op.fresh = ∅ := by
  intro _ h; (repeat (cases h with | head => rfl | tail _ h => ?_)); exact nomatch h

set_option maxRecDepth 8192 in
theorem opsB_sub : (opsB : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
theorem opsB_fresh : ∀ op ∈ (opsB : List (HloOp τ sig (Elt F))), op.fresh = ∅ := by
  intro _ h; (repeat (cases h with | head => rfl | tail _ h => ?_)); exact nomatch h

set_option maxRecDepth 8192 in
theorem opsRb_sub : (opsRb : List (HloOp τ sig (Elt F))).Forall fun op => op.bufs ⊆ tcRefs τ sig :=
  ⟨nullary_bufs_sub .., unary_bufs_sub .., binary_bufs_sub ..⟩
theorem opsRb_fresh : ∀ op ∈ (opsRb : List (HloOp τ sig (Elt F))), op.fresh = ∅ := by
  intro _ h; (repeat (cases h with | head => rfl | tail _ h => ?_)); exact nomatch h

set_option maxRecDepth 8192 in
theorem opsC_sub : (opsC : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
theorem opsC_fresh : ∀ op ∈ (opsC : List (HloOp τ sig (Elt F))), op.fresh = ∅ := by
  intro _ h; (repeat (cases h with | head => rfl | tail _ h => ?_)); exact nomatch h

set_option maxRecDepth 8192 in
theorem opsRc_sub : (opsRc : List (HloOp τ sig (Elt F))).Forall fun op => op.bufs ⊆ tcRefs τ sig :=
  ⟨nullary_bufs_sub .., unary_bufs_sub .., binary_bufs_sub ..⟩
theorem opsRc_fresh : ∀ op ∈ (opsRc : List (HloOp τ sig (Elt F))), op.fresh = ∅ := by
  intro _ h; (repeat (cases h with | head => rfl | tail _ h => ?_)); exact nomatch h

set_option maxRecDepth 8192 in
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsD_fresh : ∀ op ∈ (opsD : List (HloOp τ sig (Elt F))), op.fresh = ∅ := by
  intro _ h; (repeat (cases h with | head => rfl | tail _ h => ?_)); exact nomatch h

set_option maxRecDepth 8192 in
theorem opsE_sub : (opsE : List (HloOp τ sig (Elt F))).Forall fun op => op.bufs ⊆ tcRefs τ sig :=
  ⟨binary_bufs_sub .., binary_bufs_sub .., unary_bufs_sub .., unary_bufs_sub .., binary_bufs_sub ..⟩
theorem opsE_fresh : ∀ op ∈ (opsE : List (HloOp τ sig (Elt F))), op.fresh = ∅ := by
  intro _ h; (repeat (cases h with | head => rfl | tail _ h => ?_)); exact nomatch h

set_option maxRecDepth 8192 in
theorem opsRe_sub : (opsRe : List (HloOp τ sig (Elt F))).Forall fun op => op.bufs ⊆ tcRefs τ sig :=
  ⟨nullary_bufs_sub .., unary_bufs_sub .., binary_bufs_sub ..⟩
theorem opsRe_fresh : ∀ op ∈ (opsRe : List (HloOp τ sig (Elt F))), op.fresh = ∅ := by
  intro _ h; (repeat (cases h with | head => rfl | tail _ h => ?_)); exact nomatch h

set_option maxRecDepth 8192 in
theorem opsG_sub : (opsG : List (HloOp τ sig (Elt F))).Forall fun op => op.bufs ⊆ tcRefs τ sig :=
  ⟨binary_bufs_sub .., unary_bufs_sub .., unary_bufs_sub .., binary_bufs_sub .., reshape_bufs_sub .., nullary_bufs_sub .., nullary_bufs_sub ..⟩
theorem opsG_fresh : ∀ op ∈ (opsG : List (HloOp τ sig (Elt F))), op.fresh = ∅ := by
  intro _ h; (repeat (cases h with | head => rfl | tail _ h => ?_)); exact nomatch h

set_option maxRecDepth 8192 in
theorem opsK_sub : (opsK : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem opsK_fresh : ∀ op ∈ (opsK : List (HloOp τ sig (Elt F))), op.fresh = ∅ := by
  intro _ h; (repeat (cases h with | head => rfl | tail _ h => ?_)); exact nomatch h

/-- Every operation touches buffers of the one core only. -/
theorem ops_sub : (opsP ++ opsA ++ opsRa ++ opsB ++ opsRb ++ opsC ++ opsRc ++ opsD ++ opsE ++ opsRe ++ opsG ++ opsK : List (HloOp τ sig (Elt F))).Forall fun op => op.bufs ⊆ tcRefs τ sig :=
  List.forall_iff_forall_mem.mpr (by
    intro op h
    simp only [List.mem_append] at h
    rcases h with ((((((((((h | h) | h) | h) | h) | h) | h) | h) | h) | h) | h) | h
    · exact List.forall_iff_forall_mem.mp opsP_sub op h
    · exact List.forall_iff_forall_mem.mp opsA_sub op h
    · exact List.forall_iff_forall_mem.mp opsRa_sub op h
    · exact List.forall_iff_forall_mem.mp opsB_sub op h
    · exact List.forall_iff_forall_mem.mp opsRb_sub op h
    · exact List.forall_iff_forall_mem.mp opsC_sub op h
    · exact List.forall_iff_forall_mem.mp opsRc_sub op h
    · exact List.forall_iff_forall_mem.mp opsD_sub op h
    · exact List.forall_iff_forall_mem.mp opsE_sub op h
    · exact List.forall_iff_forall_mem.mp opsRe_sub op h
    · exact List.forall_iff_forall_mem.mp opsG_sub op h
    · exact List.forall_iff_forall_mem.mp opsK_sub op h)

/-- No operation allocates. -/
theorem ops_fresh : ∀ op ∈ (opsP ++ opsA ++ opsRa ++ opsB ++ opsRb ++ opsC ++ opsRc ++ opsD ++ opsE ++ opsRe ++ opsG ++ opsK : List (HloOp τ sig (Elt F))), op.fresh = ∅ := by
  intro op h
  simp only [List.mem_append] at h
  rcases h with ((((((((((h | h) | h) | h) | h) | h) | h) | h) | h) | h) | h) | h
  · exact opsP_fresh op h
  · exact opsA_fresh op h
  · exact opsRa_fresh op h
  · exact opsB_fresh op h
  · exact opsRb_fresh op h
  · exact opsC_fresh op h
  · exact opsRc_fresh op h
  · exact opsD_fresh op h
  · exact opsE_fresh op h
  · exact opsRe_fresh op h
  · exact opsG_fresh op h
  · exact opsK_fresh op h

/-- Running two lists of operations one after the other is running their concatenation. -/
theorem after_append (a b : List (HloOp τ sig (Elt F))) (V : Valuation τ sig (Elt F)) :
    after (a ++ b) V = after b (after a V) := by
  induction a generalizing V with
  | nil => rfl
  | cons op l ih => simp only [List.cons_append, after_cons, ih]

/-- The buffers the edge-row operations write. -/
abbrev writtenP : List (Ref sig .tc) := [main_v0, main_v1, main_v2, main_v3]

theorem opsP_writes : (opsP (F := F)).Forall fun op => op.writes ⊆ ((writtenP).map (Proc.devRef (τ := τ) .tc)).toFinset := by
  simp only [opsP, writtenP, List.Forall, nullary_writes, unary_writes, binary_writes, ternary_writes, reshape_writes, Finset.singleton_subset_iff, List.mem_toFinset]
  repeat' apply And.intro
  all_goals exact List.mem_map_of_mem (by decide)

/-- A buffer the edge-row operations do not write keeps its contents. -/
theorem keepP (V : Valuation τ sig (Elt F)) (r : Ref sig .tc) (hr : r ∉ writtenP) :
    after (opsP (F := F)) V (Proc.devRef .tc r) = V (Proc.devRef .tc r) :=
  after_of_writes_sub _ V opsP_writes hr

/-- The buffers the first layer's operations write. -/
abbrev writtenA : List (Ref sig .tc) := [main_v4, main_v5, main_v6, main_v7, main_v8, main_v9, main_v10, main_c, main_v11, main_v12, main_c_0, main_v13, main_v14, main_v15, main_v16, main_v17, main_cst, main_v18, main_v19, main_v20, main_cst_1, main_v21, main_cst_2, main_v22, main_v23, main_v24, main_cst_3, main_v25, main_v26, main_v27, main_v28, main_v29, main_v30, main_v31, main_v32, main_v33, main_v34, main_v35]

theorem opsA_writes : (opsA (F := F)).Forall fun op => op.writes ⊆ ((writtenA).map (Proc.devRef (τ := τ) .tc)).toFinset := by
  simp only [opsA, writtenA, List.Forall, nullary_writes, unary_writes, binary_writes, ternary_writes, reshape_writes, Finset.singleton_subset_iff, List.mem_toFinset]
  repeat' apply And.intro
  all_goals exact List.mem_map_of_mem (by decide)

/-- A buffer the first layer's operations do not write keeps its contents. -/
theorem keepA (V : Valuation τ sig (Elt F)) (r : Ref sig .tc) (hr : r ∉ writtenA) :
    after (opsA (F := F)) V (Proc.devRef .tc r) = V (Proc.devRef .tc r) :=
  after_of_writes_sub _ V opsA_writes hr

/-- The buffers the first layer's floor operations write. -/
abbrev writtenRa : List (Ref sig .tc) := [main_call0_cst, main_call0_v0, main_v36]

theorem opsRa_writes : (opsRa (F := F)).Forall fun op => op.writes ⊆ ((writtenRa).map (Proc.devRef (τ := τ) .tc)).toFinset := by
  simp only [opsRa, writtenRa, List.Forall, nullary_writes, unary_writes, binary_writes, ternary_writes, reshape_writes, Finset.singleton_subset_iff, List.mem_toFinset]
  repeat' apply And.intro
  all_goals exact List.mem_map_of_mem (by decide)

/-- A buffer the first layer's floor operations do not write keeps its contents. -/
theorem keepRa (V : Valuation τ sig (Elt F)) (r : Ref sig .tc) (hr : r ∉ writtenRa) :
    after (opsRa (F := F)) V (Proc.devRef .tc r) = V (Proc.devRef .tc r) :=
  after_of_writes_sub _ V opsRa_writes hr

/-- The buffers the second layer's operations write. -/
abbrev writtenB : List (Ref sig .tc) := [main_v37, main_v38, main_v39, main_v40, main_v41, main_v42, main_c_4, main_v43, main_v44, main_c_5, main_v45, main_v46, main_v47, main_v48, main_v49, main_cst_6, main_v50, main_v51, main_v52, main_cst_7, main_v53, main_cst_8, main_v54, main_v55, main_v56, main_cst_9, main_v57, main_v58, main_v59, main_v60, main_v61, main_v62, main_v63, main_v64, main_v65, main_v66, main_v67]

theorem opsB_writes : (opsB (F := F)).Forall fun op => op.writes ⊆ ((writtenB).map (Proc.devRef (τ := τ) .tc)).toFinset := by
  simp only [opsB, writtenB, List.Forall, nullary_writes, unary_writes, binary_writes, ternary_writes, reshape_writes, Finset.singleton_subset_iff, List.mem_toFinset]
  repeat' apply And.intro
  all_goals exact List.mem_map_of_mem (by decide)

/-- A buffer the second layer's operations do not write keeps its contents. -/
theorem keepB (V : Valuation τ sig (Elt F)) (r : Ref sig .tc) (hr : r ∉ writtenB) :
    after (opsB (F := F)) V (Proc.devRef .tc r) = V (Proc.devRef .tc r) :=
  after_of_writes_sub _ V opsB_writes hr

/-- The buffers the second layer's floor operations write. -/
abbrev writtenRb : List (Ref sig .tc) := [main_call1_cst, main_call1_v0, main_v68]

theorem opsRb_writes : (opsRb (F := F)).Forall fun op => op.writes ⊆ ((writtenRb).map (Proc.devRef (τ := τ) .tc)).toFinset := by
  simp only [opsRb, writtenRb, List.Forall, nullary_writes, unary_writes, binary_writes, ternary_writes, reshape_writes, Finset.singleton_subset_iff, List.mem_toFinset]
  repeat' apply And.intro
  all_goals exact List.mem_map_of_mem (by decide)

/-- A buffer the second layer's floor operations do not write keeps its contents. -/
theorem keepRb (V : Valuation τ sig (Elt F)) (r : Ref sig .tc) (hr : r ∉ writtenRb) :
    after (opsRb (F := F)) V (Proc.devRef .tc r) = V (Proc.devRef .tc r) :=
  after_of_writes_sub _ V opsRb_writes hr

/-- The buffers the third layer's operations write. -/
abbrev writtenC : List (Ref sig .tc) := [main_v69, main_v70, main_v71, main_v72, main_v73, main_v74, main_c_10, main_v75, main_v76, main_c_11, main_v77, main_v78, main_v79, main_v80, main_v81, main_cst_12, main_v82, main_v83, main_v84, main_cst_13, main_v85, main_cst_14, main_v86, main_v87, main_v88, main_cst_15, main_v89, main_v90, main_v91, main_v92, main_v93, main_v94, main_v95, main_v96, main_v97, main_v98, main_v99]

theorem opsC_writes : (opsC (F := F)).Forall fun op => op.writes ⊆ ((writtenC).map (Proc.devRef (τ := τ) .tc)).toFinset := by
  simp only [opsC, writtenC, List.Forall, nullary_writes, unary_writes, binary_writes, ternary_writes, reshape_writes, Finset.singleton_subset_iff, List.mem_toFinset]
  repeat' apply And.intro
  all_goals exact List.mem_map_of_mem (by decide)

/-- A buffer the third layer's operations do not write keeps its contents. -/
theorem keepC (V : Valuation τ sig (Elt F)) (r : Ref sig .tc) (hr : r ∉ writtenC) :
    after (opsC (F := F)) V (Proc.devRef .tc r) = V (Proc.devRef .tc r) :=
  after_of_writes_sub _ V opsC_writes hr

/-- The buffers the third layer's floor operations write. -/
abbrev writtenRc : List (Ref sig .tc) := [main_call2_cst, main_call2_v0, main_v100]

theorem opsRc_writes : (opsRc (F := F)).Forall fun op => op.writes ⊆ ((writtenRc).map (Proc.devRef (τ := τ) .tc)).toFinset := by
  simp only [opsRc, writtenRc, List.Forall, nullary_writes, unary_writes, binary_writes, ternary_writes, reshape_writes, Finset.singleton_subset_iff, List.mem_toFinset]
  repeat' apply And.intro
  all_goals exact List.mem_map_of_mem (by decide)

/-- A buffer the third layer's floor operations do not write keeps its contents. -/
theorem keepRc (V : Valuation τ sig (Elt F)) (r : Ref sig .tc) (hr : r ∉ writtenRc) :
    after (opsRc (F := F)) V (Proc.devRef .tc r) = V (Proc.devRef .tc r) :=
  after_of_writes_sub _ V opsRc_writes hr

/-- The buffers the head's gather operations write. -/
abbrev writtenD : List (Ref sig .tc) := [main_c_16, main_v101, main_v102, main_c_17, main_v103, main_v104, main_v105, main_v106, main_v107, main_c_18, main_v108, main_v109, main_c_19, main_v110, main_v111, main_c_20, main_v112, main_v113, main_v114, main_v115, main_v116]

theorem opsD_writes : (opsD (F := F)).Forall fun op => op.writes ⊆ ((writtenD).map (Proc.devRef (τ := τ) .tc)).toFinset := by
  simp only [opsD, writtenD, List.Forall, nullary_writes, unary_writes, binary_writes, ternary_writes, reshape_writes, Finset.singleton_subset_iff, List.mem_toFinset]
  repeat' apply And.intro
  all_goals exact List.mem_map_of_mem (by decide)

/-- A buffer the head's gather operations do not write keeps its contents. -/
theorem keepD (V : Valuation τ sig (Elt F)) (r : Ref sig .tc) (hr : r ∉ writtenD) :
    after (opsD (F := F)) V (Proc.devRef .tc r) = V (Proc.devRef .tc r) :=
  after_of_writes_sub _ V opsD_writes hr

/-- The buffers the head's hidden-layer operations write. -/
abbrev writtenE : List (Ref sig .tc) := [main_v117, main_v118, main_v119, main_v120, main_v121]

theorem opsE_writes : (opsE (F := F)).Forall fun op => op.writes ⊆ ((writtenE).map (Proc.devRef (τ := τ) .tc)).toFinset := by
  simp only [opsE, writtenE, List.Forall, nullary_writes, unary_writes, binary_writes, ternary_writes, reshape_writes, Finset.singleton_subset_iff, List.mem_toFinset]
  repeat' apply And.intro
  all_goals exact List.mem_map_of_mem (by decide)

/-- A buffer the head's hidden-layer operations do not write keeps its contents. -/
theorem keepE (V : Valuation τ sig (Elt F)) (r : Ref sig .tc) (hr : r ∉ writtenE) :
    after (opsE (F := F)) V (Proc.devRef .tc r) = V (Proc.devRef .tc r) :=
  after_of_writes_sub _ V opsE_writes hr

/-- The buffers the hidden layer's floor operations write. -/
abbrev writtenRe : List (Ref sig .tc) := [main_call3_cst, main_call3_v0, main_v122]

theorem opsRe_writes : (opsRe (F := F)).Forall fun op => op.writes ⊆ ((writtenRe).map (Proc.devRef (τ := τ) .tc)).toFinset := by
  simp only [opsRe, writtenRe, List.Forall, nullary_writes, unary_writes, binary_writes, ternary_writes, reshape_writes, Finset.singleton_subset_iff, List.mem_toFinset]
  repeat' apply And.intro
  all_goals exact List.mem_map_of_mem (by decide)

/-- A buffer the hidden layer's floor operations do not write keeps its contents. -/
theorem keepRe (V : Valuation τ sig (Elt F)) (r : Ref sig .tc) (hr : r ∉ writtenRe) :
    after (opsRe (F := F)) V (Proc.devRef .tc r) = V (Proc.devRef .tc r) :=
  after_of_writes_sub _ V opsRe_writes hr

/-- The buffers the head's score operations write. -/
abbrev writtenG : List (Ref sig .tc) := [main_v123, main_v124, main_v125, main_v126, main_v127, main_cst_21, main_cst_22]

theorem opsG_writes : (opsG (F := F)).Forall fun op => op.writes ⊆ ((writtenG).map (Proc.devRef (τ := τ) .tc)).toFinset := by
  simp only [opsG, writtenG, List.Forall, nullary_writes, unary_writes, binary_writes, ternary_writes, reshape_writes, Finset.singleton_subset_iff, List.mem_toFinset]
  repeat' apply And.intro
  all_goals exact List.mem_map_of_mem (by decide)

/-- A buffer the head's score operations do not write keeps its contents. -/
theorem keepG (V : Valuation τ sig (Elt F)) (r : Ref sig .tc) (hr : r ∉ writtenG) :
    after (opsG (F := F)) V (Proc.devRef .tc r) = V (Proc.devRef .tc r) :=
  after_of_writes_sub _ V opsG_writes hr

/-- The buffers the clamp operations write. -/
abbrev writtenK : List (Ref sig .tc) := [main_call4_v0, main_call4_v1, main_call4_v2, main_call4_v3, main_call4_v4, main_v128]

theorem opsK_writes : (opsK (F := F)).Forall fun op => op.writes ⊆ ((writtenK).map (Proc.devRef (τ := τ) .tc)).toFinset := by
  simp only [opsK, writtenK, List.Forall, nullary_writes, unary_writes, binary_writes, ternary_writes, reshape_writes, Finset.singleton_subset_iff, List.mem_toFinset]
  repeat' apply And.intro
  all_goals exact List.mem_map_of_mem (by decide)

/-- A buffer the clamp operations do not write keeps its contents. -/
theorem keepK (V : Valuation τ sig (Elt F)) (r : Ref sig .tc) (hr : r ∉ writtenK) :
    after (opsK (F := F)) V (Proc.devRef .tc r) = V (Proc.devRef .tc r) :=
  after_of_writes_sub _ V opsK_writes hr

/-! ## The operations read at an index -/

/-- A product of a 150000×64 array with a 64×64 matrix, read at a row and a column: the sum over the 64 contracted positions of the products of the entries. -/
theorem dot_nodes (A : FVec Ideal S150000x64 .f32) (B : FVec Ideal S64x64 .f32) (i : S150000x64.Idx) :
    Host.dotGeneral (F := Ideal) dot_S150000x64_S64x64_S150000x64_1_0_0_1_n_n none A B i = ∑ k : Fin 64, A (ix2 (i 0) k) * B (ix2 k (i 1)) := by
  simp only [Host.dotGeneral]
  rw [Ideal.dotGeneral_apply, ← Equiv.sum_comp (contrEquiv1 dot_S150000x64_S64x64_S150000x64_1_0_0_1_n_n 64 rfl rfl).symm]
  refine Finset.sum_congr rfl fun k _ => ?_
  have hk := contrEquiv1_symm_val dot_S150000x64_S64x64_S150000x64_1_0_0_1_n_n 64 rfl rfl k
  have el : dot_S150000x64_S64x64_S150000x64_1_0_0_1_n_n.lhsIdx i ((contrEquiv1 dot_S150000x64_S64x64_S150000x64_1_0_0_1_n_n 64 rfl rfl).symm k) = ix2 (i 0) k := funext fun a => Fin.ext (by
    match a with
    | ⟨0, _⟩ =>
      show (dot_S150000x64_S64x64_S150000x64_1_0_0_1_n_n.lhsIdx i _ 0).val = (i 0).val
      unfold DotDims.lhsIdx
      rw [dif_neg (show ¬(0 : Fin S150000x64.rank) ∈ dot_S150000x64_S64x64_S150000x64_1_0_0_1_n_n.lhsBatch by decide), dif_pos (show (0 : Fin S150000x64.rank) ∈ dot_S150000x64_S64x64_S150000x64_1_0_0_1_n_n.lhsNonContracting by decide)]
      rfl
    | ⟨1, _⟩ => exact (dot_S150000x64_S64x64_S150000x64_1_0_0_1_n_n.lhsIdx_val_of_single rfl i _).trans hk)
  have er : dot_S150000x64_S64x64_S150000x64_1_0_0_1_n_n.rhsIdx i ((contrEquiv1 dot_S150000x64_S64x64_S150000x64_1_0_0_1_n_n 64 rfl rfl).symm k) = ix2 k (i 1) := funext fun a => Fin.ext (by
    match a with
    | ⟨0, _⟩ => exact (dot_S150000x64_S64x64_S150000x64_1_0_0_1_n_n.rhsIdx_val_of_single rfl i _).trans hk
    | ⟨1, _⟩ =>
      show (dot_S150000x64_S64x64_S150000x64_1_0_0_1_n_n.rhsIdx i _ 1).val = (i 1).val
      unfold DotDims.rhsIdx
      rw [dif_neg (show ¬(1 : Fin S64x64.rank) ∈ dot_S150000x64_S64x64_S150000x64_1_0_0_1_n_n.rhsBatch by decide), dif_pos (show (1 : Fin S64x64.rank) ∈ dot_S150000x64_S64x64_S150000x64_1_0_0_1_n_n.rhsNonContracting by decide)]
      rfl)
  exact congrArg₂ (· * ·) (congrArg A el) (congrArg B er)

/-- A product of a 100000×128 array with a 128×32 matrix, read at a row and a column: the sum over the 128 contracted positions. -/
theorem dot_hidden (A : FVec Ideal S100000x128 .f32) (B : FVec Ideal S128x32 .f32) (i : S100000x32.Idx) :
    Host.dotGeneral (F := Ideal) dot_S100000x128_S128x32_S100000x32_1_0_0_1_n_n none A B i = ∑ k : Fin 128, A (ix2 (i 0) k) * B (ix2 k (i 1)) := by
  simp only [Host.dotGeneral]
  rw [Ideal.dotGeneral_apply, ← Equiv.sum_comp (contrEquiv1 dot_S100000x128_S128x32_S100000x32_1_0_0_1_n_n 128 rfl rfl).symm]
  refine Finset.sum_congr rfl fun k _ => ?_
  have hk := contrEquiv1_symm_val dot_S100000x128_S128x32_S100000x32_1_0_0_1_n_n 128 rfl rfl k
  have el : dot_S100000x128_S128x32_S100000x32_1_0_0_1_n_n.lhsIdx i ((contrEquiv1 dot_S100000x128_S128x32_S100000x32_1_0_0_1_n_n 128 rfl rfl).symm k) = ix2 (i 0) k := funext fun a => Fin.ext (by
    match a with
    | ⟨0, _⟩ =>
      show (dot_S100000x128_S128x32_S100000x32_1_0_0_1_n_n.lhsIdx i _ 0).val = (i 0).val
      unfold DotDims.lhsIdx
      rw [dif_neg (show ¬(0 : Fin S100000x128.rank) ∈ dot_S100000x128_S128x32_S100000x32_1_0_0_1_n_n.lhsBatch by decide), dif_pos (show (0 : Fin S100000x128.rank) ∈ dot_S100000x128_S128x32_S100000x32_1_0_0_1_n_n.lhsNonContracting by decide)]
      rfl
    | ⟨1, _⟩ => exact (dot_S100000x128_S128x32_S100000x32_1_0_0_1_n_n.lhsIdx_val_of_single rfl i _).trans hk)
  have er : dot_S100000x128_S128x32_S100000x32_1_0_0_1_n_n.rhsIdx i ((contrEquiv1 dot_S100000x128_S128x32_S100000x32_1_0_0_1_n_n 128 rfl rfl).symm k) = ix2 k (i 1) := funext fun a => Fin.ext (by
    match a with
    | ⟨0, _⟩ => exact (dot_S100000x128_S128x32_S100000x32_1_0_0_1_n_n.rhsIdx_val_of_single rfl i _).trans hk
    | ⟨1, _⟩ =>
      show (dot_S100000x128_S128x32_S100000x32_1_0_0_1_n_n.rhsIdx i _ 1).val = (i 1).val
      unfold DotDims.rhsIdx
      rw [dif_neg (show ¬(1 : Fin S128x32.rank) ∈ dot_S100000x128_S128x32_S100000x32_1_0_0_1_n_n.rhsBatch by decide), dif_pos (show (1 : Fin S128x32.rank) ∈ dot_S100000x128_S128x32_S100000x32_1_0_0_1_n_n.rhsNonContracting by decide)]
      rfl)
  exact congrArg₂ (· * ·) (congrArg A el) (congrArg B er)

/-- A product of a 100000×32 array with a 32×1 matrix, read at a row and a column: the sum over the 32 contracted positions. -/
theorem dot_score (A : FVec Ideal S100000x32 .f32) (B : FVec Ideal S32x1 .f32) (i : S100000x1.Idx) :
    Host.dotGeneral (F := Ideal) dot_S100000x32_S32x1_S100000x1_1_0_0_1_n_n none A B i = ∑ k : Fin 32, A (ix2 (i 0) k) * B (ix2 k (i 1)) := by
  simp only [Host.dotGeneral]
  rw [Ideal.dotGeneral_apply, ← Equiv.sum_comp (contrEquiv1 dot_S100000x32_S32x1_S100000x1_1_0_0_1_n_n 32 rfl rfl).symm]
  refine Finset.sum_congr rfl fun k _ => ?_
  have hk := contrEquiv1_symm_val dot_S100000x32_S32x1_S100000x1_1_0_0_1_n_n 32 rfl rfl k
  have el : dot_S100000x32_S32x1_S100000x1_1_0_0_1_n_n.lhsIdx i ((contrEquiv1 dot_S100000x32_S32x1_S100000x1_1_0_0_1_n_n 32 rfl rfl).symm k) = ix2 (i 0) k := funext fun a => Fin.ext (by
    match a with
    | ⟨0, _⟩ =>
      show (dot_S100000x32_S32x1_S100000x1_1_0_0_1_n_n.lhsIdx i _ 0).val = (i 0).val
      unfold DotDims.lhsIdx
      rw [dif_neg (show ¬(0 : Fin S100000x32.rank) ∈ dot_S100000x32_S32x1_S100000x1_1_0_0_1_n_n.lhsBatch by decide), dif_pos (show (0 : Fin S100000x32.rank) ∈ dot_S100000x32_S32x1_S100000x1_1_0_0_1_n_n.lhsNonContracting by decide)]
      rfl
    | ⟨1, _⟩ => exact (dot_S100000x32_S32x1_S100000x1_1_0_0_1_n_n.lhsIdx_val_of_single rfl i _).trans hk)
  have er : dot_S100000x32_S32x1_S100000x1_1_0_0_1_n_n.rhsIdx i ((contrEquiv1 dot_S100000x32_S32x1_S100000x1_1_0_0_1_n_n 32 rfl rfl).symm k) = ix2 k (i 1) := funext fun a => Fin.ext (by
    match a with
    | ⟨0, _⟩ => exact (dot_S100000x32_S32x1_S100000x1_1_0_0_1_n_n.rhsIdx_val_of_single rfl i _).trans hk
    | ⟨1, _⟩ =>
      show (dot_S100000x32_S32x1_S100000x1_1_0_0_1_n_n.rhsIdx i _ 1).val = (i 1).val
      unfold DotDims.rhsIdx
      rw [dif_neg (show ¬(1 : Fin S32x1.rank) ∈ dot_S100000x32_S32x1_S100000x1_1_0_0_1_n_n.rhsBatch by decide), dif_pos (show (1 : Fin S32x1.rank) ∈ dot_S100000x32_S32x1_S100000x1_1_0_0_1_n_n.rhsNonContracting by decide)]
      rfl)
  exact congrArg₂ (· * ·) (congrArg A el) (congrArg B er)

/-- A vector of one entry per node, made a column and spread over 64 columns, reads at `(r, q)` the vector's entry `r`. -/
theorem col_nodes (M : FVec Ideal S150000 .f32) (i : S150000x64.Idx) :
    broadcastInDim S150000x64 ![0, 1] bcast_S150000x1_S150000x64_0_1 (broadcastInDim S150000x1 ![0] bcast_S150000_S150000x1_0 M) i = M (ix1 (i 0)) := by
  rw [broadcastInDim_apply _ bcast_S150000x1_S150000x64_0_1 _ i (ix2 (i 0) 0) (fun a => by
    match a with
    | ⟨0, _⟩ => show (i 0).val = if (150000 : Nat) = 1 then 0 else (i 0).val; rw [if_neg (by decide)]
    | ⟨1, _⟩ => show 0 = if (1 : Nat) = 1 then 0 else (i 1).val; rw [if_pos rfl])]
  exact broadcastInDim_apply _ bcast_S150000_S150000x1_0 M (ix2 (i 0) 0) (ix1 (i 0)) (fun a => by
    match a with
    | ⟨0, _⟩ => show (i 0).val = if (150000 : Nat) = 1 then 0 else (i 0).val; rw [if_neg (by decide)])

/-- A vector of 64 entries, made a row and spread over the nodes, reads at `(r, q)` the vector's entry `q`. -/
theorem row_nodes (b : FVec Ideal S64 .f32) (i : S150000x64.Idx) :
    broadcastInDim S150000x64 ![0, 1] bcast_S1x64_S150000x64_0_1 (broadcastInDim S1x64 ![1] bcast_S64_S1x64_1 b) i = b (ix1 (i 1)) := by
  rw [broadcastInDim_apply _ bcast_S1x64_S150000x64_0_1 _ i (ix2 0 (i 1)) (fun a => by
    match a with
    | ⟨0, _⟩ => show 0 = if (1 : Nat) = 1 then 0 else (i 0).val; rw [if_pos rfl]
    | ⟨1, _⟩ => show (i 1).val = if (64 : Nat) = 1 then 0 else (i 1).val; rw [if_neg (by decide)])]
  exact broadcastInDim_apply _ bcast_S64_S1x64_1 b (ix2 0 (i 1)) (ix1 (i 1)) (fun a => by
    match a with
    | ⟨0, _⟩ => show (i 1).val = if (64 : Nat) = 1 then 0 else (i 1).val; rw [if_neg (by decide)])

/-- A single value spread over any shape reads that value everywhere. -/
theorem splat_apply {t : Shape} (h : S_.BroadcastsInDim t (![] : Fin 0 → Fin t.rank)) (x : FVec Ideal S_ .f32) (i : t.Idx) :
    broadcastInDim t ![] h x i = x ix0 :=
  broadcastInDim_apply _ h x i ix0 (fun a => a.elim0)

/-! ## The reference's stages as functions of whole arrays -/

/-- A graph layer before its floor at zero, as the reference computes it: the neighbour sums divided by the spread
    degrees and multiplied into the first matrix, plus the spread bias, plus the node rows multiplied into the second. -/
abbrev preact (S : FVec Ideal S150000x64 .f32) (M : FVec Ideal S150000 .f32) (X : FVec Ideal S150000x64 .f32)
    (Wl : FVec Ideal S64x64 .f32) (bl : FVec Ideal S64 .f32) (Wr : FVec Ideal S64x64 .f32) : FVec Ideal S150000x64 .f32 :=
  addf (addf (Host.dotGeneral dot_S150000x64_S64x64_S150000x64_1_0_0_1_n_n none
      (Host.divf S (broadcastInDim S150000x64 ![0, 1] bcast_S150000x1_S150000x64_0_1 (broadcastInDim S150000x1 ![0] bcast_S150000_S150000x1_0 M))) Wl)
      (broadcastInDim S150000x64 ![0, 1] bcast_S1x64_S150000x64_0_1 (broadcastInDim S1x64 ![1] bcast_S64_S1x64_1 bl)))
    (Host.dotGeneral dot_S150000x64_S64x64_S150000x64_1_0_0_1_n_n none X Wr)

/-- The floor at zero of a node array: the maximum with a spread zero. -/
abbrev relu64 (Y : FVec Ideal S150000x64 .f32) : FVec Ideal S150000x64 .f32 :=
  maximumf Y (broadcastInDim S150000x64 ![] bcast_S_S150000x64 (constant (F := Ideal) S_ .f32 0x00000000#32))

/-- Per node, the sum of the rows of `X` at the sources of the edges into it, from the two flat rows of the edge list. -/
abbrev aggG (X : Net.RealArr S150000x64) (s d : Net.IntArr S4000000) : Net.RealArr S150000x64 :=
  Host.scatterAdd (F := Ideal) scatter_S150000x64_S4000000x1_S4000000x64_1_0_0_1
    (broadcastInDim S150000x64 ![] bcast_S_S150000x64 (constant (F := Ideal) S_ .f32 0x00000000#32))
    (broadcastInDim S4000000x1 ![0] bcast_S4000000_S4000000x1_0 d)
    (Host.gather gather_S150000x64_S4000000x1_S4000000x64_1_0_n_n_0_1_164 X
      (broadcastInDim S4000000x1 ![0] bcast_S4000000_S4000000x1_0
        (select (cmpi .slt s (broadcastInDim S4000000 ![] bcast_S_S4000000 (constantI S_ 32 0#32)))
          (addi s (broadcastInDim S4000000 ![] bcast_S_S4000000 (constantI S_ 32 150000#32))) s)))

/-- Per node, the number of edges into it, floored at one, from the flat row of destinations. -/
abbrev degG (d : Net.IntArr S4000000) : Net.RealArr S150000 :=
  maximumf (F := Ideal) (Host.scatterAdd (F := Ideal) scatter_S150000_S4000000x1_S4000000_n_0_0_1
      (broadcastInDim S150000 ![] bcast_S_S150000 (constant (F := Ideal) S_ .f32 0x00000000#32))
      (broadcastInDim S4000000x1 ![0] bcast_S4000000_S4000000x1_0 d)
      (broadcastInDim S4000000 ![] bcast_S_S4000000 (constant (F := Ideal) S_ .f32 0x3F800000#32)))
    (broadcastInDim S150000 ![] bcast_S_S150000 (constant (F := Ideal) S_ .f32 0x3F800000#32))

theorem agg_eq (X : Net.RealArr S150000x64) (e : Net.IntArr S2x4000000) : Net.agg X e = aggG X (Net.srcFlat e) (Net.dstFlat e) := rfl
theorem deg_eq (e : Net.IntArr S2x4000000) : Net.deg e = degG (Net.dstFlat e) := rfl

/-- The head's hidden layer before its floor at zero: the two blocks joined, multiplied into the matrix, plus the bias. -/
abbrev hidPre (U I : FVec Ideal S100000x64 .f32) (W1 : FVec Ideal S128x32 .f32) (b1 : FVec Ideal S32 .f32) : FVec Ideal S100000x32 .f32 :=
  addf (Host.dotGeneral dot_S100000x128_S128x32_S100000x32_1_0_0_1_n_n none
      (concatenate S100000x128 1 [⟨S100000x64, U⟩, ⟨S100000x64, I⟩] concatenates_S100000x64_S100000x64_S100000x128_d1) W1)
    (broadcastInDim S100000x32 ![0, 1] bcast_S1x32_S100000x32_0_1 (broadcastInDim S1x32 ![1] bcast_S32_S1x32_1 b1))

/-- The floor at zero of the hidden layer. -/
abbrev relu32 (Y : FVec Ideal S100000x32 .f32) : FVec Ideal S100000x32 .f32 :=
  maximumf Y (broadcastInDim S100000x32 ![] bcast_S_S100000x32 (constant (F := Ideal) S_ .f32 0x00000000#32))

/-- The head's score: the hidden activations multiplied into the column, plus the bias, flattened. -/
abbrev score (H : FVec Ideal S100000x32 .f32) (W2 : FVec Ideal S32x1 .f32) (b2 : FVec Ideal S1 .f32) : FVec Ideal S100000 .f32 :=
  shapeCast S100000 (addf (Host.dotGeneral dot_S100000x32_S32x1_S100000x1_1_0_0_1_n_n none H W2)
    (broadcastInDim S100000x1 ![0, 1] bcast_S1x1_S100000x1_0_1 (broadcastInDim S1x1 ![1] bcast_S1_S1x1_1 b2))) shapeCasts_S100000x1_S100000

/-- The clamp: raised to the spread lower bound, then lowered to the spread upper bound. -/
abbrev clampG (lo hi : FVec Ideal S_ .f32) (x : FVec Ideal S100000 .f32) : FVec Ideal S100000 .f32 :=
  minimumf (broadcastInDim S100000 ![] bcast_S_S100000 hi) (maximumf (broadcastInDim S100000 ![] bcast_S_S100000 lo) x)

/-- One graph layer as the reference computes it — the neighbour sums divided by the spread degrees and multiplied into
    the first matrix, plus the spread bias, plus the node rows multiplied into the second matrix, floored at a spread
    zero — is `Spec.layer`, index by index. -/
theorem layer_eq (S : FVec Ideal S150000x64 .f32) (M : FVec Ideal S150000 .f32) (X : FVec Ideal S150000x64 .f32)
    (Wl : FVec Ideal S64x64 .f32) (bl : FVec Ideal S64 .f32) (Wr : FVec Ideal S64x64 .f32) :
    relu64 (preact S M X Wl bl Wr) = Cert.Spec.layer S M X Wl bl Wr := by
  funext i
  show max ((Host.dotGeneral (F := Ideal) dot_S150000x64_S64x64_S150000x64_1_0_0_1_n_n none _ Wl i
      + broadcastInDim S150000x64 ![0, 1] bcast_S1x64_S150000x64_0_1 (broadcastInDim S1x64 ![1] bcast_S64_S1x64_1 bl) i)
      + Host.dotGeneral (F := Ideal) dot_S150000x64_S64x64_S150000x64_1_0_0_1_n_n none X Wr i)
      (broadcastInDim S150000x64 ![] bcast_S_S150000x64 (constant (F := Ideal) S_ .f32 0x00000000#32) i) = _
  rw [dot_nodes, dot_nodes, row_nodes, splat_apply]
  show max _ (Ideal.ofBits .f32 0x00000000#32) = _
  rw [Ideal.ofBits_zero_f32]
  unfold Cert.Spec.layer
  refine congrArg (fun z => max ((z + bl (ix1 (i 1))) + ∑ k : Fin 64, X (ix2 (i 0) k) * Wr (ix2 k (i 1))) 0) ?_
  refine Finset.sum_congr rfl fun k _ => ?_
  show Ideal.div (S (ix2 (i 0) k)) (broadcastInDim S150000x64 ![0, 1] bcast_S150000x1_S150000x64_0_1 (broadcastInDim S150000x1 ![0] bcast_S150000_S150000x1_0 M) (ix2 (i 0) k)) * _ = _
  rw [col_nodes]

/-- A vector of 32 entries, made a row and spread over the batch, reads at `(r, j)` the vector's entry `j`. -/
theorem row_hidden (b : FVec Ideal S32 .f32) (i : S100000x32.Idx) :
    broadcastInDim S100000x32 ![0, 1] bcast_S1x32_S100000x32_0_1 (broadcastInDim S1x32 ![1] bcast_S32_S1x32_1 b) i = b (ix1 (i 1)) := by
  rw [broadcastInDim_apply _ bcast_S1x32_S100000x32_0_1 _ i (ix2 0 (i 1)) (fun a => by
    match a with
    | ⟨0, _⟩ => show 0 = if (1 : Nat) = 1 then 0 else (i 0).val; rw [if_pos rfl]
    | ⟨1, _⟩ => show (i 1).val = if (32 : Nat) = 1 then 0 else (i 1).val; rw [if_neg (by decide)])]
  exact broadcastInDim_apply _ bcast_S32_S1x32_1 b (ix2 0 (i 1)) (ix1 (i 1)) (fun a => by
    match a with
    | ⟨0, _⟩ => show (i 1).val = if (32 : Nat) = 1 then 0 else (i 1).val; rw [if_neg (by decide)])

/-- A vector of one entry, made a row and spread over the batch, reads that entry everywhere. -/
theorem row_score (b : FVec Ideal S1 .f32) (i : S100000x1.Idx) :
    broadcastInDim S100000x1 ![0, 1] bcast_S1x1_S100000x1_0_1 (broadcastInDim S1x1 ![1] bcast_S1_S1x1_1 b) i = b (ix1 0) := by
  rw [broadcastInDim_apply _ bcast_S1x1_S100000x1_0_1 _ i (ix2 0 0) (fun a => by
    match a with
    | ⟨0, _⟩ => show 0 = if (1 : Nat) = 1 then 0 else (i 0).val; rw [if_pos rfl]
    | ⟨1, _⟩ => show 0 = if (1 : Nat) = 1 then 0 else (i 1).val; rw [if_pos rfl])]
  exact broadcastInDim_apply _ bcast_S1_S1x1_1 b (ix2 0 0) (ix1 0) (fun a => by
    match a with
    | ⟨0, _⟩ => show 0 = if (1 : Nat) = 1 then 0 else (0 : Nat); rw [if_pos rfl])

/-- Two blocks of 64 columns joined side by side: a column below 64 reads the first block. -/
theorem join_left (a b : FVec Ideal S100000x64 .f32) (r : Fin 100000) (k : Fin 64) :
    concatenate S100000x128 1 [⟨S100000x64, a⟩, ⟨S100000x64, b⟩] concatenates_S100000x64_S100000x64_S100000x128_d1 (ix2 r (⟨k.val, by omega⟩ : Fin 128)) = a (ix2 r k) :=
  concatenate_pair_apply_left 1 a b concatenates_S100000x64_S100000x64_S100000x128_d1 (ix2 r (⟨k.val, by omega⟩ : Fin 128)) rfl (ix2 r k) (fun c => by
    match c with
    | ⟨0, _⟩ => rfl
    | ⟨1, _⟩ => rfl)

/-- Two blocks of 64 columns joined side by side: column `64 + k` reads the second block at column `k`. -/
theorem join_right (a b : FVec Ideal S100000x64 .f32) (r : Fin 100000) (k : Fin 64) :
    concatenate S100000x128 1 [⟨S100000x64, a⟩, ⟨S100000x64, b⟩] concatenates_S100000x64_S100000x64_S100000x128_d1 (ix2 r (⟨64 + k.val, by omega⟩ : Fin 128)) = b (ix2 r k) :=
  concatenate_pair_apply_right 1 a b concatenates_S100000x64_S100000x64_S100000x128_d1 (ix2 r (⟨64 + k.val, by omega⟩ : Fin 128)) rfl rfl (ix2 r k) (fun c hc => by
    match c with
    | ⟨0, _⟩ => rfl
    | ⟨1, _⟩ => exact absurd rfl hc) (by show k.val + 64 = 64 + k.val; omega)

/-- The head's hidden activations as the reference computes them — the joined blocks multiplied into the 128×32 matrix,
    plus the spread bias, floored at a spread zero — are `Spec.hidden`: the 128-sum splits into the two blocks' sums. -/
theorem hidden_eq (U I : FVec Ideal S100000x64 .f32) (W1 : FVec Ideal S128x32 .f32) (b1 : FVec Ideal S32 .f32) (r : Fin 100000) (j : Fin 32) :
    relu32 (hidPre U I W1 b1) (ix2 r j) = Cert.Spec.hidden U I W1 b1 r j := by
  show max (Host.dotGeneral (F := Ideal) dot_S100000x128_S128x32_S100000x32_1_0_0_1_n_n none _ W1 (ix2 r j)
      + broadcastInDim S100000x32 ![0, 1] bcast_S1x32_S100000x32_0_1 (broadcastInDim S1x32 ![1] bcast_S32_S1x32_1 b1) (ix2 r j))
      (broadcastInDim S100000x32 ![] bcast_S_S100000x32 (constant (F := Ideal) S_ .f32 0x00000000#32) (ix2 r j)) = _
  rw [dot_hidden, row_hidden, splat_apply]
  show max _ (Ideal.ofBits .f32 0x00000000#32) = _
  rw [Ideal.ofBits_zero_f32, Cert.LibSplitSum.sum_fin128]
  unfold Cert.Spec.hidden
  refine congrArg (fun z => max (z + b1 (ix1 j)) 0) ?_
  refine congrArg₂ (· + ·) (Finset.sum_congr rfl fun k _ => ?_) (Finset.sum_congr rfl fun k _ => ?_)
  · exact congrArg (· * W1 (ix2 ⟨k.val, by omega⟩ j)) (join_left U I r k)
  · exact congrArg (· * W1 (ix2 ⟨64 + k.val, by omega⟩ j)) (join_right U I r k)

/-- The head as the reference computes it — the hidden activations multiplied into the 32×1 matrix, plus the spread bias,
    flattened, raised to the lower bound and lowered to the upper bound — is `Spec.head`, index by index. -/
theorem head_eq (lo hi : FVec Ideal S_ .f32) (U I : FVec Ideal S100000x64 .f32) (W1 : FVec Ideal S128x32 .f32) (b1 : FVec Ideal S32 .f32)
    (W2 : FVec Ideal S32x1 .f32) (b2 : FVec Ideal S1 .f32) :
    clampG lo hi (score (relu32 (hidPre U I W1 b1)) W2 b2) = Cert.Spec.head (lo ix0) (hi ix0) U I W1 b1 W2 b2 := by
  funext i
  show min (broadcastInDim S100000 ![] bcast_S_S100000 hi i) (max (broadcastInDim S100000 ![] bcast_S_S100000 lo i)
    (shapeCast S100000 _ shapeCasts_S100000x1_S100000 i)) = _
  rw [splat_apply, splat_apply, shapeCast_apply _ shapeCasts_S100000x1_S100000 i (ix2 (i 0) 0) (by
    rewrite [Shape.rowMajor_val_two, Shape.rowMajor_val_one]; show (i 0).val * 1 + 0 = (i 0).val; omega)]
  unfold Cert.Spec.head
  refine congrArg (fun z => min (hi ix0) (max (lo ix0) z)) ?_
  show Host.dotGeneral (F := Ideal) dot_S100000x32_S32x1_S100000x1_1_0_0_1_n_n none _ W2 (ix2 (i 0) 0)
    + broadcastInDim S100000x1 ![0, 1] bcast_S1x1_S100000x1_0_1 (broadcastInDim S1x1 ![1] bcast_S1_S1x1_1 b2) (ix2 (i 0) 0) = _
  rw [dot_score, row_score]
  refine congrArg (· + b2 (ix1 0)) (Finset.sum_congr rfl fun j _ => ?_)
  exact congrArg (· * W2 (ix2 j 0)) (hidden_eq U I W1 b1 (i 0) j)

/-! ## The segments, from any contents -/

/-- After the edge-row operations the two rows of the edge list sit in their buffers. -/
theorem segP_src (V : Valuation τ sig (Elt Ideal)) :
    after (opsP (F := Ideal)) V (Proc.devRef .tc main_v1) = Net.srcFlat (V (Proc.devRef .tc main_arg0)) := by
  after_results_simp <;> rfl
theorem segP_dst (V : Valuation τ sig (Elt Ideal)) :
    after (opsP (F := Ideal)) V (Proc.devRef .tc main_v3) = Net.dstFlat (V (Proc.devRef .tc main_arg0)) := by
  after_results_simp <;> rfl

set_option maxRecDepth 8192 in
/-- After the first layer's operations before the floor, the sum buffer holds the layer's value before its floor, of
    the contents of the buffers read. -/
theorem segA (V : Valuation τ sig (Elt Ideal)) :
    after (opsA (F := Ideal)) V (Proc.devRef .tc main_v35)
      = preact (aggG (Net.nodes0 (V (Proc.devRef .tc main_arg3)) (V (Proc.devRef .tc main_arg4))) (V (Proc.devRef .tc main_v1)) (V (Proc.devRef .tc main_v3))) (degG (V (Proc.devRef .tc main_v3))) (Net.nodes0 (V (Proc.devRef .tc main_arg3)) (V (Proc.devRef .tc main_arg4)))
          (Net.mat0 (V (Proc.devRef .tc main_arg5))) (Net.bias0 (V (Proc.devRef .tc main_arg6))) (Net.mat0 (V (Proc.devRef .tc main_arg7))) := by
  after_results_simp <;> rfl

/-- After the first layer's floor operations the result buffer holds the floor at zero of the buffer read. -/
theorem segRa (V : Valuation τ sig (Elt Ideal)) :
    after (opsRa (F := Ideal)) V (Proc.devRef .tc main_v36) = relu64 (V (Proc.devRef .tc main_v35)) := by
  after_results_simp <;> rfl

set_option maxRecDepth 8192 in
/-- After the second layer's operations before the floor, the sum buffer holds the layer's value before its floor, of
    the contents of the buffers read. -/
theorem segB (V : Valuation τ sig (Elt Ideal)) :
    after (opsB (F := Ideal)) V (Proc.devRef .tc main_v67)
      = preact (aggG (V (Proc.devRef .tc main_v36)) (V (Proc.devRef .tc main_v1)) (V (Proc.devRef .tc main_v3))) (degG (V (Proc.devRef .tc main_v3))) (V (Proc.devRef .tc main_v36))
          (Net.mat1 (V (Proc.devRef .tc main_arg5))) (Net.bias1 (V (Proc.devRef .tc main_arg6))) (Net.mat1 (V (Proc.devRef .tc main_arg7))) := by
  after_results_simp <;> rfl

/-- After the second layer's floor operations the result buffer holds the floor at zero of the buffer read. -/
theorem segRb (V : Valuation τ sig (Elt Ideal)) :
    after (opsRb (F := Ideal)) V (Proc.devRef .tc main_v68) = relu64 (V (Proc.devRef .tc main_v67)) := by
  after_results_simp <;> rfl

set_option maxRecDepth 8192 in
/-- After the third layer's operations before the floor, the sum buffer holds the layer's value before its floor, of
    the contents of the buffers read. -/
theorem segC (V : Valuation τ sig (Elt Ideal)) :
    after (opsC (F := Ideal)) V (Proc.devRef .tc main_v99)
      = preact (aggG (V (Proc.devRef .tc main_v68)) (V (Proc.devRef .tc main_v1)) (V (Proc.devRef .tc main_v3))) (degG (V (Proc.devRef .tc main_v3))) (V (Proc.devRef .tc main_v68))
          (Net.mat2 (V (Proc.devRef .tc main_arg5))) (Net.bias2 (V (Proc.devRef .tc main_arg6))) (Net.mat2 (V (Proc.devRef .tc main_arg7))) := by
  after_results_simp <;> rfl

/-- After the third layer's floor operations the result buffer holds the floor at zero of the buffer read. -/
theorem segRc (V : Valuation τ sig (Elt Ideal)) :
    after (opsRc (F := Ideal)) V (Proc.devRef .tc main_v100) = relu64 (V (Proc.devRef .tc main_v99)) := by
  after_results_simp <;> rfl

/-- After the head's gather operations the requested users' rows and the requested items' rows sit in their buffers. -/
theorem segD_users (V : Valuation τ sig (Elt Ideal)) :
    after (opsD (F := Ideal)) V (Proc.devRef .tc main_v107) = Net.users (V (Proc.devRef .tc main_v100)) (V (Proc.devRef .tc main_arg1)) := by
  after_results_simp <;> rfl
theorem segD_items (V : Valuation τ sig (Elt Ideal)) :
    after (opsD (F := Ideal)) V (Proc.devRef .tc main_v116) = Net.items (V (Proc.devRef .tc main_v100)) (V (Proc.devRef .tc main_arg2)) := by
  after_results_simp <;> rfl

/-- After the hidden layer's operations before the floor, the sum buffer holds the hidden layer before its floor. -/
theorem segE (V : Valuation τ sig (Elt Ideal)) :
    after (opsE (F := Ideal)) V (Proc.devRef .tc main_v121)
      = hidPre (V (Proc.devRef .tc main_v107)) (V (Proc.devRef .tc main_v116)) (V (Proc.devRef .tc main_arg8)) (V (Proc.devRef .tc main_arg9)) := by
  after_results_simp <;> rfl

/-- After the hidden layer's floor operations the result buffer holds the floor at zero of the buffer read. -/
theorem segRe (V : Valuation τ sig (Elt Ideal)) :
    after (opsRe (F := Ideal)) V (Proc.devRef .tc main_v122) = relu32 (V (Proc.devRef .tc main_v121)) := by
  after_results_simp <;> rfl

/-- After the score operations the score buffer holds the score, and the two bound buffers the bounds one and five. -/
theorem segG (V : Valuation τ sig (Elt Ideal)) :
    after (opsG (F := Ideal)) V (Proc.devRef .tc main_v127) = score (V (Proc.devRef .tc main_v122)) (V (Proc.devRef .tc main_arg10)) (V (Proc.devRef .tc main_arg11)) := by
  after_results_simp <;> rfl
theorem segG_lo (V : Valuation τ sig (Elt Ideal)) :
    after (opsG (F := Ideal)) V (Proc.devRef .tc main_cst_21) = constant (F := Ideal) S_ .f32 0x3F800000#32 := by
  after_results_simp <;> rfl
theorem segG_hi (V : Valuation τ sig (Elt Ideal)) :
    after (opsG (F := Ideal)) V (Proc.devRef .tc main_cst_22) = constant (F := Ideal) S_ .f32 0x40A00000#32 := by
  after_results_simp <;> rfl

/-- After the clamp operations the result buffer holds the score clamped between the two bound buffers' values. -/
theorem segK (V : Valuation τ sig (Elt Ideal)) :
    after (opsK (F := Ideal)) V (Proc.devRef .tc main_v128) = clampG (V (Proc.devRef .tc main_cst_21)) (V (Proc.devRef .tc main_cst_22)) (V (Proc.devRef .tc main_v127)) := by
  after_results_simp <;> rfl

/-! ## The segments chained -/

/-- The twelve argument buffers. -/
abbrev argRefs : List (Ref sig .tc) :=
  [main_arg0, main_arg1, main_arg2, main_arg3, main_arg4, main_arg5, main_arg6, main_arg7, main_arg8, main_arg9, main_arg10, main_arg11]

/-- No operation writes an argument buffer. -/
theorem arg_kept : ∀ r ∈ argRefs,
    r ∉ writtenP ∧ r ∉ writtenA ∧ r ∉ writtenRa ∧ r ∉ writtenB ∧ r ∉ writtenRb ∧ r ∉ writtenC ∧ r ∉ writtenRc ∧ r ∉ writtenD ∧ r ∉ writtenE ∧ r ∉ writtenRe ∧ r ∉ writtenG ∧ r ∉ writtenK := by decide

/-- The contents after each segment in turn. -/
abbrev t1 (V0 : Valuation τ sig (Elt Ideal)) : Valuation τ sig (Elt Ideal) := after (opsP (F := Ideal)) V0
abbrev t2 (V0 : Valuation τ sig (Elt Ideal)) : Valuation τ sig (Elt Ideal) := after (opsA (F := Ideal)) (t1 V0)
abbrev t3 (V0 : Valuation τ sig (Elt Ideal)) : Valuation τ sig (Elt Ideal) := after (opsRa (F := Ideal)) (t2 V0)
abbrev t4 (V0 : Valuation τ sig (Elt Ideal)) : Valuation τ sig (Elt Ideal) := after (opsB (F := Ideal)) (t3 V0)
abbrev t5 (V0 : Valuation τ sig (Elt Ideal)) : Valuation τ sig (Elt Ideal) := after (opsRb (F := Ideal)) (t4 V0)
abbrev t6 (V0 : Valuation τ sig (Elt Ideal)) : Valuation τ sig (Elt Ideal) := after (opsC (F := Ideal)) (t5 V0)
abbrev t7 (V0 : Valuation τ sig (Elt Ideal)) : Valuation τ sig (Elt Ideal) := after (opsRc (F := Ideal)) (t6 V0)
abbrev t8 (V0 : Valuation τ sig (Elt Ideal)) : Valuation τ sig (Elt Ideal) := after (opsD (F := Ideal)) (t7 V0)
abbrev t9 (V0 : Valuation τ sig (Elt Ideal)) : Valuation τ sig (Elt Ideal) := after (opsE (F := Ideal)) (t8 V0)
abbrev t10 (V0 : Valuation τ sig (Elt Ideal)) : Valuation τ sig (Elt Ideal) := after (opsRe (F := Ideal)) (t9 V0)
abbrev t11 (V0 : Valuation τ sig (Elt Ideal)) : Valuation τ sig (Elt Ideal) := after (opsG (F := Ideal)) (t10 V0)
abbrev t12 (V0 : Valuation τ sig (Elt Ideal)) : Valuation τ sig (Elt Ideal) := after (opsK (F := Ideal)) (t11 V0)

/-- Running all the operations is running the segments in turn. -/
theorem after_all (V0 : Valuation τ sig (Elt Ideal)) :
    after (opsP ++ opsA ++ opsRa ++ opsB ++ opsRb ++ opsC ++ opsRc ++ opsD ++ opsE ++ opsRe ++ opsG ++ opsK : List (HloOp τ sig (Elt Ideal))) V0 = t12 V0 := by
  rw [after_append, after_append, after_append, after_append, after_append, after_append, after_append, after_append, after_append, after_append, after_append]

/-- An argument buffer holds its starting contents after every segment. -/
theorem lv_args (V0 : Valuation τ sig (Elt Ideal)) (r : Ref sig .tc) (hr : r ∈ argRefs) :
    t1 V0 (Proc.devRef .tc r) = V0 (Proc.devRef .tc r)
    ∧ t2 V0 (Proc.devRef .tc r) = V0 (Proc.devRef .tc r)
    ∧ t3 V0 (Proc.devRef .tc r) = V0 (Proc.devRef .tc r)
    ∧ t4 V0 (Proc.devRef .tc r) = V0 (Proc.devRef .tc r)
    ∧ t5 V0 (Proc.devRef .tc r) = V0 (Proc.devRef .tc r)
    ∧ t6 V0 (Proc.devRef .tc r) = V0 (Proc.devRef .tc r)
    ∧ t7 V0 (Proc.devRef .tc r) = V0 (Proc.devRef .tc r)
    ∧ t8 V0 (Proc.devRef .tc r) = V0 (Proc.devRef .tc r)
    ∧ t9 V0 (Proc.devRef .tc r) = V0 (Proc.devRef .tc r)
    ∧ t10 V0 (Proc.devRef .tc r) = V0 (Proc.devRef .tc r)
    ∧ t11 V0 (Proc.devRef .tc r) = V0 (Proc.devRef .tc r)
    ∧ t12 V0 (Proc.devRef .tc r) = V0 (Proc.devRef .tc r) := by
  obtain ⟨hP, hA, hRa, hB, hRb, hC, hRc, hD, hE, hRe, hG, hK⟩ := arg_kept r hr
  have e1 := keepP V0 r hP
  have e2 := (keepA (t1 V0) r hA).trans e1
  have e3 := (keepRa (t2 V0) r hRa).trans e2
  have e4 := (keepB (t3 V0) r hB).trans e3
  have e5 := (keepRb (t4 V0) r hRb).trans e4
  have e6 := (keepC (t5 V0) r hC).trans e5
  have e7 := (keepRc (t6 V0) r hRc).trans e6
  have e8 := (keepD (t7 V0) r hD).trans e7
  have e9 := (keepE (t8 V0) r hE).trans e8
  have e10 := (keepRe (t9 V0) r hRe).trans e9
  have e11 := (keepG (t10 V0) r hG).trans e10
  have e12 := (keepK (t11 V0) r hK).trans e11
  exact ⟨e1, e2, e3, e4, e5, e6, e7, e8, e9, e10, e11, e12⟩

/-- The two rows of the edge list sit in their buffers when each layer reads them. -/
theorem c_rows (V0 : Valuation τ sig (Elt Ideal)) :
    (t1 V0 (Proc.devRef .tc main_v1) = Net.srcFlat (V0 (Proc.devRef .tc main_arg0)) ∧ t1 V0 (Proc.devRef .tc main_v3) = Net.dstFlat (V0 (Proc.devRef .tc main_arg0)))
    ∧ (t3 V0 (Proc.devRef .tc main_v1) = Net.srcFlat (V0 (Proc.devRef .tc main_arg0)) ∧ t3 V0 (Proc.devRef .tc main_v3) = Net.dstFlat (V0 (Proc.devRef .tc main_arg0)))
    ∧ (t5 V0 (Proc.devRef .tc main_v1) = Net.srcFlat (V0 (Proc.devRef .tc main_arg0)) ∧ t5 V0 (Proc.devRef .tc main_v3) = Net.dstFlat (V0 (Proc.devRef .tc main_arg0))) := by
  have a1 := segP_src V0
  have a3 := segP_dst V0
  have b1 := (keepA (t1 V0) main_v1 (by decide)).trans a1
  have b3 := (keepA (t1 V0) main_v3 (by decide)).trans a3
  have c1 := (keepRa (t2 V0) main_v1 (by decide)).trans b1
  have c3 := (keepRa (t2 V0) main_v3 (by decide)).trans b3
  have d1 := (keepB (t3 V0) main_v1 (by decide)).trans c1
  have d3 := (keepB (t3 V0) main_v3 (by decide)).trans c3
  have e1 := (keepRb (t4 V0) main_v1 (by decide)).trans d1
  have e3 := (keepRb (t4 V0) main_v3 (by decide)).trans d3
  exact ⟨⟨a1, a3⟩, ⟨c1, c3⟩, ⟨e1, e3⟩⟩

/-- After the first layer its buffer holds the network's first layer of the starting arguments. -/
theorem c_feat1 (V0 : Valuation τ sig (Elt Ideal)) :
    t3 V0 (Proc.devRef .tc main_v36) = Net.feat1 (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) := by
  obtain ⟨⟨r1, r3⟩, -, -⟩ := c_rows V0
  have k3 := (lv_args V0 main_arg3 (by decide)).1
  have k4 := (lv_args V0 main_arg4 (by decide)).1
  have k5 := (lv_args V0 main_arg5 (by decide)).1
  have k6 := (lv_args V0 main_arg6 (by decide)).1
  have k7 := (lv_args V0 main_arg7 (by decide)).1
  have hA : t2 V0 (Proc.devRef .tc main_v35) = _ := segA (t1 V0)
  rw [k3, k4, k5, k6, k7, r1, r3] at hA
  have hR : t3 V0 (Proc.devRef .tc main_v36) = _ := segRa (t2 V0)
  rw [hA] at hR
  exact hR.trans (layer_eq _ _ _ _ _ _)

/-- After the second layer its buffer holds the network's second layer of the starting arguments. -/
theorem c_feat2 (V0 : Valuation τ sig (Elt Ideal)) :
    t5 V0 (Proc.devRef .tc main_v68) = Net.feat2 (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) := by
  obtain ⟨-, ⟨r1, r3⟩, -⟩ := c_rows V0
  have f1 := c_feat1 V0
  have k5 := (lv_args V0 main_arg5 (by decide)).2.2.1
  have k6 := (lv_args V0 main_arg6 (by decide)).2.2.1
  have k7 := (lv_args V0 main_arg7 (by decide)).2.2.1
  have hB : t4 V0 (Proc.devRef .tc main_v67) = _ := segB (t3 V0)
  rw [f1, k5, k6, k7, r1, r3] at hB
  have hR : t5 V0 (Proc.devRef .tc main_v68) = _ := segRb (t4 V0)
  rw [hB] at hR
  exact hR.trans (layer_eq _ _ _ _ _ _)

/-- After the third layer its buffer holds the network's third layer of the starting arguments. -/
theorem c_feat3 (V0 : Valuation τ sig (Elt Ideal)) :
    t7 V0 (Proc.devRef .tc main_v100) = Net.feat3 (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) := by
  obtain ⟨-, -, ⟨r1, r3⟩⟩ := c_rows V0
  have f2 := c_feat2 V0
  have k5 := (lv_args V0 main_arg5 (by decide)).2.2.2.2.1
  have k6 := (lv_args V0 main_arg6 (by decide)).2.2.2.2.1
  have k7 := (lv_args V0 main_arg7 (by decide)).2.2.2.2.1
  have hC : t6 V0 (Proc.devRef .tc main_v99) = _ := segC (t5 V0)
  rw [f2, k5, k6, k7, r1, r3] at hC
  have hR : t7 V0 (Proc.devRef .tc main_v100) = _ := segRc (t6 V0)
  rw [hC] at hR
  exact hR.trans (layer_eq _ _ _ _ _ _)

/-- After all the operations the result buffer holds the network's ratings of the starting arguments. -/
theorem result_eq (V0 : Valuation τ sig (Elt Ideal)) :
    t12 V0 (Proc.devRef .tc main_v128) = Net.rating (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  have f3 := c_feat3 V0
  have k1 := (lv_args V0 main_arg1 (by decide)).2.2.2.2.2.2.1
  have k2 := (lv_args V0 main_arg2 (by decide)).2.2.2.2.2.2.1
  have k8 := (lv_args V0 main_arg8 (by decide)).2.2.2.2.2.2.2.1
  have k9 := (lv_args V0 main_arg9 (by decide)).2.2.2.2.2.2.2.1
  have k10 := (lv_args V0 main_arg10 (by decide)).2.2.2.2.2.2.2.2.2.1
  have k11 := (lv_args V0 main_arg11 (by decide)).2.2.2.2.2.2.2.2.2.1
  have hU : t8 V0 (Proc.devRef .tc main_v107) = _ := segD_users (t7 V0)
  rw [f3, k1] at hU
  have hI : t8 V0 (Proc.devRef .tc main_v116) = _ := segD_items (t7 V0)
  rw [f3, k2] at hI
  have hE : t9 V0 (Proc.devRef .tc main_v121) = _ := segE (t8 V0)
  rw [hU, hI, k8, k9] at hE
  have hRe : t10 V0 (Proc.devRef .tc main_v122) = _ := segRe (t9 V0)
  rw [hE] at hRe
  have hG : t11 V0 (Proc.devRef .tc main_v127) = _ := segG (t10 V0)
  rw [hRe, k10, k11] at hG
  have hlo : t11 V0 (Proc.devRef .tc main_cst_21) = _ := segG_lo (t10 V0)
  have hhi : t11 V0 (Proc.devRef .tc main_cst_22) = _ := segG_hi (t10 V0)
  have hK : t12 V0 (Proc.devRef .tc main_v128) = _ := segK (t11 V0)
  rw [hG, hlo, hhi] at hK
  exact hK.trans (head_eq _ _ _ _ _ _ _ _)

/-! ## The run -/

/-- On every device, from any memory with zero counters: every weakly fair execution of the reference terminates with the
    result buffer at the network's ratings of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v128) = Cert.Net.rating (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v128).trans ((congrFun (after_all _) _).trans (result_eq (launchContents m c))),
      (h c main_arg0).trans ((congrFun (after_all _) _).trans (lv_args (launchContents m c) main_arg0 (by decide)).2.2.2.2.2.2.2.2.2.2.2),
      (h c main_arg1).trans ((congrFun (after_all _) _).trans (lv_args (launchContents m c) main_arg1 (by decide)).2.2.2.2.2.2.2.2.2.2.2),
      (h c main_arg2).trans ((congrFun (after_all _) _).trans (lv_args (launchContents m c) main_arg2 (by decide)).2.2.2.2.2.2.2.2.2.2.2),
      (h c main_arg3).trans ((congrFun (after_all _) _).trans (lv_args (launchContents m c) main_arg3 (by decide)).2.2.2.2.2.2.2.2.2.2.2),
      (h c main_arg4).trans ((congrFun (after_all _) _).trans (lv_args (launchContents m c) main_arg4 (by decide)).2.2.2.2.2.2.2.2.2.2.2),
      (h c main_arg5).trans ((congrFun (after_all _) _).trans (lv_args (launchContents m c) main_arg5 (by decide)).2.2.2.2.2.2.2.2.2.2.2),
      (h c main_arg6).trans ((congrFun (after_all _) _).trans (lv_args (launchContents m c) main_arg6 (by decide)).2.2.2.2.2.2.2.2.2.2.2),
      (h c main_arg7).trans ((congrFun (after_all _) _).trans (lv_args (launchContents m c) main_arg7 (by decide)).2.2.2.2.2.2.2.2.2.2.2),
      (h c main_arg8).trans ((congrFun (after_all _) _).trans (lv_args (launchContents m c) main_arg8 (by decide)).2.2.2.2.2.2.2.2.2.2.2),
      (h c main_arg9).trans ((congrFun (after_all _) _).trans (lv_args (launchContents m c) main_arg9 (by decide)).2.2.2.2.2.2.2.2.2.2.2),
      (h c main_arg10).trans ((congrFun (after_all _) _).trans (lv_args (launchContents m c) main_arg10 (by decide)).2.2.2.2.2.2.2.2.2.2.2),
      (h c main_arg11).trans ((congrFun (after_all _) _).trans (lv_args (launchContents m c) main_arg11 (by decide)).2.2.2.2.2.2.2.2.2.2.2)⟩)
    (run_seq scopedRefs_eq scopedSems_eq defs main (fun _ => opsP ++ opsA ++ opsRa ++ opsB ++ opsRb ++ opsC ++ opsRc ++ opsD ++ opsE ++ opsRe ++ opsG ++ opsK) main_eq (fun _ => ops_sub) m ρ (fun _ => ops_fresh))

end Cert.ReferenceIdeal.RefValue

end
-- ==== Proof.lean ====
/-
  The certificate of a three-layer graph network with a scoring head against its array-library reference, over the extended reals.

  Both programs compute, from the edge list, the user and item embeddings and the weights, the same ratings.  Each layer
  replaces a node's features by `max (mean-of-in-neighbours · Wl + bl + own-features · Wr) 0`; the head scores a user row and
  an item row through a two-layer perceptron and clamps the score to `[1, 5]`.  The kernel differs from the reference in how it
  arranges the arithmetic: it multiplies by a precomputed reciprocal of the floored in-degree where the reference divides
  (equal because the floored degree is at least one, hence not zero), it joins the mean and the own features into 128 columns
  and multiplies once by the two weight matrices stacked (a sum over 128 terms is the sum of its two halves), it adds the bias
  after both products (addition is associative and commutative), it keeps the node features between layers in a narrower float
  format (the identity on the extended reals), and in the head it multiplies the user and the item rows separately by the two
  halves of the first weight matrix where the reference joins the rows first.  No step needs the inputs to be finite.

  The three frame claims: the two kernel programs run to completion with their arguments unchanged (the generated frames over
  the nine segments of @main), and so does the reference (its run, with the result dropped).  The idealization rewrote nothing,
  so the preservation claim is trivial.  For the value claim both programs end with their result at `Cert.Net.rating` of the
  argument arrays: the kernel by following the buffer contents through its segments (`Chain.result`), the reference by
  evaluating its host operations (`RefValue.run`).
-/
import proofs.«151319_j35064113004962_2_alg».proof.Defs
import proofs.«151319_j35064113004962_2_alg».proof.Proof.Gen.Kernel
import proofs.«151319_j35064113004962_2_alg».proof.Proof.Gen.Kernel.Skeleton
import proofs.«151319_j35064113004962_2_alg».proof.Proof.Gen.Kernel.Launch
import proofs.«151319_j35064113004962_2_alg».proof.Proof.Gen.Kernel.Points
import proofs.«151319_j35064113004962_2_alg».proof.Proof.Gen.Kernel.Frame
import proofs.«151319_j35064113004962_2_alg».proof.Proof.Gen.KernelIdeal
import proofs.«151319_j35064113004962_2_alg».proof.Proof.Gen.KernelIdeal.Skeleton
import proofs.«151319_j35064113004962_2_alg».proof.Proof.Gen.KernelIdeal.Launch
import proofs.«151319_j35064113004962_2_alg».proof.Proof.Gen.KernelIdeal.Points
import proofs.«151319_j35064113004962_2_alg».proof.Proof.Gen.KernelIdeal.Frame
import proofs.«151319_j35064113004962_2_alg».proof.Proof.Gen.ReferenceIdeal
import proofs.«151319_j35064113004962_2_alg».proof.Proof.Gen.Pre_finite_inputs
import proofs.«151319_j35064113004962_2_alg».proof.Proof.KernelRun
import proofs.«151319_j35064113004962_2_alg».proof.Proof.Chain
import proofs.«151319_j35064113004962_2_alg».proof.Proof.RefValue
import Idealize.ShloMosaic.Adequacy
import Idealize.ShloMosaic.Init

noncomputable section

namespace Cert.Proof

open Idealize.ShloMosaic Idealize.SL.Sem

/-- Both idealized programs, run from memories that agree on the arguments, end with the network's ratings of those arguments. -/
theorem algebraic : Cert.algebraic_KernelIdeal_ReferenceIdeal := by
  intro m ρ m' ρ' _ hagree
  refine ⟨fun c => Cert.Net.rating (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Chain.result m ρ c), (h c).2⟩)
      (Cert.KernelIdeal.Result.run_result m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefValue.run m ρ),
  trivial,
  algebraic⟩

end Cert.Proof

end
